-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x256 : Shape := ⟨2, ![1024, 256]⟩
abbrev S256 : Shape := ⟨1, ![256]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4096x1024 .f32) (main_arg1 : FVec F S1024x256 .f32) (main_arg2 : FVec F S256 .f32) (main_arg3 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x1024 : Shape := ⟨2, ![4096, 1024]⟩
abbrev S1024x256 : Shape := ⟨2, ![1024, 256]⟩
abbrev S256 : Shape := ⟨1, ![256]⟩
abbrev S4096 : Shape := ⟨1, ![4096]⟩
abbrev S1x256 : Shape := ⟨2, ![1, 256]⟩
abbrev S4096x256 : Shape := ⟨2, ![4096, 256]⟩
abbrev S4096x1 : Shape := ⟨2, ![4096, 1]⟩
abbrev S512x1024 : Shape := ⟨2, ![512, 1024]⟩
abbrev S512x256 : Shape := ⟨2, ![512, 256]⟩
abbrev S512x1 : Shape := ⟨2, ![512, 1]⟩
abbrev S512 : Shape := ⟨1, ![512]⟩
abbrev S1x4096 : Shape := ⟨2, ![1, 4096]⟩
abbrev S1x1024 : Shape := ⟨2, ![1, 1024]⟩
abbrev S_ : Shape := ⟨0, ![]⟩

abbrev nBuf : Space → Nat
  | .hbm => 15
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S256, .f32⟩
  | .hbm, ⟨3, _⟩ => ⟨S4096, .i32⟩
  | .hbm, ⟨4, _⟩ => ⟨S1x256, .f32⟩
  | .hbm, ⟨5, _⟩ => ⟨S4096x256, .f32⟩
  | .hbm, ⟨6, _⟩ => ⟨S4096x1, .f32⟩
  | .hbm, ⟨7, _⟩ => ⟨S4096x1, .i32⟩
  | .hbm, ⟨8, _⟩ => ⟨S1x4096, .i32⟩
  | .hbm, ⟨9, _⟩ => ⟨S1x4096, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S512x1, .f32⟩
  | .local _ .vmem, ⟨7, _⟩ => ⟨S512x1, .f32⟩
  | .local _ .vmem, ⟨8, _⟩ => ⟨S512x256, .f32⟩
  | .local _ .vmem, ⟨9, _⟩ => ⟨S512x256, .f32⟩
  | .local _ .vmem, ⟨10, _⟩ => ⟨S4096x256, .f32⟩
  | .local _ .vmem, ⟨11, _⟩ => ⟨S512x1, .f32⟩
  | .local _ .vmem, ⟨12, _⟩ => ⟨S512x1, .f32⟩
  | .local _ .vmem, ⟨13, _⟩ => ⟨S1x4096, .f32⟩
  | .local _ .vmem, ⟨14, _⟩ => ⟨S512x1, .i32⟩
  | .local _ .vmem, ⟨15, _⟩ => ⟨S512x1, .i32⟩
  | .local _ .vmem, ⟨16, _⟩ => ⟨S1x4096, .i32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_off2 (i : grid1.Coords) : Fin 2 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v8 : Index := Scalar.indexCast v4
  ![0, v8.toNat]
def k1_cond2 (i : grid1.Coords) : BitVec 1 :=
  let arg1 : BitVec 32 := BitVec.ofNat 32 (i 1).val
  let c3_i32 : BitVec 32 := 3#32
  let v62 : BitVec 1 := Scalar.cmpi .eq arg1 c3_i32
  let v63 : BitVec 32 := Scalar.extui v62
  let c0_i32_23 : BitVec 32 := 0#32
  let v64 : BitVec 1 := Scalar.cmpi .ne v63 c0_i32_23
  v64

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x4096 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S256_S1x256 : S256.ShapeCasts S1x256
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096_S4096x1 : S4096.ShapeCasts S4096x1
  shapeCasts_S4096_S1x4096 : S4096.ShapeCasts S1x4096
  shapeCasts_S4096x1_S1x4096 : S4096x1.ShapeCasts S1x4096
  shapeCasts_S512x1_S512x1 : S512x1.ShapeCasts S512x1
  shapeCasts_S1024x256_S1024x256 : S1024x256.ShapeCasts S1024x256
  h_S1x1024 : 0 < S1x1024.numel
  shapeCasts_S1x1024_S1x1024 : S1x1024.ShapeCasts S1x1024
  shapeCasts_S512x256_S512x256 : S512x256.ShapeCasts S512x256
  broadcasts_S512x1_S512x1024 : S512x1.Broadcasts S512x1024
  broadcasts_S1x1024_S512x1024 : S1x1024.Broadcasts S512x1024
  iota_S512x1_d0_w32 : S512x1.Iotas .tc 32 [0]
  iota_S1x1024_d1_w32 : S1x1024.Iotas .tc 32 [1]
  reduces_S512x1024_S512 : S512x1024.Reduces [1] S512
  reducesTo_S4096x1_S_d0_1 : S4096x1.ReducesTo [0, 1] S_
  h_S_ : 0 < S_.numel
  dot_S512x1024_S1024x256_S512x256_1_0_0_1_n_n_wf : DotDims.WF S512x1024 S1024x256 S512x256 [1] [0] [0] [1] [] []
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S4096x256.size a
  k1_off2_inb : ∀ i : grid1.Coords, ∀ a, (k1_off2 i) a + S1x1024.size a ≤ S1x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .i32 = 32 ∨ (Rect.block (s := S4096x1) S512x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .i32 = 32 ∨ (Rect.block (s := S1x4096) S1x4096.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x256 : Shape := ⟨2, ![1024, 256]⟩
abbrev S256 : Shape := ⟨1, ![256]⟩
abbrev S4096 : Shape := ⟨1, ![4096]⟩
abbrev S4096x256 : Shape := ⟨2, ![4096, 256]⟩
abbrev S1x256 : Shape := ⟨2, ![1, 256]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S256, .f32⟩
  | .hbm, ⟨3, _⟩ => ⟨S4096, .i32⟩
  | .hbm, ⟨4, _⟩ => ⟨S4096x256, .f32⟩
  | .hbm, ⟨5, _⟩ => ⟨S1x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S256x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_call0_v0 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_call1_v0 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  reducesTo_S4096_S_d0 : S4096.ReducesTo [0] S_
  dot_S4096x1024_S1024x256_S4096x256_1_0_0_1_n_n_wf : DotDims.WF S4096x1024 S1024x256 S4096x256 [1] [0] [0] [1] [] []
  dot_S4096x256_S256x4096_S4096x4096_1_0_0_1_n_n_wf : DotDims.WF S4096x256 S256x4096 S4096x4096 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.KFrameFc.lean ====
/-
  The first pipelined region (the projection kernel): its frame half at a parameter `V`, the buffer
  contents when the region is entered.

  The body reads three input windows whole — a block of 512 rows of `x`, the matrix `W` and the row `b` —
  and fills two output windows whole: the block `x · W + b` of 512 rows and the column of its rows'
  sums of squares. Both stores cover their buffers, so what the body leaves in each is a closed function
  of the three input blocks (`outH`, `outSq`), and each input buffer holds its window's block at every
  point whether or not the pipeline fetched it there (`W` and `b` are fetched once; their block index
  never moves). From these: the proof data `dat` and the body obligation at every point.

  Everything is stated for any float instance `F`.
-/
import proofs.«168887_j43078521979195_2_alg».proof.Proof.Gen.Kernel.Launch
import proofs.«168887_j43078521979195_2_alg».proof.Proof.Gen.Kernel.Skeleton
import proofs.«168887_j43078521979195_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffer contents when the region is entered
variable (V : (c : Dev nD) → (b : Ref sig .tc) → Buf (Elt F) ((c : Thread nD τ).loc b))

/-! ## The windows' blocks -/

/-- The block of window `w` at point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the `x` window holds its block at every point: it is fetched at every point, and for any
    proof data whose array is `V`'s and whose body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The buffer of the `W` window holds its block at every point: fetched at the first point only, its block
    index is the same at every point, so the block stays what the body left in place. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the `b` window. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes: each buffer whole -/

abbrev rX : Rect S512x1024 := Rect.unit (s := S512x1024) ![0, 0] S512x1024.size inb_S512x1024_S512x1024_0_0
abbrev rW : Rect S1024x256 := Rect.unit (s := S1024x256) ![0, 0] S1024x256.size inb_S1024x256_S1024x256_0_0
abbrev rB : Rect S1x256 := Rect.unit (s := S1x256) ![0, 0] S1x256.size inb_S1x256_S1x256_0_0
abbrev rH : Rect S512x256 := Rect.unit (s := S512x256) ![0, 0] S512x256.size inb_S512x256_S512x256_0_0
abbrev rS : Rect S512x1 := Rect.unit (s := S512x1) ![0, 0] S512x1.size inb_S512x1_S512x1_0_0

/-! ## What the body leaves in the two output buffers -/

/-- The buffer of the projected block after the body: its one store, of `x · W + b` over the three loads. -/
def outH (x0 : Vec F S512x1024 .f32) (x1 : Vec F S1024x256 .f32) (x2 : Vec F S1x256 .f32) : Vec F S512x256 .f32 :=
  View.canon [⟨rH, k0_pay1 (View.ld x0 rX) (View.ld x1 rW) (View.ld x2 rB)⟩]

/-- The one store is of the whole buffer, so it covers it. -/
theorem coverH (p0 : Vec F S512x256 .f32) (y : S512x256.Idx) :
    ∃ pc ∈ ([⟨rH, p0⟩] : List (View.Piece (Elt F) S512x256 .f32)), y ∈ pc.1.set :=
  View.cover_of_tiled [⟨rH, p0⟩] S512x256.size (by rfl) y

/-- The buffer of the rows' sums of squares after the body: its one store, over the same three loads. -/
def outSq (x0 : Vec F S512x1024 .f32) (x1 : Vec F S1024x256 .f32) (x2 : Vec F S1x256 .f32) : Vec F S512x1 .f32 :=
  View.canon [⟨rS, k0_pay2 (View.ld x0 rX) (View.ld x1 rW) (View.ld x2 rB)⟩]

theorem coverSq (p0 : Vec F S512x1 .f32) (y : S512x1.Idx) :
    ∃ pc ∈ ([⟨rS, p0⟩] : List (View.Piece (Elt F) S512x1 .f32)), y ∈ pc.1.set :=
  View.cover_of_tiled [⟨rS, p0⟩] S512x1.size (by rfl) y

/-! ## The body's triple -/

set_option maxHeartbeats 1000000 in
/-- The body on whole buffers, the three inputs' at read contents `x0 x1 x2` and the two outputs' at anything, runs
    to a continuation that holds the inputs' as they were and the outputs' at `outH` and `outSq` of the inputs. -/
theorem sound_kernel (c : Dev nD) (E : Set ℕ) (i : grid0.Coords)
    (arg1 : Memref sig .tc .vmem S512x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S512x256 .f32) (harg4 : arg4.IsWhole)
    (arg5 : Memref sig .tc .vmem S512x1 .f32) (harg5 : arg5.IsWhole)
    (x0 : Vec F S512x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outH x0 x1 x2) ∗ owns (c : Thread nD τ) arg5 fullShare (outSq x0 x1 x2)) -∗ K ⟨⟩))
      ⊢ wp frame (wpE (defs₀ (F := F)) Variants.none c none) E (cc0__fc_kernel i arg1 harg1 arg2 harg2 arg3 harg3 arg4 harg4 arg5 harg5) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverH _)
  iexists _; isplitr
  swap; · iexact H4
  ipureintro
  exact View.read_writes_eq_canon _ _ _ (coverSq _)

/-! ## The proof data -/

/-- The proof data of the region on core `c`: the arrays as the region finds them; after the body at point `t`
    each input buffer at its block and the two output buffers at `outH` and `outSq` of the three input blocks; the
    invariant is the untouched rest; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outH (iblk V c 0 t) (iblk V c 1 t) (iblk V c 2 t)
    | ⟨4, _⟩ => outSq (iblk V c 0 t) (iblk V c 1 t) (iblk V c 2 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outH (iblk V c 0 t) (iblk V c 1 t) (iblk V c 2 t) := by dsimp only [dat]
theorem after_4 (c : Dev nD) (t : Fin cfg0.N) :
    (dat V c).after 4 t = outSq (iblk V c 0 t) (iblk V c 1 t) (iblk V c 2 t) := by dsimp only [dat]

/-- Each input buffer holds its window's block at every point. -/
theorem before_0 (c : Dev nD) (t : Fin cfg0.N) (d) : (dat V c).before 0 t d = iblk V c 0 t :=
  before_x_of V (dat V c) (A_eq V c 0) (after_0 V c) t d
theorem before_1 (c : Dev nD) (t : Fin cfg0.N) (d) : (dat V c).before 1 t d = iblk V c 1 t :=
  before_w_of V (dat V c) (A_eq V c 1) (after_1 V c) t d
theorem before_2 (c : Dev nD) (t : Fin cfg0.N) (d) : (dat V c).before 2 t d = iblk V c 2 t :=
  before_b_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the input buffers hold their blocks, so the body's triple applies; the invariant and
    what is owed pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Region

end Cert.Kernel.Fc

end
-- ==== Proof.KFrameDist.lean ====
/-
  The second kernel region (pairwise squared distances with hardest mining over an 8 × 4 grid of row block ×
  key block) — what its three control cases share.

  The body initialises its two running extrema (scratch buffers of 512 entries) when the key-block coordinate is
  0, folds one block of 1024 keys into them at every point, and writes the margin of the row block (root of the
  running maximum minus root of the running minimum) into its output block when the key-block coordinate is 3.
  Over the row-major grid the two conditions hold at the points ≡ 0 and ≡ 3 modulo 4. The output block is idle
  (neither stored into nor written back) at the other points.
-/
import proofs.«168887_j43078521979195_2_alg».proof.Proof.Gen.Kernel.Launch
import proofs.«168887_j43078521979195_2_alg».proof.Proof.Gen.Kernel.Skeleton
import proofs.«168887_j43078521979195_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "the key-block coordinate is 0": the condition under which the running extrema are initialised. -/
abbrev isFirst (i : grid1.Coords) : Prop :=
  (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- "the key-block coordinate is 3": the condition under which the margin is written out. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
/-- The output block is idle wherever the margin is not written, and is not written back there. -/
theorem idle_6 : ∀ t : Fin cfg1.N, ¬isLast (grid1.coords t) → cfg1.idle 6 (grid1.coords t) = true := by decide +kernel
theorem noFlush_6 : ∀ t : Fin cfg1.N, ¬isLast (grid1.coords t) → (cfg1.win 6).flush t = false := by decide +kernel
theorem live_6 : ∀ t : Fin cfg1.N, isLast (grid1.coords t) → cfg1.idle 6 (grid1.coords t) = false := by decide +kernel

/-! ## The memrefs the body is called with -/

abbrev ms0 (t : Fin cfg1.N) : Memref sig .tc .vmem S512x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x4096 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x4096 .i32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
/-- The running maximum and the running minimum: whole scoped buffers of the kernel's own. -/
abbrev scMax : Memref sig .tc .vmem S512x1 .f32 := Memref.whole cc1_scratch0
abbrev scMin : Memref sig .tc .vmem S512x1 .f32 := Memref.whole cc1_scratch1
/-- The views through which the contents of the output block and of the two running extrema are stated. -/
abbrev VOut : View sig .tc .vmem S512x1 .f32 := (Memref.whole cc1_stg6_0 : Memref sig .tc .vmem S512x1 .f32).view
abbrev VMax : View sig .tc .vmem S512x1 .f32 := scMax.view
abbrev VMin : View sig .tc .vmem S512x1 .f32 := scMin.view

/-- The scoped buffers of the core other than this region's staging buffers and its two scratch buffers, at some
    contents each: carried through the region unopened. -/
abbrev others (c : Dev nD) : sProp 𝕄 :=
  Pipeline.scopedRestBut (Ix := Unit) (Name := ℕ) (U := UR sig nD τ) (Lvl := ℕ) (Val := Elt F) spec1 c [cc1_scratch0, cc1_scratch1]

/-- The region invariant of the class (every scoped buffer that is no staging buffer at some contents, the
    generator register at some state) with the two scratch buffers singled out as memrefs. -/
theorem PhiA_eq (c : Dev nD) :
    (Pipeline.ΦA spec1 c : sProp 𝕄)
      = iprop((((∃ d, owns (c : Thread nD τ) scMax fullShare d) ∗ (∃ d, owns (c : Thread nD τ) scMin fullShare d)) ∗ others c) ∗ (∃ r, prngReg c r)) := by
  unfold Pipeline.ΦA
  rw [Pipeline.scopedRest_split_of_list spec1 c [cc1_scratch0, cc1_scratch1] (by decide) (by decide)]
  simp only [scMax, scMin, owns_whole]
  rfl

end Cert.Kernel.Dist

end
-- ==== Proof.KRunFirst.lean ====
/-
  The distance kernel's body at a point whose key-block coordinate is 0 (and not 3): the two running extrema are
  initialised and the first block of keys is folded into them; the output block is left as it was handed.
  The body's triple, with the stores each scratch buffer ends with as its witness.
-/
import proofs.«168887_j43078521979195_2_alg».proof.Proof.KFrameDist

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the six input blocks at their contents, the idle output block at contents handed back
    untouched, the two scratch buffers at anything — the body runs to the continuation holding the inputs as they
    were and each scratch buffer with its stores written (the lists are what the run finds). -/
noncomputable def runFirst (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 : Vec F S512x256 .f32) (x1 : Vec F S4096x256 .f32) (x2 : Vec F S512x1 .f32) (x3 : Vec F S1x4096 .f32) (x4 : Vec F S512x1 .i32) (x5 : Vec F S1x4096 .i32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc1__dist_kernel_eq_skeleton]; unfold cc1__dist_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    iexists _; iexact H10

end Cert.Kernel.Dist

end
-- ==== Proof.KRunMid.lean ====
/-
  The distance kernel's body at a point whose key-block coordinate is 1 or 2: one more block of keys is folded into
  the two running extrema; the output block is left as it was handed.
  The body's triple, with the stores each scratch buffer ends with as its witness.
-/
import proofs.«168887_j43078521979195_2_alg».proof.Proof.KFrameDist

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the six input blocks at their contents, the idle output block at contents handed back
    untouched, the two scratch buffers at the contents the point before left — the body runs to the continuation
    holding the inputs as they were and each scratch buffer with its stores written. -/
noncomputable def runMid (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc1__dist_kernel_eq_skeleton]; unfold cc1__dist_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    iexists _; iexact H10

end Cert.Kernel.Dist

end
-- ==== Proof.KRunLast.lean ====
/-
  The distance kernel's body at a point whose key-block coordinate is 3: the last block of keys is folded into the
  two running extrema and the margin (root of the maximum minus root of the minimum) is stored into the output
  block. The body's triple, with the stores each written buffer ends with as its witness.
-/
import proofs.«168887_j43078521979195_2_alg».proof.Proof.KFrameDist

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the six input blocks at their contents, the output block at anything, the two scratch
    buffers at the contents the point before left — the body runs to the continuation holding the inputs as they
    were and the output block and each scratch buffer with its stores written. -/
noncomputable def runLast (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) :
    Σ' (LOut : List (View.Piece (Elt F) S512x1 .f32)) (LMax : List (View.Piece (Elt F) S512x1 .f32)), { LMin : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__dist_kernel_eq_skeleton]; unfold cc1__dist_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H9]; · iexists _; iexact H9
    iexists _; iexact H10

end Cert.Kernel.Dist

end
-- ==== Proof.KFrameDistData.lean ====
/-
  The distance kernel's region: what the two running extrema and the output block hold after each grid point,
  the region's proof data, and the body obligation at every point.

  The grid is 8 row blocks × 4 key blocks in row-major order, so position n has key-block coordinate n mod 4.
  After position n the running extrema hold `scr n`: the point's fold of its key block into what the point before
  left (or into the fresh initial values when n mod 4 = 0). At the positions with n mod 4 = 3 the output block
  holds the margin computed from `scr n`; elsewhere it is idle.
-/
import proofs.«168887_j43078521979195_2_alg».proof.Proof.KRunFirst
import proofs.«168887_j43078521979195_2_alg».proof.Proof.KRunMid
import proofs.«168887_j43078521979195_2_alg».proof.Proof.KRunLast

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/
theorem before_in_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The pair of running extrema. -/
abbrev Scr (F : FTy → Type) [FloatOps F] : Type := Vec F S512x1 .f32 × Vec F S512x1 .f32

/-- What the point `t` leaves in the two scratch buffers, from what the point before left (`p`, unread when the
    key-block coordinate is 0). -/
def scrStep (c : Dev nD) (t : Fin cfg1.N) (p : Scr F) : Scr F :=
  if h0 : t.val % 4 = 0 then
    if h1 : t.val % 4 = 3 then p
    else (View.canon (runFirst c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => h1 ((isLast_iff t).mp h)) (iblk V c 0 t) (iblk V c 1 t) (iblk V c 2 t) (iblk V c 3 t) (iblk V c 4 t) (iblk V c 5 t)).1, View.canon (runFirst c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => h1 ((isLast_iff t).mp h)) (iblk V c 0 t) (iblk V c 1 t) (iblk V c 2 t) (iblk V c 3 t) (iblk V c 4 t) (iblk V c 5 t)).2.1)
  else
    if h1 : t.val % 4 = 3 then (View.canon (runLast c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) p.1 p.2).2.1, View.canon (runLast c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) p.1 p.2).2.2.1)
    else (View.canon (runMid c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) p.1 p.2).1, View.canon (runMid c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) p.1 p.2).2.1)

/-- What the point `t` leaves in the output block where it stores into it (key-block coordinate 3). -/
def outStep (c : Dev nD) (t : Fin cfg1.N) (p : Scr F) : Vec F S512x1 .f32 :=
  if h0 : t.val % 4 = 0 then p.1
  else
    if h1 : t.val % 4 = 3 then View.canon (runLast c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) p.1 p.2).1
    else p.1

/-- Position `n` of the grid as a point (positions past the grid wrap around; none is ever consulted). -/
def pt (n : ℕ) : Fin cfg1.N := ⟨n % cfg1.N, Nat.mod_lt _ (by rw [show cfg1.N = 32 from N_1]; decide)⟩
theorem pt_val (t : Fin cfg1.N) : pt t.val = t := Fin.ext (Nat.mod_eq_of_lt t.isLt)

/-- Contents nothing has chosen. -/
def noScr : Scr F := (View.canon [], View.canon [])

/-- The running extrema after position `n`. -/
def scr (c : Dev nD) : ℕ → Scr F
  | 0 => scrStep V c (pt 0) noScr
  | n + 1 => scrStep V c (pt (n + 1)) (scr c n)

/-- The running extrema before position `n`. -/
def scrBefore (c : Dev nD) : ℕ → Scr F
  | 0 => noScr
  | n + 1 => scr V c n

theorem scr_eq (c : Dev nD) (n : ℕ) : scr V c n = scrStep V c (pt n) (scrBefore V c n) := by
  cases n <;> rfl

/-- The region invariant before position `n`: before the first point the class's (both scratch buffers at
    anything); afterwards the two scratch buffers at what the point before left, the other scoped buffers and the
    generator register as they come. -/
def PhiS (c : Dev nD) : ℕ → sProp 𝕄
  | 0 => Pipeline.ΦA spec1 c
  | n + 1 => iprop(((owns (c : Thread nD τ) scMax fullShare (scr V c n).1 ∗ owns (c : Thread nD τ) scMin fullShare (scr V c n).2) ∗ others c) ∗ (∃ r, prngReg c r))

theorem PhiS_pos (c : Dev nD) (n : ℕ) (hz : n ≠ 0) :
    PhiS V c n = iprop(((owns (c : Thread nD τ) scMax fullShare (scrBefore V c n).1 ∗ owns (c : Thread nD τ) scMin fullShare (scrBefore V c n).2) ∗ others c) ∗ (∃ r, prngReg c r)) := by
  cases n with
  | zero => exact absurd rfl hz
  | succ n => rfl

/-- Whatever the position, the invariant holds both scratch buffers at some contents. -/
theorem PhiS_any (c : Dev nD) (n : ℕ) :
    PhiS V c n ⊢ iprop((((∃ d, owns (c : Thread nD τ) scMax fullShare d) ∗ (∃ d, owns (c : Thread nD τ) scMin fullShare d)) ∗ others c) ∗ (∃ r, prngReg c r)) := by
  cases n with
  | zero => rw [show PhiS V c 0 = Pipeline.ΦA spec1 c from rfl, PhiA_eq]
  | succ n =>
    unfold PhiS
    iintro ⟨⟨⟨HS0, HS1⟩, Ho⟩, Hg⟩
    isplitl [HS0 HS1 Ho]
    · isplitl [HS0 HS1]
      · isplitl [HS0]
        · iexists _; iexact HS0
        · iexists _; iexact HS1
      · iexact Ho
    · iexact Hg

/-! ## The proof data -/

/-- The proof data of the region on core `c`: the arrays as the region finds them; after the body at point `t`
    each input's buffer at its block, the output block at the margin where it is written; the invariant `PhiS`;
    the key array, which two windows read, held half by each; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outStep V c t (scrBefore V c t.val)
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outStep V c t (scrBefore V c t.val) := by dsimp only [dat]

theorem before_0 (c : Dev nD) (t : Fin cfg1.N) (d) : (dat V c).before 0 t d = iblk V c 0 t := before_in_0 V (dat V c) (A_eq V c 0) (after_0 V c) t d
theorem before_1 (c : Dev nD) (t : Fin cfg1.N) (d) : (dat V c).before 1 t d = iblk V c 1 t := before_in_1 V (dat V c) (A_eq V c 1) (after_1 V c) t d
theorem before_2 (c : Dev nD) (t : Fin cfg1.N) (d) : (dat V c).before 2 t d = iblk V c 2 t := before_in_2 V (dat V c) (A_eq V c 2) (after_2 V c) t d
theorem before_3 (c : Dev nD) (t : Fin cfg1.N) (d) : (dat V c).before 3 t d = iblk V c 3 t := before_in_3 V (dat V c) (A_eq V c 3) (after_3 V c) t d
theorem before_4 (c : Dev nD) (t : Fin cfg1.N) (d) : (dat V c).before 4 t d = iblk V c 4 t := before_in_4 V (dat V c) (A_eq V c 4) (after_4 V c) t d
theorem before_5 (c : Dev nD) (t : Fin cfg1.N) (d) : (dat V c).before 5 t d = iblk V c 5 t := before_in_5 V (dat V c) (A_eq V c 5) (after_5 V c) t d

end Region

end Cert.Kernel.Dist

end
-- ==== Proof.KFrameDistBody.lean ====
/-
  The distance kernel's region: the body obligation at every grid point. By cases on the position modulo 4: the
  point's run applies to the memrefs the pipeline calls the body with, the invariant hands it the two scratch
  buffers (at what the point before left, or at anything where they are initialised) and takes them back at this
  point's contents.
-/
import proofs.«168887_j43078521979195_2_alg».proof.Proof.KFrameDistData

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores each written buffer ends with tile it -/

theorem cover_first_max (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (y : S512x1.Idx) :
    ∃ pc ∈ (runFirst c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).1 S512x1.size (by sl_kernel_rfl) y
theorem cover_first_min (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (y : S512x1.Idx) :
    ∃ pc ∈ (runFirst c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).2.1 S512x1.size (by sl_kernel_rfl) y
theorem cover_mid_max (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runMid c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runMid c i arg2 harg2 arg3 harg3 arg4 harg4 arg5 harg5 arg6 harg6 arg7 harg7 arg8 harg8 arg9 harg9 arg10 harg10 hc0 hc1 x0 x1 x2 x3 x4 x5 xs0 xs1).1 S512x1.size (by sl_kernel_rfl) y
theorem cover_mid_min (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runMid c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runMid c i arg2 harg2 arg3 harg3 arg4 harg4 arg5 harg5 arg6 harg6 arg7 harg7 arg8 harg8 arg9 harg9 arg10 harg10 hc0 hc1 x0 x1 x2 x3 x4 x5 xs0 xs1).2.1 S512x1.size (by sl_kernel_rfl) y
theorem cover_last_out (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runLast c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).1 S512x1.size (by sl_kernel_rfl) y
theorem cover_last_max (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runLast c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.1 S512x1.size (by sl_kernel_rfl) y
theorem cover_last_min (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runLast c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y

section Region

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) from rfl,
    show (dat V c).Φ t.castSucc = PhiS V c t.val from by dsimp only [dat]; simp only [Fin.coe_castSucc]]
  rw [show PhiS V c (t.val + 1) = iprop(((owns (c : Thread nD τ) scMax fullShare (scr V c t.val).1 ∗ owns (c : Thread nD τ) scMin fullShare (scr V c t.val).2) ∗ others c) ∗ (∃ r, prngReg c r)) from rfl,
    scr_eq, pt_val]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  rw [show (dat V c).leavesExact 4 t = owns (c : Thread nD τ) (st1_4 t) fullShare ((dat V c).after 4 t) from by
    unfold Dat.leavesExact; rw [live_4 t], after_4]
  rw [show (dat V c).leavesExact 5 t = owns (c : Thread nD τ) (st1_5 t) fullShare ((dat V c).after 5 t) from by
    unfold Dat.leavesExact; rw [live_5 t], after_5]
  have hN : t.val < 32 := lt_of_lt_of_eq t.isLt (show cfg1.N = 32 from N_1)
  by_cases h0 : t.val % 4 = 0
  · have h1 : ¬t.val % 4 = 3 := by omega
    rw [Dat.leavesExact_idle (dat V c) 6 t (idle_6 t (fun h => h1 ((isLast_iff t).mp h))) (noFlush_6 t (fun h => h1 ((isLast_iff t).mp h)))]
    unfold scrStep; rw [dif_pos h0, dif_neg h1]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS_any V c t.val) $$ HΦ
    icases HΦ' with ⟨⟨⟨HS0, HS1⟩, Hoth⟩, Hg⟩
    iapply ((runFirst c (grid1.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%e0, HS0⟩, ⟨%e1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_eq_canon _ _ _ (cover_first_max c _ _ _ _ _ _ _ _ _ _ _ _ _ _ _ _ _ _ _ _ _ _ _ _ _ _ _)
          · unfold owns; iexists _; isplitr
            swap; · iexact HS1
            ipureintro; exact View.read_writes_eq_canon _ _ _ (cover_first_min c _ _ _ _ _ _ _ _ _ _ _ _ _ _ _ _ _ _ _ _ _ _ _ _ _ _ _)
        · iexact Hoth
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val % 4 = 3
    · have hz : t.val ≠ 0 := by omega
      rw [show (dat V c).leavesExact 6 t = owns (c : Thread nD τ) (st1_6 t) fullShare ((dat V c).after 6 t) from by
        unfold Dat.leavesExact; rw [live_6 t ((isLast_iff t).mpr h1)], after_6]
      unfold scrStep outStep; rw [dif_neg h0, dif_pos h1, dif_neg h0, dif_pos h1]
      rw [PhiS_pos V c _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_eq_canon _ _ _ (cover_last_max c _ _ _ _ _ _ _ _ _ _ _ _ _ _ _ _ _ _ _ _ _ _ _ _ _ _ _ _ _)
            · unfold owns; iexists _; isplitr
              swap; · iexact HS1
              ipureintro; exact View.read_writes_eq_canon _ _ _ (cover_last_min c _ _ _ _ _ _ _ _ _ _ _ _ _ _ _ _ _ _ _ _ _ _ _ _ _ _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover_last_out c _ _ _ _ _ _ _ _ _ _ _ _ _ _ _ _ _ _ _ _ _ _ _ _ _ _ _ _ _)
    · have hz : t.val ≠ 0 := by omega
      rw [Dat.leavesExact_idle (dat V c) 6 t (idle_6 t (fun h => h1 ((isLast_iff t).mp h))) (noFlush_6 t (fun h => h1 ((isLast_iff t).mp h)))]
      unfold scrStep; rw [dif_neg h0, dif_neg h1]
      rw [PhiS_pos V c _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_eq_canon _ _ _ (cover_mid_max c _ _ _ _ _ _ _ _ _ _ _ _ _ _ _ _ _ _ _ _ _ _ _ _ _ _ _ _ _)
            · unfold owns; iexists _; isplitr
              swap; · iexact HS1
              ipureintro; exact View.read_writes_eq_canon _ _ _ (cover_mid_min c _ _ _ _ _ _ _ _ _ _ _ _ _ _ _ _ _ _ _ _ _ _ _ _ _ _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.Kernel.Dist

end
-- ==== Proof.KFrameRun.lean ====
/-
  The whole program as a run of five segments: the host reshape of the bias, the projection kernel's region, the
  three host reshapes (labels as a column and as a row, squared norms as a row), the distance kernel's region, and
  the host tail (exp, log1p, the sum). The buffer contents at each segment boundary are a fold from the launch
  memory: a host stretch applies its operations; a region leaves its output arrays at what its write-backs make
  of them and every other buffer as it was.
-/
import proofs.«168887_j43078521979195_2_alg».proof.Proof.KFrameFc
import proofs.«168887_j43078521979195_2_alg».proof.Proof.KFrameDistBody

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the bias reshape (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (Fc.dat (V1 m) c).arrAt w cfg0.N
theorem W2_arr (c : Dev nD) (w : Fin cfg0.W) :
    W2 m c (Proc.devRef .tc (Pipeline.arrRef spec0 w)) = (Fc.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Fc.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes (the distance region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the distance region's exit: the margins' array at what the pipeline leaves, every other buffer as entered
    (the region's other windows are inputs). -/
def W4 (c : Dev nD) : Valuation τ sig (Elt F) :=
  Function.update (W3 m c) (Proc.devRef .tc main_v5) ((Dist.dat (V3 m) c).arrAt 6 cfg1.N)
abbrev V4 : (c : Dev nD) → (b : Ref sig .tc) → Buf (Elt F) ((c : Thread nD τ).loc b) := fun c b => W4 m c b
theorem W4_out (c : Dev nD) : V4 m c main_v5 = (Dist.dat (V3 m) c).arrAt 6 cfg1.N := by
  unfold V4 W4; exact Function.update_self ..
theorem W4_of_ne (c : Dev nD) (b : Ref sig .tc) (hb : b ≠ main_v5) : V4 m c b = V3 m c b := by
  unfold V4 W4; exact Function.update_of_ne (StableHlo.devRef_ne_of_ne hb) ..
/-- After the host tail. -/
abbrev W5 : Dev nD → Valuation τ sig (Elt F) := fun c => StableHlo.after hostOps2 (W4 m c)

/-! ## The distance region's arrays in and out of the core's unscoped buffers

Two of its windows read one array (the projected rows, as the row block and as the resident keys): at entry that
buffer's ownership is halved between them, at exit the halves are joined. -/

theorem dist_arrays_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((Dist.dat V c).arrays G : sProp 𝕄)
      = iprop((((c : Thread nD τ).loc main_v1_0) ↦{fullShare.left} G 0) ∗ (((c : Thread nD τ).loc main_v1_0) ↦{fullShare.right} G 1)
          ∗ (((c : Thread nD τ).loc main_v1_1) ↦{fullShare} G 2) ∗ (((c : Thread nD τ).loc main_v4) ↦{fullShare} G 3)
          ∗ (((c : Thread nD τ).loc main_v2) ↦{fullShare} G 4) ∗ (((c : Thread nD τ).loc main_v3) ↦{fullShare} G 5)
          ∗ (((c : Thread nD τ).loc main_v5) ↦{fullShare} G 6)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ]
  rfl

/-- The six buffers behind the region's seven windows, one by one. -/
theorem dist_arrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v1_0) ↦{fullShare} V' main_v1_0) ∗ (((c : Thread nD τ).loc main_v1_1) ↦{fullShare} V' main_v1_1)
          ∗ (((c : Thread nD τ).loc main_v4) ↦{fullShare} V' main_v4) ∗ (((c : Thread nD τ).loc main_v2) ↦{fullShare} V' main_v2)
          ∗ (((c : Thread nD τ).loc main_v3) ↦{fullShare} V' main_v3) ∗ (((c : Thread nD τ).loc main_v5) ↦{fullShare} V' main_v5)) := by
  unfold Pipeline.arrBufs
  exact bigSep_eq_bigSepL_of_eq [main_v1_0, main_v1_1, main_v4, main_v2, main_v3, main_v5] (by decide) (by decide) _

/-- ENTRY: the buffers behind the arrays, whole at the full share at contents `V'`, make the proof data's arrays at
    contents read off `V'`: the keys' buffer is halved between its two windows. -/
theorem dist_split (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄) ⊢ (Dist.dat V c).arrays G := by
  rw [dist_arrays_eq, dist_arrBufs_eq, hG 0, hG 1, hG 2, hG 3, hG 4, hG 5, hG 6]
  iintro ⟨Hh, Hsq, Hv4, Hv2, Hv3, Hv5⟩
  ihave Hh2 := (pointsTo_share (PosShare.mem_left_op_right fullShare)).1 $$ Hh
  icases Hh2 with ⟨Hl, Hr⟩
  isplitl [Hl]; · iexact Hl
  isplitl [Hr]; · iexact Hr
  isplitl [Hsq]; · iexact Hsq
  isplitl [Hv4]; · iexact Hv4
  isplitl [Hv2]; · iexact Hv2
  isplitl [Hv3]; · iexact Hv3
  iexact Hv5

/-- EXIT: the proof data's arrays at contents read off `V'` are the buffers behind them at `V'`, the two halves of
    the keys' buffer joined. -/
theorem dist_join (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Dist.dat V c).arrays G ⊢ (Pipeline.arrBufs (Ix := Unit) (Name := ℕ) (U := UR sig nD τ) (Lvl := ℕ) spec1 c V' : sProp 𝕄) := by
  rw [dist_arrays_eq, dist_arrBufs_eq, hG 0, hG 1, hG 2, hG 3, hG 4, hG 5, hG 6]
  iintro ⟨Hl, Hr, Hsq, Hv4, Hv2, Hv3, Hv5⟩
  isplitl [Hl Hr]
  · iapply (pointsTo_share (PosShare.mem_left_op_right fullShare)).2
    isplitl [Hl]; · iexact Hl
    iexact Hr
  isplitl [Hsq]; · iexact Hsq
  isplitl [Hv4]; · iexact Hv4
  isplitl [Hv2]; · iexact Hv2
  isplitl [Hv3]; · iexact Hv3
  iexact Hv5

/-- What each window's array holds when the region ends: an input's its entry contents, the margins' what the
    write-backs leave — in both cases the exit valuation at the window's array. -/
theorem hF1 (c : Dev nD) : ∀ w : Fin cfg1.W, (Dist.dat (V3 m) c).arrAt w cfg1.N = V4 m c (Pipeline.arrRef spec1 w)
  | ⟨0, _⟩ => (((Dist.dat (V3 m) c).arrAt_in 0 rfl _).trans (Dist.A_eq (V3 m) c 0)).trans (W4_of_ne m c _ (by decide)).symm
  | ⟨1, _⟩ => (((Dist.dat (V3 m) c).arrAt_in 1 rfl _).trans (Dist.A_eq (V3 m) c 1)).trans (W4_of_ne m c _ (by decide)).symm
  | ⟨2, _⟩ => (((Dist.dat (V3 m) c).arrAt_in 2 rfl _).trans (Dist.A_eq (V3 m) c 2)).trans (W4_of_ne m c _ (by decide)).symm
  | ⟨3, _⟩ => (((Dist.dat (V3 m) c).arrAt_in 3 rfl _).trans (Dist.A_eq (V3 m) c 3)).trans (W4_of_ne m c _ (by decide)).symm
  | ⟨4, _⟩ => (((Dist.dat (V3 m) c).arrAt_in 4 rfl _).trans (Dist.A_eq (V3 m) c 4)).trans (W4_of_ne m c _ (by decide)).symm
  | ⟨5, _⟩ => (((Dist.dat (V3 m) c).arrAt_in 5 rfl _).trans (Dist.A_eq (V3 m) c 5)).trans (W4_of_ne m c _ (by decide)).symm
  | ⟨6, _⟩ => (W4_out m c).symm

theorem dist_entry (c : Dev nD) :
    (StableHlo.held (c : Thread nD τ) (Pipeline.ucRefs τ sig) (W3 m c) : sProp 𝕄)
      ⊢ iprop((Dist.dat (V3 m) c).arrays ((Dist.dat (V3 m) c).arrAt · 0) ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c)]
  rw [Pipeline.unscopedBufs_split₀ cfgs 1 winFacts₀1.arr_unscoped c (V3 m c)]
  exact sep_mono (dist_split (V3 m) c (V3 m c) _ fun w => Dist.A_eq (V3 m) c w) .rfl

theorem dist_exit (c : Dev nD) :
    iprop((Dist.dat (V3 m) c).arrays ((Dist.dat (V3 m) c).arrAt · cfg1.N) ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c)]
  rw [Pipeline.unscopedBufs_split₀ cfgs 1 winFacts₀1.arr_unscoped c (V4 m c)]
  refine sep_mono (dist_join (V3 m) c (V4 m c) _ (hF1 m c)) (Entails.of_eq ?_)
  unfold Pipeline.unscopedRest
  exact bigSep_congr fun b hb => by
    rw [W4_of_ne m c b fun e => (Finset.mem_sdiff.mp hb).2 (Finset.mem_image.mpr ⟨6, Finset.mem_univ _, e.symm⟩)]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Fc.dat (V1 m) c
  | ⟨1, _⟩ => fun c => Dist.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fc.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered from every unscoped buffer at `W3`, left at `W4`. Its invariant starts as the
    class's and ends holding the two scratch buffers at their last contents, which are forgotten at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Dist.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (dist_entry m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have e : (pdats m 1 c).Φ (Fin.last (Pipeline.pin (pcfgs (F := F)) adm 1).N) = Dist.PhiS (V3 m) c cfg1.N := rfl
    rw [e]
    refine ((Dist.PhiS_any (V3 m) c _).trans (Entails.of_eq (Dist.PhiA_eq c).symm)).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (dist_exit m c)
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m),
    .host (hseg hostOps2 hostOps2_sub ops2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Whole

end
-- ==== Proof.KFrameClaims.lean ====
/-
  What the run says of the argument arrays: each ends holding its launch contents, because no host operation
  writes an argument and no region changes one (a region reads it through an input window or not at all).
-/
import proofs.«168887_j43078521979195_2_alg».proof.Proof.KFrameRun

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` reaches the end as launched: no host operation writes it, no region changes it. -/
theorem W5_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((Fc.dat (V1 m) c).arrAt_in 0 rfl _).trans (Fc.A_eq (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, no region changes it. -/
theorem W5_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((Fc.dat (V1 m) c).arrAt_in 1 rfl _).trans (Fc.A_eq (V1 m) c 1))
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, no region changes it. -/
theorem W5_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, no region changes it. -/
theorem W5_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME, at any float instance: every weakly fair execution terminates, nothing faulting, with the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c)⟩) (run_all m ρ)

end Cert.Kernel.Whole

end
-- ==== Proof.FrameFc.lean ====
/-
  The first pipelined region (the projection kernel): its frame half at a parameter `V`, the buffer
  contents when the region is entered.

  The body reads three input windows whole — a block of 512 rows of `x`, the matrix `W` and the row `b` —
  and fills two output windows whole: the block `x · W + b` of 512 rows and the column of its rows'
  sums of squares. Both stores cover their buffers, so what the body leaves in each is a closed function
  of the three input blocks (`outH`, `outSq`), and each input buffer holds its window's block at every
  point whether or not the pipeline fetched it there (`W` and `b` are fetched once; their block index
  never moves). From these: the proof data `dat` and the body obligation at every point.

  Everything is stated for any float instance `F`.
-/
import proofs.«168887_j43078521979195_2_alg».proof.Proof.Gen.KernelIdeal.Launch
import proofs.«168887_j43078521979195_2_alg».proof.Proof.Gen.KernelIdeal.Skeleton
import proofs.«168887_j43078521979195_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the buffer contents when the region is entered
variable (V : (c : Dev nD) → (b : Ref sig .tc) → Buf (Elt F) ((c : Thread nD τ).loc b))

/-! ## The windows' blocks -/

/-- The block of window `w` at point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the `x` window holds its block at every point: it is fetched at every point, and for any
    proof data whose array is `V`'s and whose body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The buffer of the `W` window holds its block at every point: fetched at the first point only, its block
    index is the same at every point, so the block stays what the body left in place. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the `b` window. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes: each buffer whole -/

abbrev rX : Rect S512x1024 := Rect.unit (s := S512x1024) ![0, 0] S512x1024.size inb_S512x1024_S512x1024_0_0
abbrev rW : Rect S1024x256 := Rect.unit (s := S1024x256) ![0, 0] S1024x256.size inb_S1024x256_S1024x256_0_0
abbrev rB : Rect S1x256 := Rect.unit (s := S1x256) ![0, 0] S1x256.size inb_S1x256_S1x256_0_0
abbrev rH : Rect S512x256 := Rect.unit (s := S512x256) ![0, 0] S512x256.size inb_S512x256_S512x256_0_0
abbrev rS : Rect S512x1 := Rect.unit (s := S512x1) ![0, 0] S512x1.size inb_S512x1_S512x1_0_0

/-! ## What the body leaves in the two output buffers -/

/-- The buffer of the projected block after the body: its one store, of `x · W + b` over the three loads. -/
def outH (x0 : Vec F S512x1024 .f32) (x1 : Vec F S1024x256 .f32) (x2 : Vec F S1x256 .f32) : Vec F S512x256 .f32 :=
  View.canon [⟨rH, k0_pay1 (View.ld x0 rX) (View.ld x1 rW) (View.ld x2 rB)⟩]

/-- The one store is of the whole buffer, so it covers it. -/
theorem coverH (p0 : Vec F S512x256 .f32) (y : S512x256.Idx) :
    ∃ pc ∈ ([⟨rH, p0⟩] : List (View.Piece (Elt F) S512x256 .f32)), y ∈ pc.1.set :=
  View.cover_of_tiled [⟨rH, p0⟩] S512x256.size (by rfl) y

/-- The buffer of the rows' sums of squares after the body: its one store, over the same three loads. -/
def outSq (x0 : Vec F S512x1024 .f32) (x1 : Vec F S1024x256 .f32) (x2 : Vec F S1x256 .f32) : Vec F S512x1 .f32 :=
  View.canon [⟨rS, k0_pay2 (View.ld x0 rX) (View.ld x1 rW) (View.ld x2 rB)⟩]

theorem coverSq (p0 : Vec F S512x1 .f32) (y : S512x1.Idx) :
    ∃ pc ∈ ([⟨rS, p0⟩] : List (View.Piece (Elt F) S512x1 .f32)), y ∈ pc.1.set :=
  View.cover_of_tiled [⟨rS, p0⟩] S512x1.size (by rfl) y

/-! ## The body's triple -/

set_option maxHeartbeats 1000000 in
/-- The body on whole buffers, the three inputs' at read contents `x0 x1 x2` and the two outputs' at anything, runs
    to a continuation that holds the inputs' as they were and the outputs' at `outH` and `outSq` of the inputs. -/
theorem sound_kernel (c : Dev nD) (E : Set ℕ) (i : grid0.Coords)
    (arg1 : Memref sig .tc .vmem S512x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S512x256 .f32) (harg4 : arg4.IsWhole)
    (arg5 : Memref sig .tc .vmem S512x1 .f32) (harg5 : arg5.IsWhole)
    (x0 : Vec F S512x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outH x0 x1 x2) ∗ owns (c : Thread nD τ) arg5 fullShare (outSq x0 x1 x2)) -∗ K ⟨⟩))
      ⊢ wp frame (wpE (defs₀ (F := F)) Variants.none c none) E (cc0__fc_kernel i arg1 harg1 arg2 harg2 arg3 harg3 arg4 harg4 arg5 harg5) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverH _)
  iexists _; isplitr
  swap; · iexact H4
  ipureintro
  exact View.read_writes_eq_canon _ _ _ (coverSq _)

/-! ## The proof data -/

/-- The proof data of the region on core `c`: the arrays as the region finds them; after the body at point `t`
    each input buffer at its block and the two output buffers at `outH` and `outSq` of the three input blocks; the
    invariant is the untouched rest; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outH (iblk V c 0 t) (iblk V c 1 t) (iblk V c 2 t)
    | ⟨4, _⟩ => outSq (iblk V c 0 t) (iblk V c 1 t) (iblk V c 2 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outH (iblk V c 0 t) (iblk V c 1 t) (iblk V c 2 t) := by dsimp only [dat]
theorem after_4 (c : Dev nD) (t : Fin cfg0.N) :
    (dat V c).after 4 t = outSq (iblk V c 0 t) (iblk V c 1 t) (iblk V c 2 t) := by dsimp only [dat]

/-- Each input buffer holds its window's block at every point. -/
theorem before_0 (c : Dev nD) (t : Fin cfg0.N) (d) : (dat V c).before 0 t d = iblk V c 0 t :=
  before_x_of V (dat V c) (A_eq V c 0) (after_0 V c) t d
theorem before_1 (c : Dev nD) (t : Fin cfg0.N) (d) : (dat V c).before 1 t d = iblk V c 1 t :=
  before_w_of V (dat V c) (A_eq V c 1) (after_1 V c) t d
theorem before_2 (c : Dev nD) (t : Fin cfg0.N) (d) : (dat V c).before 2 t d = iblk V c 2 t :=
  before_b_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the input buffers hold their blocks, so the body's triple applies; the invariant and
    what is owed pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Region

end Cert.KernelIdeal.Fc

end
-- ==== Proof.FrameDist.lean ====
/-
  The second kernel region (pairwise squared distances with hardest mining over an 8 × 4 grid of row block ×
  key block) — what its three control cases share.

  The body initialises its two running extrema (scratch buffers of 512 entries) when the key-block coordinate is
  0, folds one block of 1024 keys into them at every point, and writes the margin of the row block (root of the
  running maximum minus root of the running minimum) into its output block when the key-block coordinate is 3.
  Over the row-major grid the two conditions hold at the points ≡ 0 and ≡ 3 modulo 4. The output block is idle
  (neither stored into nor written back) at the other points.
-/
import proofs.«168887_j43078521979195_2_alg».proof.Proof.Gen.KernelIdeal.Launch
import proofs.«168887_j43078521979195_2_alg».proof.Proof.Gen.KernelIdeal.Skeleton
import proofs.«168887_j43078521979195_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions of the body, decided over the grid -/

/-- "the key-block coordinate is 0": the condition under which the running extrema are initialised. -/
abbrev isFirst (i : grid1.Coords) : Prop :=
  (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- "the key-block coordinate is 3": the condition under which the margin is written out. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
/-- The output block is idle wherever the margin is not written, and is not written back there. -/
theorem idle_6 : ∀ t : Fin cfg1.N, ¬isLast (grid1.coords t) → cfg1.idle 6 (grid1.coords t) = true := by decide +kernel
theorem noFlush_6 : ∀ t : Fin cfg1.N, ¬isLast (grid1.coords t) → (cfg1.win 6).flush t = false := by decide +kernel
theorem live_6 : ∀ t : Fin cfg1.N, isLast (grid1.coords t) → cfg1.idle 6 (grid1.coords t) = false := by decide +kernel

/-! ## The memrefs the body is called with -/

abbrev ms0 (t : Fin cfg1.N) : Memref sig .tc .vmem S512x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x4096 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x4096 .i32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
/-- The running maximum and the running minimum: whole scoped buffers of the kernel's own. -/
abbrev scMax : Memref sig .tc .vmem S512x1 .f32 := Memref.whole cc1_scratch0
abbrev scMin : Memref sig .tc .vmem S512x1 .f32 := Memref.whole cc1_scratch1
/-- The views through which the contents of the output block and of the two running extrema are stated. -/
abbrev VOut : View sig .tc .vmem S512x1 .f32 := (Memref.whole cc1_stg6_0 : Memref sig .tc .vmem S512x1 .f32).view
abbrev VMax : View sig .tc .vmem S512x1 .f32 := scMax.view
abbrev VMin : View sig .tc .vmem S512x1 .f32 := scMin.view

/-- The scoped buffers of the core other than this region's staging buffers and its two scratch buffers, at some
    contents each: carried through the region unopened. -/
abbrev others (c : Dev nD) : sProp 𝕄 :=
  Pipeline.scopedRestBut (Ix := Unit) (Name := ℕ) (U := UR sig nD τ) (Lvl := ℕ) (Val := Elt F) spec1 c [cc1_scratch0, cc1_scratch1]

/-- The region invariant of the class (every scoped buffer that is no staging buffer at some contents, the
    generator register at some state) with the two scratch buffers singled out as memrefs. -/
theorem PhiA_eq (c : Dev nD) :
    (Pipeline.ΦA spec1 c : sProp 𝕄)
      = iprop((((∃ d, owns (c : Thread nD τ) scMax fullShare d) ∗ (∃ d, owns (c : Thread nD τ) scMin fullShare d)) ∗ others c) ∗ (∃ r, prngReg c r)) := by
  unfold Pipeline.ΦA
  rw [Pipeline.scopedRest_split_of_list spec1 c [cc1_scratch0, cc1_scratch1] (by decide) (by decide)]
  simp only [scMax, scMin, owns_whole]
  rfl

end Cert.KernelIdeal.Dist

end
-- ==== Proof.RunFirst.lean ====
/-
  The distance kernel's body at a point whose key-block coordinate is 0 (and not 3): the two running extrema are
  initialised and the first block of keys is folded into them; the output block is left as it was handed.
  The body's triple, with the stores each scratch buffer ends with as its witness.
-/
import proofs.«168887_j43078521979195_2_alg».proof.Proof.FrameDist

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole memrefs — the six input blocks at their contents, the idle output block at contents handed back
    untouched, the two scratch buffers at anything — the body runs to the continuation holding the inputs as they
    were and each scratch buffer with its stores written (the lists are what the run finds). -/
noncomputable def runFirst (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i)
    (x0 : Vec F S512x256 .f32) (x1 : Vec F S4096x256 .f32) (x2 : Vec F S512x1 .f32) (x3 : Vec F S1x4096 .f32) (x4 : Vec F S512x1 .i32) (x5 : Vec F S1x4096 .i32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc1__dist_kernel_eq_skeleton]; unfold cc1__dist_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    iexists _; iexact H10

end Cert.KernelIdeal.Dist

end
-- ==== Proof.RunMid.lean ====
/-
  The distance kernel's body at a point whose key-block coordinate is 1 or 2: one more block of keys is folded into
  the two running extrema; the output block is left as it was handed.
  The body's triple, with the stores each scratch buffer ends with as its witness.
-/
import proofs.«168887_j43078521979195_2_alg».proof.Proof.FrameDist

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole memrefs — the six input blocks at their contents, the idle output block at contents handed back
    untouched, the two scratch buffers at the contents the point before left — the body runs to the continuation
    holding the inputs as they were and each scratch buffer with its stores written. -/
noncomputable def runMid (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i)
    (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) :
    Σ' (LMax : List (View.Piece (Elt F) S512x1 .f32)), { LMin : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc1__dist_kernel_eq_skeleton]; unfold cc1__dist_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    iexists _; iexact H10

end Cert.KernelIdeal.Dist

end
-- ==== Proof.RunLast.lean ====
/-
  The distance kernel's body at a point whose key-block coordinate is 3: the last block of keys is folded into the
  two running extrema and the margin (root of the maximum minus root of the minimum) is stored into the output
  block. The body's triple, with the stores each written buffer ends with as its witness.
-/
import proofs.«168887_j43078521979195_2_alg».proof.Proof.FrameDist

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole memrefs — the six input blocks at their contents, the output block at anything, the two scratch
    buffers at the contents the point before left — the body runs to the continuation holding the inputs as they
    were and the output block and each scratch buffer with its stores written. -/
noncomputable def runLast (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i)
    (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) :
    Σ' (LOut : List (View.Piece (Elt F) S512x1 .f32)) (LMax : List (View.Piece (Elt F) S512x1 .f32)), { LMin : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LMax) ∗ (∃ f, arg10.view.loc (c : Thread nD τ) ↦[arg10.view.set]{fullShare} arg10.view.writes (Elt F) f LMin)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__dist_kernel_eq_skeleton]; unfold cc1__dist_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H9]; · iexists _; iexact H9
    iexists _; iexact H10

end Cert.KernelIdeal.Dist

end
-- ==== Proof.FrameDistData.lean ====
/-
  The distance kernel's region: what the two running extrema and the output block hold after each grid point,
  the region's proof data, and the body obligation at every point.

  The grid is 8 row blocks × 4 key blocks in row-major order, so position n has key-block coordinate n mod 4.
  After position n the running extrema hold `scr n`: the point's fold of its key block into what the point before
  left (or into the fresh initial values when n mod 4 = 0). At the positions with n mod 4 = 3 the output block
  holds the margin computed from `scr n`; elsewhere it is idle.
-/
import proofs.«168887_j43078521979195_2_alg».proof.Proof.RunFirst
import proofs.«168887_j43078521979195_2_alg».proof.Proof.RunMid
import proofs.«168887_j43078521979195_2_alg».proof.Proof.RunLast

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/
theorem before_in_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The pair of running extrema. -/
abbrev Scr (F : FTy → Type) [FloatOps F] : Type := Vec F S512x1 .f32 × Vec F S512x1 .f32

/-- What the point `t` leaves in the two scratch buffers, from what the point before left (`p`, unread when the
    key-block coordinate is 0). -/
def scrStep (c : Dev nD) (t : Fin cfg1.N) (p : Scr F) : Scr F :=
  if h0 : t.val % 4 = 0 then
    if h1 : t.val % 4 = 3 then p
    else (View.canon (runFirst c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => h1 ((isLast_iff t).mp h)) (iblk V c 0 t) (iblk V c 1 t) (iblk V c 2 t) (iblk V c 3 t) (iblk V c 4 t) (iblk V c 5 t)).1, View.canon (runFirst c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((isFirst_iff t).mpr h0) (fun h => h1 ((isLast_iff t).mp h)) (iblk V c 0 t) (iblk V c 1 t) (iblk V c 2 t) (iblk V c 3 t) (iblk V c 4 t) (iblk V c 5 t)).2.1)
  else
    if h1 : t.val % 4 = 3 then (View.canon (runLast c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) p.1 p.2).2.1, View.canon (runLast c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) p.1 p.2).2.2.1)
    else (View.canon (runMid c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) p.1 p.2).1, View.canon (runMid c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) p.1 p.2).2.1)

/-- What the point `t` leaves in the output block where it stores into it (key-block coordinate 3). -/
def outStep (c : Dev nD) (t : Fin cfg1.N) (p : Scr F) : Vec F S512x1 .f32 :=
  if h0 : t.val % 4 = 0 then p.1
  else
    if h1 : t.val % 4 = 3 then View.canon (runLast c (grid1.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((isFirst_iff t).mp h)) ((isLast_iff t).mpr h1) (iblk V c 0 t) (iblk V c 1 t) (iblk V c 2 t) (iblk V c 3 t) (iblk V c 4 t) (iblk V c 5 t) p.1 p.2).1
    else p.1

/-- Position `n` of the grid as a point (positions past the grid wrap around; none is ever consulted). -/
def pt (n : ℕ) : Fin cfg1.N := ⟨n % cfg1.N, Nat.mod_lt _ (by rw [show cfg1.N = 32 from N_1]; decide)⟩
theorem pt_val (t : Fin cfg1.N) : pt t.val = t := Fin.ext (Nat.mod_eq_of_lt t.isLt)

/-- Contents nothing has chosen. -/
def noScr : Scr F := (View.canon [], View.canon [])

/-- The running extrema after position `n`. -/
def scr (c : Dev nD) : ℕ → Scr F
  | 0 => scrStep V c (pt 0) noScr
  | n + 1 => scrStep V c (pt (n + 1)) (scr c n)

/-- The running extrema before position `n`. -/
def scrBefore (c : Dev nD) : ℕ → Scr F
  | 0 => noScr
  | n + 1 => scr V c n

theorem scr_eq (c : Dev nD) (n : ℕ) : scr V c n = scrStep V c (pt n) (scrBefore V c n) := by
  cases n <;> rfl

/-- The region invariant before position `n`: before the first point the class's (both scratch buffers at
    anything); afterwards the two scratch buffers at what the point before left, the other scoped buffers and the
    generator register as they come. -/
def PhiS (c : Dev nD) : ℕ → sProp 𝕄
  | 0 => Pipeline.ΦA spec1 c
  | n + 1 => iprop(((owns (c : Thread nD τ) scMax fullShare (scr V c n).1 ∗ owns (c : Thread nD τ) scMin fullShare (scr V c n).2) ∗ others c) ∗ (∃ r, prngReg c r))

theorem PhiS_pos (c : Dev nD) (n : ℕ) (hz : n ≠ 0) :
    PhiS V c n = iprop(((owns (c : Thread nD τ) scMax fullShare (scrBefore V c n).1 ∗ owns (c : Thread nD τ) scMin fullShare (scrBefore V c n).2) ∗ others c) ∗ (∃ r, prngReg c r)) := by
  cases n with
  | zero => exact absurd rfl hz
  | succ n => rfl

/-- Whatever the position, the invariant holds both scratch buffers at some contents. -/
theorem PhiS_any (c : Dev nD) (n : ℕ) :
    PhiS V c n ⊢ iprop((((∃ d, owns (c : Thread nD τ) scMax fullShare d) ∗ (∃ d, owns (c : Thread nD τ) scMin fullShare d)) ∗ others c) ∗ (∃ r, prngReg c r)) := by
  cases n with
  | zero => rw [show PhiS V c 0 = Pipeline.ΦA spec1 c from rfl, PhiA_eq]
  | succ n =>
    unfold PhiS
    iintro ⟨⟨⟨HS0, HS1⟩, Ho⟩, Hg⟩
    isplitl [HS0 HS1 Ho]
    · isplitl [HS0 HS1]
      · isplitl [HS0]
        · iexists _; iexact HS0
        · iexists _; iexact HS1
      · iexact Ho
    · iexact Hg

/-! ## The proof data -/

/-- The proof data of the region on core `c`: the arrays as the region finds them; after the body at point `t`
    each input's buffer at its block, the output block at the margin where it is written; the invariant `PhiS`;
    the key array, which two windows read, held half by each; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outStep V c t (scrBefore V c t.val)
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outStep V c t (scrBefore V c t.val) := by dsimp only [dat]

theorem before_0 (c : Dev nD) (t : Fin cfg1.N) (d) : (dat V c).before 0 t d = iblk V c 0 t := before_in_0 V (dat V c) (A_eq V c 0) (after_0 V c) t d
theorem before_1 (c : Dev nD) (t : Fin cfg1.N) (d) : (dat V c).before 1 t d = iblk V c 1 t := before_in_1 V (dat V c) (A_eq V c 1) (after_1 V c) t d
theorem before_2 (c : Dev nD) (t : Fin cfg1.N) (d) : (dat V c).before 2 t d = iblk V c 2 t := before_in_2 V (dat V c) (A_eq V c 2) (after_2 V c) t d
theorem before_3 (c : Dev nD) (t : Fin cfg1.N) (d) : (dat V c).before 3 t d = iblk V c 3 t := before_in_3 V (dat V c) (A_eq V c 3) (after_3 V c) t d
theorem before_4 (c : Dev nD) (t : Fin cfg1.N) (d) : (dat V c).before 4 t d = iblk V c 4 t := before_in_4 V (dat V c) (A_eq V c 4) (after_4 V c) t d
theorem before_5 (c : Dev nD) (t : Fin cfg1.N) (d) : (dat V c).before 5 t d = iblk V c 5 t := before_in_5 V (dat V c) (A_eq V c 5) (after_5 V c) t d

end Region

end Cert.KernelIdeal.Dist

end
-- ==== Proof.FrameDistBody.lean ====
/-
  The distance kernel's region: the body obligation at every grid point. By cases on the position modulo 4: the
  point's run applies to the memrefs the pipeline calls the body with, the invariant hands it the two scratch
  buffers (at what the point before left, or at anything where they are initialised) and takes them back at this
  point's contents.
-/
import proofs.«168887_j43078521979195_2_alg».proof.Proof.FrameDistData

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The stores each written buffer ends with tile it -/

theorem cover_first_max (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (y : S512x1.Idx) :
    ∃ pc ∈ (runFirst c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).1 S512x1.size (by sl_kernel_rfl) y
theorem cover_first_min (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (y : S512x1.Idx) :
    ∃ pc ∈ (runFirst c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5).2.1 S512x1.size (by sl_kernel_rfl) y
theorem cover_mid_max (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runMid c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runMid c i arg2 harg2 arg3 harg3 arg4 harg4 arg5 harg5 arg6 harg6 arg7 harg7 arg8 harg8 arg9 harg9 arg10 harg10 hc0 hc1 x0 x1 x2 x3 x4 x5 xs0 xs1).1 S512x1.size (by sl_kernel_rfl) y
theorem cover_mid_min (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : ¬isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runMid c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runMid c i arg2 harg2 arg3 harg3 arg4 harg4 arg5 harg5 arg6 harg6 arg7 harg7 arg8 harg8 arg9 harg9 arg10 harg10 hc0 hc1 x0 x1 x2 x3 x4 x5 xs0 xs1).2.1 S512x1.size (by sl_kernel_rfl) y
theorem cover_last_out (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runLast c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).1 S512x1.size (by sl_kernel_rfl) y
theorem cover_last_max (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runLast c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.1 S512x1.size (by sl_kernel_rfl) y
theorem cover_last_min (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬isFirst i) (hc1 : isLast i) (x0 : Vec F S512x256 .f32) (x1 : Vec F S4096x256 .f32) (x2 : Vec F S512x1 .f32) (x3 : Vec F S1x4096 .f32) (x4 : Vec F S512x1 .i32) (x5 : Vec F S1x4096 .i32) (xs0 xs1 : Vec F S512x1 .f32) (y : S512x1.Idx) :
    ∃ pc ∈ (runLast c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y

section Region

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) from rfl,
    show (dat V c).Φ t.castSucc = PhiS V c t.val from by dsimp only [dat]; simp only [Fin.coe_castSucc]]
  rw [show PhiS V c (t.val + 1) = iprop(((owns (c : Thread nD τ) scMax fullShare (scr V c t.val).1 ∗ owns (c : Thread nD τ) scMin fullShare (scr V c t.val).2) ∗ others c) ∗ (∃ r, prngReg c r)) from rfl,
    scr_eq, pt_val]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  rw [show (dat V c).leavesExact 4 t = owns (c : Thread nD τ) (st1_4 t) fullShare ((dat V c).after 4 t) from by
    unfold Dat.leavesExact; rw [live_4 t], after_4]
  rw [show (dat V c).leavesExact 5 t = owns (c : Thread nD τ) (st1_5 t) fullShare ((dat V c).after 5 t) from by
    unfold Dat.leavesExact; rw [live_5 t], after_5]
  have hN : t.val < 32 := lt_of_lt_of_eq t.isLt (show cfg1.N = 32 from N_1)
  by_cases h0 : t.val % 4 = 0
  · have h1 : ¬t.val % 4 = 3 := by omega
    rw [Dat.leavesExact_idle (dat V c) 6 t (idle_6 t (fun h => h1 ((isLast_iff t).mp h))) (noFlush_6 t (fun h => h1 ((isLast_iff t).mp h)))]
    unfold scrStep; rw [dif_pos h0, dif_neg h1]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS_any V c t.val) $$ HΦ
    icases HΦ' with ⟨⟨⟨HS0, HS1⟩, Hoth⟩, Hg⟩
    iapply ((runFirst c (grid1.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%e0, HS0⟩, ⟨%e1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_eq_canon _ _ _ (cover_first_max c _ _ _ _ _ _ _ _ _ _ _ _ _ _ _ _ _ _ _ _ _ _ _ _ _ _ _)
          · unfold owns; iexists _; isplitr
            swap; · iexact HS1
            ipureintro; exact View.read_writes_eq_canon _ _ _ (cover_first_min c _ _ _ _ _ _ _ _ _ _ _ _ _ _ _ _ _ _ _ _ _ _ _ _ _ _ _)
        · iexact Hoth
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val % 4 = 3
    · have hz : t.val ≠ 0 := by omega
      rw [show (dat V c).leavesExact 6 t = owns (c : Thread nD τ) (st1_6 t) fullShare ((dat V c).after 6 t) from by
        unfold Dat.leavesExact; rw [live_6 t ((isLast_iff t).mpr h1)], after_6]
      unfold scrStep outStep; rw [dif_neg h0, dif_pos h1, dif_neg h0, dif_pos h1]
      rw [PhiS_pos V c _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_eq_canon _ _ _ (cover_last_max c _ _ _ _ _ _ _ _ _ _ _ _ _ _ _ _ _ _ _ _ _ _ _ _ _ _ _ _ _)
            · unfold owns; iexists _; isplitr
              swap; · iexact HS1
              ipureintro; exact View.read_writes_eq_canon _ _ _ (cover_last_min c _ _ _ _ _ _ _ _ _ _ _ _ _ _ _ _ _ _ _ _ _ _ _ _ _ _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover_last_out c _ _ _ _ _ _ _ _ _ _ _ _ _ _ _ _ _ _ _ _ _ _ _ _ _ _ _ _ _)
    · have hz : t.val ≠ 0 := by omega
      rw [Dat.leavesExact_idle (dat V c) 6 t (idle_6 t (fun h => h1 ((isLast_iff t).mp h))) (noFlush_6 t (fun h => h1 ((isLast_iff t).mp h)))]
      unfold scrStep; rw [dif_neg h0, dif_neg h1]
      rw [PhiS_pos V c _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_eq_canon _ _ _ (cover_mid_max c _ _ _ _ _ _ _ _ _ _ _ _ _ _ _ _ _ _ _ _ _ _ _ _ _ _ _ _ _)
            · unfold owns; iexists _; isplitr
              swap; · iexact HS1
              ipureintro; exact View.read_writes_eq_canon _ _ _ (cover_mid_min c _ _ _ _ _ _ _ _ _ _ _ _ _ _ _ _ _ _ _ _ _ _ _ _ _ _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.KernelIdeal.Dist

end
-- ==== Proof.FrameRun.lean ====
/-
  The whole program as a run of five segments: the host reshape of the bias, the projection kernel's region, the
  three host reshapes (labels as a column and as a row, squared norms as a row), the distance kernel's region, and
  the host tail (exp, log1p, the sum). The buffer contents at each segment boundary are a fold from the launch
  memory: a host stretch applies its operations; a region leaves its output arrays at what its write-backs make
  of them and every other buffer as it was.
-/
import proofs.«168887_j43078521979195_2_alg».proof.Proof.FrameFc
import proofs.«168887_j43078521979195_2_alg».proof.Proof.FrameDistBody

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the bias reshape (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (Fc.dat (V1 m) c).arrAt w cfg0.N
theorem W2_arr (c : Dev nD) (w : Fin cfg0.W) :
    W2 m c (Proc.devRef .tc (Pipeline.arrRef spec0 w)) = (Fc.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Fc.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes (the distance region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the distance region's exit: the margins' array at what the pipeline leaves, every other buffer as entered
    (the region's other windows are inputs). -/
def W4 (c : Dev nD) : Valuation τ sig (Elt F) :=
  Function.update (W3 m c) (Proc.devRef .tc main_v5) ((Dist.dat (V3 m) c).arrAt 6 cfg1.N)
abbrev V4 : (c : Dev nD) → (b : Ref sig .tc) → Buf (Elt F) ((c : Thread nD τ).loc b) := fun c b => W4 m c b
theorem W4_out (c : Dev nD) : V4 m c main_v5 = (Dist.dat (V3 m) c).arrAt 6 cfg1.N := by
  unfold V4 W4; exact Function.update_self ..
theorem W4_of_ne (c : Dev nD) (b : Ref sig .tc) (hb : b ≠ main_v5) : V4 m c b = V3 m c b := by
  unfold V4 W4; exact Function.update_of_ne (StableHlo.devRef_ne_of_ne hb) ..
/-- After the host tail. -/
abbrev W5 : Dev nD → Valuation τ sig (Elt F) := fun c => StableHlo.after hostOps2 (W4 m c)

/-! ## The distance region's arrays in and out of the core's unscoped buffers

Two of its windows read one array (the projected rows, as the row block and as the resident keys): at entry that
buffer's ownership is halved between them, at exit the halves are joined. -/

theorem dist_arrays_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((Dist.dat V c).arrays G : sProp 𝕄)
      = iprop((((c : Thread nD τ).loc main_v1_0) ↦{fullShare.left} G 0) ∗ (((c : Thread nD τ).loc main_v1_0) ↦{fullShare.right} G 1)
          ∗ (((c : Thread nD τ).loc main_v1_1) ↦{fullShare} G 2) ∗ (((c : Thread nD τ).loc main_v4) ↦{fullShare} G 3)
          ∗ (((c : Thread nD τ).loc main_v2) ↦{fullShare} G 4) ∗ (((c : Thread nD τ).loc main_v3) ↦{fullShare} G 5)
          ∗ (((c : Thread nD τ).loc main_v5) ↦{fullShare} G 6)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ]
  rfl

/-- The six buffers behind the region's seven windows, one by one. -/
theorem dist_arrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v1_0) ↦{fullShare} V' main_v1_0) ∗ (((c : Thread nD τ).loc main_v1_1) ↦{fullShare} V' main_v1_1)
          ∗ (((c : Thread nD τ).loc main_v4) ↦{fullShare} V' main_v4) ∗ (((c : Thread nD τ).loc main_v2) ↦{fullShare} V' main_v2)
          ∗ (((c : Thread nD τ).loc main_v3) ↦{fullShare} V' main_v3) ∗ (((c : Thread nD τ).loc main_v5) ↦{fullShare} V' main_v5)) := by
  unfold Pipeline.arrBufs
  exact bigSep_eq_bigSepL_of_eq [main_v1_0, main_v1_1, main_v4, main_v2, main_v3, main_v5] (by decide) (by decide) _

/-- ENTRY: the buffers behind the arrays, whole at the full share at contents `V'`, make the proof data's arrays at
    contents read off `V'`: the keys' buffer is halved between its two windows. -/
theorem dist_split (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄) ⊢ (Dist.dat V c).arrays G := by
  rw [dist_arrays_eq, dist_arrBufs_eq, hG 0, hG 1, hG 2, hG 3, hG 4, hG 5, hG 6]
  iintro ⟨Hh, Hsq, Hv4, Hv2, Hv3, Hv5⟩
  ihave Hh2 := (pointsTo_share (PosShare.mem_left_op_right fullShare)).1 $$ Hh
  icases Hh2 with ⟨Hl, Hr⟩
  isplitl [Hl]; · iexact Hl
  isplitl [Hr]; · iexact Hr
  isplitl [Hsq]; · iexact Hsq
  isplitl [Hv4]; · iexact Hv4
  isplitl [Hv2]; · iexact Hv2
  isplitl [Hv3]; · iexact Hv3
  iexact Hv5

/-- EXIT: the proof data's arrays at contents read off `V'` are the buffers behind them at `V'`, the two halves of
    the keys' buffer joined. -/
theorem dist_join (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Dist.dat V c).arrays G ⊢ (Pipeline.arrBufs (Ix := Unit) (Name := ℕ) (U := UR sig nD τ) (Lvl := ℕ) spec1 c V' : sProp 𝕄) := by
  rw [dist_arrays_eq, dist_arrBufs_eq, hG 0, hG 1, hG 2, hG 3, hG 4, hG 5, hG 6]
  iintro ⟨Hl, Hr, Hsq, Hv4, Hv2, Hv3, Hv5⟩
  isplitl [Hl Hr]
  · iapply (pointsTo_share (PosShare.mem_left_op_right fullShare)).2
    isplitl [Hl]; · iexact Hl
    iexact Hr
  isplitl [Hsq]; · iexact Hsq
  isplitl [Hv4]; · iexact Hv4
  isplitl [Hv2]; · iexact Hv2
  isplitl [Hv3]; · iexact Hv3
  iexact Hv5

/-- What each window's array holds when the region ends: an input's its entry contents, the margins' what the
    write-backs leave — in both cases the exit valuation at the window's array. -/
theorem hF1 (c : Dev nD) : ∀ w : Fin cfg1.W, (Dist.dat (V3 m) c).arrAt w cfg1.N = V4 m c (Pipeline.arrRef spec1 w)
  | ⟨0, _⟩ => (((Dist.dat (V3 m) c).arrAt_in 0 rfl _).trans (Dist.A_eq (V3 m) c 0)).trans (W4_of_ne m c _ (by decide)).symm
  | ⟨1, _⟩ => (((Dist.dat (V3 m) c).arrAt_in 1 rfl _).trans (Dist.A_eq (V3 m) c 1)).trans (W4_of_ne m c _ (by decide)).symm
  | ⟨2, _⟩ => (((Dist.dat (V3 m) c).arrAt_in 2 rfl _).trans (Dist.A_eq (V3 m) c 2)).trans (W4_of_ne m c _ (by decide)).symm
  | ⟨3, _⟩ => (((Dist.dat (V3 m) c).arrAt_in 3 rfl _).trans (Dist.A_eq (V3 m) c 3)).trans (W4_of_ne m c _ (by decide)).symm
  | ⟨4, _⟩ => (((Dist.dat (V3 m) c).arrAt_in 4 rfl _).trans (Dist.A_eq (V3 m) c 4)).trans (W4_of_ne m c _ (by decide)).symm
  | ⟨5, _⟩ => (((Dist.dat (V3 m) c).arrAt_in 5 rfl _).trans (Dist.A_eq (V3 m) c 5)).trans (W4_of_ne m c _ (by decide)).symm
  | ⟨6, _⟩ => (W4_out m c).symm

theorem dist_entry (c : Dev nD) :
    (StableHlo.held (c : Thread nD τ) (Pipeline.ucRefs τ sig) (W3 m c) : sProp 𝕄)
      ⊢ iprop((Dist.dat (V3 m) c).arrays ((Dist.dat (V3 m) c).arrAt · 0) ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c)]
  rw [Pipeline.unscopedBufs_split₀ cfgs 1 winFacts₀1.arr_unscoped c (V3 m c)]
  exact sep_mono (dist_split (V3 m) c (V3 m c) _ fun w => Dist.A_eq (V3 m) c w) .rfl

theorem dist_exit (c : Dev nD) :
    iprop((Dist.dat (V3 m) c).arrays ((Dist.dat (V3 m) c).arrAt · cfg1.N) ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c)]
  rw [Pipeline.unscopedBufs_split₀ cfgs 1 winFacts₀1.arr_unscoped c (V4 m c)]
  refine sep_mono (dist_join (V3 m) c (V4 m c) _ (hF1 m c)) (Entails.of_eq ?_)
  unfold Pipeline.unscopedRest
  exact bigSep_congr fun b hb => by
    rw [W4_of_ne m c b fun e => (Finset.mem_sdiff.mp hb).2 (Finset.mem_image.mpr ⟨6, Finset.mem_univ _, e.symm⟩)]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Fc.dat (V1 m) c
  | ⟨1, _⟩ => fun c => Dist.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fc.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered from every unscoped buffer at `W3`, left at `W4`. Its invariant starts as the
    class's and ends holding the two scratch buffers at their last contents, which are forgotten at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Dist.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hub, Hp, HO⟩, -, -⟩
    ihave H := (dist_entry m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have e : (pdats m 1 c).Φ (Fin.last (Pipeline.pin (pcfgs (F := F)) adm 1).N) = Dist.PhiS (V3 m) c cfg1.N := rfl
    rw [e]
    refine ((Dist.PhiS_any (V3 m) c _).trans (Entails.of_eq (Dist.PhiA_eq c).symm)).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (dist_exit m c)
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m),
    .host (hseg hostOps2 hostOps2_sub ops2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Whole

end
-- ==== Proof.FrameClaims.lean ====
/-
  What the run says of the argument arrays: each ends holding its launch contents, because no host operation
  writes an argument and no region changes one (a region reads it through an input window or not at all).
-/
import proofs.«168887_j43078521979195_2_alg».proof.Proof.FrameRun

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- `main_arg0` reaches the end as launched: no host operation writes it, no region changes it. -/
theorem W5_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((Fc.dat (V1 m) c).arrAt_in 0 rfl _).trans (Fc.A_eq (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, no region changes it. -/
theorem W5_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((Fc.dat (V1 m) c).arrAt_in 1 rfl _).trans (Fc.A_eq (V1 m) c 1))
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, no region changes it. -/
theorem W5_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, no region changes it. -/
theorem W5_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME, at any float instance: every weakly fair execution terminates, nothing faulting, with the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c)⟩) (run_all m ρ)

end Cert.KernelIdeal.Whole

end
-- ==== Proof.Spec.lean ====
/-
  The triplet loss with hardest mining over a linear projection, as plain functions of the argument
  arrays on the extended reals.

  With rows `h r = x r · W + b` (4096 rows of 256 entries), `sqn h r = ∑ c, (h r c)²` and
  `gram h r s = ∑ c, h r c · h s c`, the squared distance of rows `r` and `s` is
  `dist2 h r s = (sqn h r + sqn h s) − 2 · gram h r s` and the distance its `root`, the square root of its
  positive part. For row `r` with label `lab r`:

  * one program takes the root entry by entry and then the largest distance among the rows of the same
    label (`posRef`: entries of another label count as `⊥`) and the smallest among the rows of another
    label (`negRef`: entries of the same label count as `⊤`);
  * the other sets the squared distance of a row to itself to `0` (`dist2k`), takes the largest and the
    smallest SQUARED distance the same way, and the root of each last (`posKer`, `negKer`).

  The loss is the sum over the rows of `log (1 + exp (pos − neg))`.
-/
import Mathlib
import Idealize.ShloMosaic.PureOps.Ideal
import Idealize.ShloMosaic.Lib.ValueIdx

noncomputable section

namespace Cert.Triplet

open Idealize.ShloMosaic

/-- Row `r` of `x · W + b`, entry `c`. -/
def proj (x : Fin 4096 → Fin 1024 → EReal) (w : Fin 1024 → Fin 256 → EReal) (b : Fin 256 → EReal)
    (r : Fin 4096) (c : Fin 256) : EReal :=
  (∑ k : Fin 1024, x r k * w k c) + b c

/-- The squared norm of row `r`. -/
def sqn (h : Fin 4096 → Fin 256 → EReal) (r : Fin 4096) : EReal := ∑ c : Fin 256, h r c * h r c

/-- The inner product of rows `r` and `s`. -/
def gram (h : Fin 4096 → Fin 256 → EReal) (r s : Fin 4096) : EReal := ∑ c : Fin 256, h r c * h s c

/-- The squared distance of rows `r` and `s`, as both programs compute it. -/
def dist2 (h : Fin 4096 → Fin 256 → EReal) (r s : Fin 4096) : EReal :=
  (sqn h r + sqn h s) - (2 : EReal) * gram h r s

/-- The same with a row's squared distance to itself set to zero. -/
def dist2k (h : Fin 4096 → Fin 256 → EReal) (r s : Fin 4096) : EReal :=
  if r = s then 0 else dist2 h r s

/-- The square root of the positive part. -/
def root (v : EReal) : EReal := Ideal.sqrt (max v 0)

/-- Largest distance from row `r` to a row of its label, the root taken entry by entry. -/
def posRef (h : Fin 4096 → Fin 256 → EReal) (lab : Fin 4096 → BitVec 32) (r : Fin 4096) : EReal :=
  Finset.univ.sup fun s : Fin 4096 => if lab r = lab s then root (dist2 h r s) else ⊥

/-- Smallest distance from row `r` to a row of another label, the root taken entry by entry. -/
def negRef (h : Fin 4096 → Fin 256 → EReal) (lab : Fin 4096 → BitVec 32) (r : Fin 4096) : EReal :=
  Finset.univ.inf fun s : Fin 4096 => if lab r = lab s then ⊤ else root (dist2 h r s)

/-- The root of the largest squared distance (a row's own set to zero) among the rows of its label. -/
def posKer (h : Fin 4096 → Fin 256 → EReal) (lab : Fin 4096 → BitVec 32) (r : Fin 4096) : EReal :=
  root (Finset.univ.sup fun s : Fin 4096 => if lab r = lab s then dist2k h r s else ⊥)

/-- The root of the smallest squared distance among the rows of another label. -/
def negKer (h : Fin 4096 → Fin 256 → EReal) (lab : Fin 4096 → BitVec 32) (r : Fin 4096) : EReal :=
  root (Finset.univ.inf fun s : Fin 4096 => if lab r = lab s then ⊤ else dist2k h r s)

/-- `log (1 + exp v)`. -/
def softplus (v : EReal) : EReal := Ideal.log1p (Ideal.exp v)

/-- The loss of per-row margins `δ`. -/
def loss (δ : Fin 4096 → EReal) : EReal := ∑ r : Fin 4096, softplus (δ r)

/-- A rank-two array read by row and column. -/
def rows {a b : Nat} (A : (⟨2, ![a, b]⟩ : Shape).Idx → EReal) (r : Fin a) (k : Fin b) : EReal :=
  A (ValueIdx.ix2 r k)

/-- A rank-one array read by position. -/
def entries {a : Nat} {α : Type} (A : (⟨1, ![a]⟩ : Shape).Idx → α) (r : Fin a) : α := A (ValueIdx.ix1 r)

/-- The loss as the first program computes it, from the four argument arrays. -/
def refLoss (x0 : (⟨2, ![4096, 1024]⟩ : Shape).Idx → EReal) (x1 : (⟨2, ![1024, 256]⟩ : Shape).Idx → EReal)
    (x2 : (⟨1, ![256]⟩ : Shape).Idx → EReal) (x3 : (⟨1, ![4096]⟩ : Shape).Idx → BitVec 32) : EReal :=
  loss fun r => posRef (proj (rows x0) (rows x1) (entries x2)) (entries x3) r
    - negRef (proj (rows x0) (rows x1) (entries x2)) (entries x3) r

/-- The loss as the second program computes it, from the four argument arrays. -/
def kerLoss (x0 : (⟨2, ![4096, 1024]⟩ : Shape).Idx → EReal) (x1 : (⟨2, ![1024, 256]⟩ : Shape).Idx → EReal)
    (x2 : (⟨1, ![256]⟩ : Shape).Idx → EReal) (x3 : (⟨1, ![4096]⟩ : Shape).Idx → BitVec 32) : EReal :=
  loss fun r => posKer (proj (rows x0) (rows x1) (entries x2)) (entries x3) r
    - negKer (proj (rows x0) (rows x1) (entries x2)) (entries x3) r

end Cert.Triplet

end
-- ==== Proof.SpecDist.lean ====
/-
  The margin of one row as the distance kernel computes it from its operand arrays: the projected rows `H` (read
  both as the row block and as the keys), the rows' squared norms as a column `sqc` and as a row `sqr`, the labels
  as a column `tc` and as a row `tr`. The squared distance of rows `r` and `s` is `(sqc r + sqr s) − 2 · ⟨H r, H s⟩`,
  set to `0` when `r = s`; over the keys `s` the largest among those of the row's label and the smallest among the
  others are taken, then the root of each, and the margin is their difference.
  When the two squared-norm arrays both hold `sqn H` and the two label arrays the same labels, this is
  `posKer − negKer` of the specification.
-/
import proofs.«168887_j43078521979195_2_alg».proof.Proof.Spec

noncomputable section

namespace Cert.Triplet

/-- The squared distance the kernel mines on. -/
def dist2Of (H : Fin 4096 → Fin 256 → EReal) (sqc sqr : Fin 4096 → EReal) (r s : Fin 4096) : EReal :=
  if r = s then 0 else (sqc r + sqr s) - (2 : EReal) * gram H r s

/-- The running maximum after all keys: squared distances of the keys of the row's label, the others counting as `⊥`. -/
def maxOf (H : Fin 4096 → Fin 256 → EReal) (sqc sqr : Fin 4096 → EReal) (tc tr : Fin 4096 → BitVec 32) (r : Fin 4096) : EReal :=
  Finset.univ.sup fun s : Fin 4096 => if tc r = tr s then dist2Of H sqc sqr r s else ⊥

/-- The running minimum after all keys: squared distances of the keys of another label, the others counting as `⊤`. -/
def minOf (H : Fin 4096 → Fin 256 → EReal) (sqc sqr : Fin 4096 → EReal) (tc tr : Fin 4096 → BitVec 32) (r : Fin 4096) : EReal :=
  Finset.univ.inf fun s : Fin 4096 => if tc r = tr s then ⊤ else dist2Of H sqc sqr r s

/-- The margin of row `r`. -/
def marginOf (H : Fin 4096 → Fin 256 → EReal) (sqc sqr : Fin 4096 → EReal) (tc tr : Fin 4096 → BitVec 32) (r : Fin 4096) : EReal :=
  root (maxOf H sqc sqr tc tr r) - root (minOf H sqc sqr tc tr r)

theorem marginOf_eq (h : Fin 4096 → Fin 256 → EReal) (lab : Fin 4096 → BitVec 32) (r : Fin 4096) :
    marginOf h (sqn h) (sqn h) lab lab r = posKer h lab r - negKer h lab r := rfl

end Cert.Triplet

end
-- ==== Proof.ValueRunA.lean ====
/-
  The buffer contents at the segment boundaries of the idealized program, read entry by entry at the ideal
  instance: the bias row the projection kernel is handed is the bias; the projected rows and their squared norms
  reach the distance kernel as the projection kernel left them, the squared norms also as a row and the labels
  as a column and as a row (reshapes read at an index); and the final scalar is the sum over the rows of
  `log (1 + exp margin)` of the margins' array.
-/
import proofs.«168887_j43078521979195_2_alg».proof.Proof.FrameClaims
import proofs.«168887_j43078521979195_2_alg».proof.Proof.Spec
import proofs.«168887_j43078521979195_2_alg».proof.Proof.SpecDist
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.WholeValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Whole Idealize.ShloMosaic.ValueIdx

variable (m : (ℓ : Loc nD τ sig) → Buf (Elt Ideal) ℓ)

/-! ## The projection region's entry contents -/

theorem V1_arg0 (c : Dev nD) : V1 m c main_arg0 = m ((c : Thread nD τ).loc main_arg0) := by
  dsimp only [V1, W1, hostOps0]; after_results
theorem V1_arg1 (c : Dev nD) : V1 m c main_arg1 = m ((c : Thread nD τ).loc main_arg1) := by
  dsimp only [V1, W1, hostOps0]; after_results
theorem V1_v0 (c : Dev nD) : (V1 m c main_v0 : S1x256.Idx → EReal) = shapeCast S1x256 (m ((c : Thread nD τ).loc main_arg2)) shapeCasts_S256_S1x256 := by
  dsimp only [V1, W1, hostOps0]; after_results; rfl
/-- The bias as a row of one: entry `(0, k)` is the bias's entry `k`. -/
theorem V1_v0_at (c : Dev nD) (k : Fin 256) : V1 m c main_v0 (ix2 0 k) = m ((c : Thread nD τ).loc main_arg2) (ix1 k) := by
  rw [V1_v0]
  exact shapeCast_apply _ _ (ix2 (0 : Fin 1) k) (ix1 k) (by rw [Shape.rowMajor_val_one, Shape.rowMajor_val_two]; simp)

/-! ## The distance region's entry contents -/

theorem V3_h (c : Dev nD) : V3 m c main_v1_0 = (Fc.dat (V1 m) c).arrAt 3 cfg0.N := by
  dsimp only [V3, W3, hostOps1]; after_results; exact W2_arr m c 3
theorem V3_sq (c : Dev nD) : V3 m c main_v1_1 = (Fc.dat (V1 m) c).arrAt 4 cfg0.N := by
  dsimp only [V3, W3, hostOps1]; after_results; exact W2_arr m c 4
theorem V2_arg3 (c : Dev nD) : V2 m c main_arg3 = m ((c : Thread nD τ).loc main_arg3) := by
  refine (W2_of_ne m c main_arg3 (by decide)).trans ?_
  dsimp only [W1, hostOps0]; after_results
theorem V3_v4 (c : Dev nD) : (V3 m c main_v4 : S1x4096.Idx → EReal) = shapeCast S1x4096 (V2 m c main_v1_1) shapeCasts_S4096x1_S1x4096 := by
  dsimp only [V3, W3, hostOps1]; after_results; rfl
theorem V3_v2 (c : Dev nD) : (V3 m c main_v2 : S4096x1.Idx → BitVec 32) = shapeCast S4096x1 (V2 m c main_arg3) shapeCasts_S4096_S4096x1 := by
  dsimp only [V3, W3, hostOps1]; after_results; rfl
theorem V3_v3 (c : Dev nD) : (V3 m c main_v3 : S1x4096.Idx → BitVec 32) = shapeCast S1x4096 (V2 m c main_arg3) shapeCasts_S4096_S1x4096 := by
  dsimp only [V3, W3, hostOps1]; after_results; rfl
/-- The squared norms as a row: entry `(0, s)` is the column's entry `(s, 0)`. -/
theorem V3_v4_at (c : Dev nD) (s : Fin 4096) : V3 m c main_v4 (ix2 0 s) = (Fc.dat (V1 m) c).arrAt 4 cfg0.N (ix2 s 0) := by
  rw [V3_v4, shapeCast_apply _ _ (ix2 (0 : Fin 1) s) (ix2 s (0 : Fin 1)) (by rw [Shape.rowMajor_val_two, Shape.rowMajor_val_two]; simp)]
  exact congrFun (W2_arr m c 4) _
/-- The labels as a column and as a row. -/
theorem V3_v2_at (c : Dev nD) (r : Fin 4096) : V3 m c main_v2 (ix2 r 0) = m ((c : Thread nD τ).loc main_arg3) (ix1 r) := by
  rw [V3_v2, shapeCast_apply _ _ (ix2 r (0 : Fin 1)) (ix1 r) (by rw [Shape.rowMajor_val_one, Shape.rowMajor_val_two]; simp), V2_arg3]
theorem V3_v3_at (c : Dev nD) (s : Fin 4096) : V3 m c main_v3 (ix2 0 s) = m ((c : Thread nD τ).loc main_arg3) (ix1 s) := by
  rw [V3_v3, shapeCast_apply _ _ (ix2 (0 : Fin 1) s) (ix1 s) (by rw [Shape.rowMajor_val_one, Shape.rowMajor_val_two]; simp), V2_arg3]

/-! ## The host tail -/

theorem W5_v8 (c : Dev nD) : (W5 m c (Proc.devRef .tc main_v8) : S_.Idx → EReal)
    = Host.reduceAdd (F := Ideal) (Host.log1p (F := Ideal) (Host.exp (F := Ideal) (V4 m c main_v5))) (constant (F := Ideal) S_ .f32 0x00000000#32) reducesTo_S4096x1_S_d0_1 h_S_ := by
  dsimp only [W5, hostOps2]; after_results

/-- The final scalar: the loss of the margins' array. -/
theorem W5_v8_loss (c : Dev nD) (δ : Fin 4096 → EReal) (hδ : ∀ r : Fin 4096, V4 m c main_v5 (ix2 r 0) = δ r) :
    (W5 m c (Proc.devRef .tc main_v8) : S_.Idx → EReal) = fun _ => Cert.Triplet.loss δ := by
  rw [W5_v8]
  generalize (V4 m c main_v5 : S4096x1.Idx → EReal) = y at hδ
  funext i
  simp only [Host.reduceAdd, Ideal.hostReduceAdd_def]
  rw [Ideal.hostReduceAdd_total reducesTo_S4096x1_S_d0_1 (fun b => b.elim0) _ _ i]
  simp only [constant, Ideal.ofBits_def, Ideal.ofBits_zero_f32, zero_add]
  rw [sum_idx2]
  unfold Cert.Triplet.loss Cert.Triplet.softplus
  refine Finset.sum_congr rfl fun r _ => ?_
  rw [Fin.sum_univ_one]
  simp only [Host.log1p, Host.exp, Ideal.hostUnary_log1p_def, Ideal.hostUnary_exp_def]
  rw [show (ix2 r (0 : Fin 1)) = ix2 r 0 from rfl, hδ r]

end Cert.KernelIdeal.WholeValue

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.ValueFc.lean ====
/-
  The first pipelined region (the projection kernel) at the ideal values: what its two output arrays hold
  after the region's eight points, as whole-array functions of the buffer contents `V` at the region's entry.

  Each point `t` stores, for its 512 rows, the block `x · W + b` (a matrix product into a zero accumulator, the
  rounding of the operands the identity here, plus the one bias row broadcast over the rows) and the column of
  the rows' sums of squares. Read at an index (`pay1_at`, `pay2_at`), with the `x` window's block at `t` being
  rows `512 t … 512 t + 511` of its array and the `W` and `b` windows' one block their arrays (`iblk_x`,
  `iblk_w`, `iblk_b`), what point `t` writes back is block `t` of ONE function of the entry arrays
  (`flushed_h`, `flushed_sq`); row `r` is covered by point `r / 512` (`cover_h`, `cover_sq`); so the arrays end
  holding the projection `Cert.Triplet.proj` and its rows' squared norms `Cert.Triplet.sqn` (`arr_h`, `arr_sq`).
-/
import proofs.«168887_j43078521979195_2_alg».proof.Proof.FrameFc
import proofs.«168887_j43078521979195_2_alg».proof.Proof.Spec
import proofs.«168887_j43078521979195_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FcValue

open Cert.KernelIdeal Cert.KernelIdeal.Gen Cert.KernelIdeal.Fc
open Idealize.ShloMosaic Idealize.ShloMosaic.TcCoe Idealize.SL.Sem
open Idealize.ShloMosaic.Pipeline (Dat)
open Idealize.ShloMosaic.ValueIdx

/-- The projection's matrix product contracts the second axis of the left operand with the first of the right. -/
theorem plainDot : Cert.LibDot.Plain dot_S512x1024_S1024x256_S512x256_1_0_0_1_n_n where
  hrank := rfl
  hs := rfl
  hl0 := fun j k => by
    unfold DotDims.lhsIdx
    rw [dif_neg (show ¬(0 : Fin S512x1024.rank) ∈ dot_S512x1024_S1024x256_S512x256_1_0_0_1_n_n.lhsBatch by decide),
      dif_pos (show (0 : Fin S512x1024.rank) ∈ dot_S512x1024_S1024x256_S512x256_1_0_0_1_n_n.lhsNonContracting by decide)]
    rfl
  hl1 := fun j k => dot_S512x1024_S1024x256_S512x256_1_0_0_1_n_n.lhsIdx_val_of_single rfl j k
  hr0 := fun j k => dot_S512x1024_S1024x256_S512x256_1_0_0_1_n_n.rhsIdx_val_of_single rfl j k
  hr1 := fun j k => by
    unfold DotDims.rhsIdx
    rw [dif_neg (show ¬(1 : Fin S1024x256.rank) ∈ dot_S512x1024_S1024x256_S512x256_1_0_0_1_n_n.rhsBatch by decide),
      dif_pos (show (1 : Fin S1024x256.rank) ∈ dot_S512x1024_S1024x256_S512x256_1_0_0_1_n_n.rhsNonContracting by decide)]
    rfl

/-- The stored block at row `r`, column `q`: row `r` of the first operand times column `q` of the second, plus
    the bias row at `q`. -/
theorem pay1_at (x0 : Vec Ideal S512x1024 .f32) (x1 : Vec Ideal S1024x256 .f32) (x2 : Vec Ideal S1x256 .f32)
    (r : Fin 512) (q : Fin 256) :
    k0_pay1 x0 x1 x2 (ix2 r q) = (∑ k : Fin 1024, x0 (ix2 r k) * x1 (ix2 k q)) + x2 (ix2 (0 : Fin 1) q) := by
  unfold k0_pay1
  refine (addf_apply _ _ _).trans ?_
  refine congrArg₂ (· + ·) ?_ ?_
  · exact Cert.LibDot.matmul_ix2 plainDot none _ _ r q
  · refine (broadcastTo_1b_ab_apply _ _ r q).trans ?_
    rw [shapeCast_self]

/-- The stored column at row `r`: the sum over the columns of the squares of the stored block's row `r`. -/
theorem pay2_at (x0 : Vec Ideal S512x1024 .f32) (x1 : Vec Ideal S1024x256 .f32) (x2 : Vec Ideal S1x256 .f32)
    (r : Fin 512) (u : Fin 1) :
    k0_pay2 x0 x1 x2 (ix2 r u) = ∑ q : Fin 256, k0_pay1 x0 x1 x2 (ix2 r q) * k0_pay1 x0 x1 x2 (ix2 r q) := by
  unfold k0_pay2
  refine (shapeCast_apply _ _ (ix2 r u) (ix1 r) ?_).trans ?_
  · rw [Shape.rowMajor_val_two, Shape.rowMajor_val_one]
    show r.val = r.val * 1 + u.val
    omega
  refine (Ideal.multiReduction_add_single _ _ reduces_S512x256_S512 _ _ (ix1 r)).trans ?_
  show ∑ q : Fin 256, _ = _
  refine Finset.sum_congr rfl fun q _ => ?_
  have e : reduces_S512x256_S512.lift (ix1 r) q = ix2 r q := by
    funext a; apply Fin.ext
    match a with
    | ⟨0, _⟩ => rfl
    | ⟨1, _⟩ => rfl
  rw [e]
  rfl

/-- The stored block's entry from the arrays the three loads are blocks of: row `r` of the first load is row `R` of
    `A0`, the other two loads are `A1` and `B`. -/
theorem block_h_at (x0 : Vec Ideal S512x1024 .f32) (x1 : Vec Ideal S1024x256 .f32) (x2 : Vec Ideal S1x256 .f32)
    (A0 : S4096x1024.Idx → EReal) (A1 : S1024x256.Idx → EReal) (B : S1x256.Idx → EReal)
    (r : Fin 512) (q : Fin 256) (R : Fin 4096)
    (h0 : ∀ k : Fin 1024, x0 (ix2 r k) = A0 (ix2 R k))
    (h1 : ∀ k : Fin 1024, x1 (ix2 k q) = A1 (ix2 k q))
    (h2 : x2 (ix2 (0 : Fin 1) q) = B (ix2 (0 : Fin 1) q)) :
    k0_pay1 x0 x1 x2 (ix2 r q)
      = Cert.Triplet.proj (Cert.Triplet.rows A0) (Cert.Triplet.rows A1) (fun k => B (ix2 (0 : Fin 1) k)) R q := by
  rw [pay1_at, h2]
  unfold Cert.Triplet.proj Cert.Triplet.rows
  congr 1
  exact Finset.sum_congr rfl fun k _ => by rw [h0, h1]

/-- The stored column's entry likewise: the squared norm of row `R` of the projection. -/
theorem block_sq_at (x0 : Vec Ideal S512x1024 .f32) (x1 : Vec Ideal S1024x256 .f32) (x2 : Vec Ideal S1x256 .f32)
    (A0 : S4096x1024.Idx → EReal) (A1 : S1024x256.Idx → EReal) (B : S1x256.Idx → EReal)
    (r : Fin 512) (u : Fin 1) (R : Fin 4096)
    (h0 : ∀ k : Fin 1024, x0 (ix2 r k) = A0 (ix2 R k))
    (h1 : ∀ (k : Fin 1024) (q : Fin 256), x1 (ix2 k q) = A1 (ix2 k q))
    (h2 : ∀ q : Fin 256, x2 (ix2 (0 : Fin 1) q) = B (ix2 (0 : Fin 1) q)) :
    k0_pay2 x0 x1 x2 (ix2 r u)
      = Cert.Triplet.sqn (Cert.Triplet.proj (Cert.Triplet.rows A0) (Cert.Triplet.rows A1) (fun k => B (ix2 (0 : Fin 1) k))) R := by
  rw [pay2_at]
  unfold Cert.Triplet.sqn
  exact Finset.sum_congr rfl fun q _ => by rw [block_h_at x0 x1 x2 A0 A1 B r q R h0 (fun k => h1 k q) (h2 q)]

section Arrays
-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The windows' block indices at a point of the grid: the row-block windows (the `x` block and the two outputs) sit
    at the point's own number on the row axis; `W` and `b` are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The `x` window's block at point `t` is rows `512 t … 512 t + 511` of the array. -/
theorem iblk_x (c : Dev nD) (t : Fin cfg0.N) (r : Fin 512) (k : Fin 1024) (i : S4096x1024.Idx)
    (hi0 : (i 0).val = t.val * 512 + r.val) (hi1 : (i 1).val = k.val) :
    (iblk V c 0 t : Vec Ideal S512x1024 .f32) (ix2 r k) = (V c main_arg0 : S4096x1024.Idx → EReal) i := by
  obtain ⟨e00, e01, -⟩ := idx_facts t
  unfold iblk
  rw [View.read_apply]
  show (V c main_arg0 : S4096x1024.Idx → EReal) _ = _
  congr 1
  funext a
  apply Fin.ext
  match a with
  | ⟨0, _⟩ => show win0_0.index t 0 * 512 + 1 * r.val = (i 0).val; rw [e00, hi0]; omega
  | ⟨1, _⟩ => show win0_0.index t 1 * 1024 + 1 * k.val = (i 1).val; rw [e01, hi1]; omega

/-- The `W` window's one block is the array. -/
theorem iblk_w (c : Dev nD) (t : Fin cfg0.N) (k : Fin 1024) (q : Fin 256) :
    (iblk V c 1 t : Vec Ideal S1024x256 .f32) (ix2 k q) = (V c main_arg1 : S1024x256.Idx → EReal) (ix2 k q) := by
  obtain ⟨-, -, e10, e11, -⟩ := idx_facts t
  unfold iblk
  rw [View.read_apply]
  show (V c main_arg1 : S1024x256.Idx → EReal) _ = _
  congr 1
  funext a
  apply Fin.ext
  match a with
  | ⟨0, _⟩ => show win0_1.index t 0 * 1024 + 1 * k.val = k.val; rw [e10]; omega
  | ⟨1, _⟩ => show win0_1.index t 1 * 256 + 1 * q.val = q.val; rw [e11]; omega

/-- The `b` window's one block is the array. -/
theorem iblk_b (c : Dev nD) (t : Fin cfg0.N) (u : Fin 1) (q : Fin 256) :
    (iblk V c 2 t : Vec Ideal S1x256 .f32) (ix2 u q) = (V c main_v0 : S1x256.Idx → EReal) (ix2 u q) := by
  obtain ⟨-, -, -, -, e20, e21, -⟩ := idx_facts t
  unfold iblk
  rw [View.read_apply]
  show (V c main_v0 : S1x256.Idx → EReal) _ = _
  congr 1
  funext a
  apply Fin.ext
  match a with
  | ⟨0, _⟩ => show win0_2.index t 0 * 1 + 1 * u.val = u.val; rw [e20]; omega
  | ⟨1, _⟩ => show win0_2.index t 1 * 256 + 1 * q.val = q.val; rw [e21]; omega

/-- The projection of the entry arrays: row `r`, column `q` of `x · W + b`. -/
abbrev projArr (c : Dev nD) : Fin 4096 → Fin 256 → EReal :=
  Cert.Triplet.proj (Cert.Triplet.rows (V c main_arg0 : S4096x1024.Idx → EReal)) (Cert.Triplet.rows (V c main_arg1 : S1024x256.Idx → EReal))
    (fun k => (V c main_v0 : S1x256.Idx → EReal) (ix2 (0 : Fin 1) k))

/-- What point `t` writes back to the projected array is its block of the projection. -/
theorem flushed_h (c : Dev nD) (t : Fin cfg0.N) :
    (dat V c).flushed 3 t = ((cfg0.win 3).blk t).view.read (Elt Ideal) (fun i : S4096x256.Idx => projArr V c (i 0) (i 1)) := by
  show (cfg0.win 3).cut (grid0.coords t) ((dat V c).after 3 t) = _
  rw [after_3]
  unfold outH
  rw [View.canon_unit_zero hz]
  simp only [View.ld_unit_zero (S := S512x1024) hz, View.ld_unit_zero (S := S1024x256) hz, View.ld_unit_zero (S := S1x256) hz]
  obtain ⟨-, -, -, -, -, -, e30, e31, -⟩ := idx_facts t
  funext j
  obtain ⟨r, q, rfl⟩ : ∃ (r : Fin 512) (q : Fin 256), j = ix2 r q := ⟨j 0, j 1, eq_ix2 j⟩
  rw [View.read_apply]
  show k0_pay1 (iblk V c 0 t) (iblk V c 1 t) (iblk V c 2 t) (ix2 r q)
    = projArr V c ((((cfg0.win 3).blk t).view.emb (ix2 r q)) 0) ((((cfg0.win 3).blk t).view.emb (ix2 r q)) 1)
  have hR : ((((cfg0.win 3).blk t).view.emb (ix2 r q)) 0).val = t.val * 512 + r.val := by
    show win0_3.index t 0 * 512 + 1 * r.val = _; rw [e30]; omega
  have hQ : ((((cfg0.win 3).blk t).view.emb (ix2 r q)) 1).val = q.val := by
    show win0_3.index t 1 * 256 + 1 * q.val = _; rw [e31]; omega
  refine (block_h_at (iblk V c 0 t) (iblk V c 1 t) (iblk V c 2 t) (V c main_arg0) (V c main_arg1) (V c main_v0) r q
    ((((cfg0.win 3).blk t).view.emb (ix2 r q)) 0) (fun k => iblk_x V c t r k _ hR rfl) (fun k => iblk_w V c t k q) (iblk_b V c t 0 q)).trans ?_
  exact congrArg (projArr V c _) (Fin.ext hQ.symm)

/-- An index of the projected array is in point `t`'s block iff each coordinate is in the block's range. -/
theorem mem_blk_h (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1_0).slice (win0_3.rect t)).set ↔ _
  rw [View.set_slice_whole, Rect.mem_set_unit]
  exact Iff.rfl

/-- Row `r` of the projected array is written back by point `r / 512`. -/
theorem cover_h (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 8 := N_0
  refine ⟨⟨(i 0).val / 512, by rw [hN]; omega⟩, flush0_3 _, ?_⟩
  obtain ⟨-, -, -, -, -, -, e30, e31, -⟩ := idx_facts ⟨(i 0).val / 512, by rw [hN]; omega⟩
  rw [mem_blk_h]
  intro a
  match a with
  | ⟨0, _⟩ =>
    show win0_3.index _ 0 * 512 ≤ (i 0).val ∧ (i 0).val < win0_3.index _ 0 * 512 + 512
    rw [e30]; show (i 0).val / 512 * 512 ≤ (i 0).val ∧ (i 0).val < (i 0).val / 512 * 512 + 512; omega
  | ⟨1, _⟩ =>
    show win0_3.index _ 1 * 256 ≤ (i 1).val ∧ (i 1).val < win0_3.index _ 1 * 256 + 256
    rw [e31]; omega

/-- After the region's eight points the projected array holds `x · W + b` of the entry arrays. -/
theorem arr_h (c : Dev nD) :
    (Fc.dat (F := Ideal) V c).arrAt 3 cfg0.N
      = fun i => Cert.Triplet.proj (Cert.Triplet.rows (V c main_arg0)) (Cert.Triplet.rows (V c main_arg1))
          (fun k => V c main_v0 (ValueIdx.ix2 0 k)) (i 0) (i 1) :=
  (dat V c).arrAt_eq_of_cover 3 _ (fun t _ => flushed_h V c t) cover_h

/-- What point `t` writes back to the column of squared norms is its block of the projection's rows' squared norms. -/
theorem flushed_sq (c : Dev nD) (t : Fin cfg0.N) :
    (dat V c).flushed 4 t = ((cfg0.win 4).blk t).view.read (Elt Ideal) (fun i : S4096x1.Idx => Cert.Triplet.sqn (projArr V c) (i 0)) := by
  show (cfg0.win 4).cut (grid0.coords t) ((dat V c).after 4 t) = _
  rw [after_4]
  unfold outSq
  rw [View.canon_unit_zero hz]
  simp only [View.ld_unit_zero (S := S512x1024) hz, View.ld_unit_zero (S := S1024x256) hz, View.ld_unit_zero (S := S1x256) hz]
  obtain ⟨-, -, -, -, -, -, -, -, e40, e41⟩ := idx_facts t
  funext j
  obtain ⟨r, u, rfl⟩ : ∃ (r : Fin 512) (u : Fin 1), j = ix2 r u := ⟨j 0, j 1, eq_ix2 j⟩
  rw [View.read_apply]
  show k0_pay2 (iblk V c 0 t) (iblk V c 1 t) (iblk V c 2 t) (ix2 r u)
    = Cert.Triplet.sqn (projArr V c) ((((cfg0.win 4).blk t).view.emb (ix2 r u)) 0)
  have hR : ((((cfg0.win 4).blk t).view.emb (ix2 r u)) 0).val = t.val * 512 + r.val := by
    show win0_4.index t 0 * 512 + 1 * r.val = _; rw [e40]; omega
  exact block_sq_at (iblk V c 0 t) (iblk V c 1 t) (iblk V c 2 t) (V c main_arg0) (V c main_arg1) (V c main_v0) r u
    ((((cfg0.win 4).blk t).view.emb (ix2 r u)) 0) (fun k => iblk_x V c t r k _ hR rfl) (fun k q => iblk_w V c t k q) (fun q => iblk_b V c t 0 q)

/-- An index of the column of squared norms is in point `t`'s block iff each coordinate is in the block's range. -/
theorem mem_blk_sq (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v1_1).slice (win0_4.rect t)).set ↔ _
  rw [View.set_slice_whole, Rect.mem_set_unit]
  exact Iff.rfl

/-- Row `r` of the column is written back by point `r / 512`. -/
theorem cover_sq (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 8 := N_0
  refine ⟨⟨(i 0).val / 512, by rw [hN]; omega⟩, flush0_4 _, ?_⟩
  obtain ⟨-, -, -, -, -, -, -, -, e40, e41⟩ := idx_facts ⟨(i 0).val / 512, by rw [hN]; omega⟩
  rw [mem_blk_sq]
  intro a
  match a with
  | ⟨0, _⟩ =>
    show win0_4.index _ 0 * 512 ≤ (i 0).val ∧ (i 0).val < win0_4.index _ 0 * 512 + 512
    rw [e40]; show (i 0).val / 512 * 512 ≤ (i 0).val ∧ (i 0).val < (i 0).val / 512 * 512 + 512; omega
  | ⟨1, _⟩ =>
    show win0_4.index _ 1 * 1 ≤ (i 1).val ∧ (i 1).val < win0_4.index _ 1 * 1 + 1
    rw [e41]; omega

/-- After the region's eight points the column holds the squared norms of the rows of `x · W + b`. -/
theorem arr_sq (c : Dev nD) :
    (Fc.dat (F := Ideal) V c).arrAt 4 cfg0.N
      = fun i => Cert.Triplet.sqn (Cert.Triplet.proj (Cert.Triplet.rows (V c main_arg0)) (Cert.Triplet.rows (V c main_arg1))
          (fun k => V c main_v0 (ValueIdx.ix2 0 k))) (i 0) :=
  (dat V c).arrAt_eq_of_cover 4 _ (fun t _ => flushed_sq V c t) cover_sq

end Arrays

end Cert.KernelIdeal.FcValue
end
-- ==== Proof.ValueDistA.lean ====
/-
  The distance kernel's three control cases, read: what each leaves in the two running extrema and in the output
  block, as the body's own operations of what it loads.

  At every point the body loads its row block (512 projected rows, their squared norms, their labels) and, out of
  the whole key arrays, the block of 1024 keys its key-block coordinate names; from these it computes the tile of
  squared distances and folds the tile into the running maximum and the running minimum (`newMax`, `newMin`). With
  key-block coordinate 0 the value folded into is the fresh initial one; with coordinate 3 the output block gets
  the margin of the two folded extrema. Stated for any float instance.
-/
import proofs.«168887_j43078521979195_2_alg».proof.Proof.FrameDistData
import Idealize.ShloMosaic.Lib.Pipeline.Value
import Idealize.ShloMosaic.Lib.ValueIdx
import Idealize.ShloMosaic.Lib.Tactic

set_option maxRecDepth 16384

noncomputable section

namespace Cert.KernelIdeal.DistValue

open Cert.KernelIdeal Cert.KernelIdeal.Gen Cert.KernelIdeal.Dist
open Idealize.ShloMosaic Idealize.ShloMosaic.TcCoe Idealize.SL.Sem Idealize.ShloMosaic.Tactic
open Idealize.ShloMosaic.Pipeline (Dat)
open Idealize.ShloMosaic.ValueIdx

variable {F : FTy → Type} [FloatOps F] [Named F]

theorem hz : (![0, 0] : Fin 2 → Nat) = fun _ => 0 := funext fun a => by fin_cases a <;> rfl

/-! ## The body's loads and what it computes from them -/

/-- The block of 1024 keys the point reads out of the whole key array: rows `1024 j … 1024 j + 1023`. -/
abbrev rKeys (i : grid1.Coords) : Rect S4096x256 := Rect.unit (s := S4096x256) (k1_off1 i) S1024x256.size (k1_off1_inb i)
/-- The same 1024 positions of a row of 4096 (the keys' squared norms, the keys' labels). -/
abbrev rLane (i : grid1.Coords) : Rect S1x4096 := Rect.unit (s := S1x4096) (k1_off2 i) S1x1024.size (k1_off2_inb i)

/-- The tile of squared distances of the point: 512 rows against its 1024 keys. -/
def tile (i : grid1.Coords) (x0 : Vec F S512x256 .f32) (x1 : Vec F S4096x256 .f32) (x2 : Vec F S512x1 .f32) (x3 : Vec F S1x4096 .f32) :
    FVec F S512x1024 .f32 :=
  k1_pay9 i (View.ld x1 (rKeys i)) (View.ld x3 (rLane i)) x0 x2

/-- The running maximum after the point, from the one before it. -/
def newMax (i : grid1.Coords) (x0 : Vec F S512x256 .f32) (x1 : Vec F S4096x256 .f32) (x2 : Vec F S512x1 .f32) (x3 : Vec F S1x4096 .f32)
    (x4 : Vec F S512x1 .i32) (x5 : Vec F S1x4096 .i32) (old : Vec F S512x1 .f32) : FVec F S512x1 .f32 :=
  k1_pay2 (k1_pay7 (View.ld x5 (rLane i))) (k1_pay8 x4) (tile i x0 x1 x2 x3) old

/-- The running minimum after the point, from the one before it. -/
def newMin (i : grid1.Coords) (x0 : Vec F S512x256 .f32) (x1 : Vec F S4096x256 .f32) (x2 : Vec F S512x1 .f32) (x3 : Vec F S1x4096 .f32)
    (x4 : Vec F S512x1 .i32) (x5 : Vec F S1x4096 .i32) (old : Vec F S512x1 .f32) : FVec F S512x1 .f32 :=
  k1_pay3 (k1_pay7 (View.ld x5 (rLane i))) (k1_pay8 x4) (tile i x0 x1 x2 x3) old

/-! ## What each control case leaves -/

section Cases
variable (c : Dev nD) (i : grid1.Coords) (arg2 : Memref sig .tc .vmem S512x256 .f32) (harg2 : arg2.IsWhole) (arg3 : Memref sig .tc .vmem S4096x256 .f32) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (x0 : Vec F S512x256 .f32) (x1 : Vec F S4096x256 .f32) (x2 : Vec F S512x1 .f32) (x3 : Vec F S1x4096 .f32) (x4 : Vec F S512x1 .i32) (x5 : Vec F S1x4096 .i32)

/-- Key-block coordinate 0: the running maximum is the fold of the point's tile into the fresh initial value. -/
theorem first_max (hc0 : isFirst i) (hc1 : ¬isLast i) :
    View.canon (runFirst c i arg2 harg2 arg3 harg3 arg4 harg4 arg5 harg5 arg6 harg6 arg7 harg7 arg8 harg8 arg9 harg9 arg10 harg10 hc0 hc1 x0 x1 x2 x3 x4 x5).1 = newMax i x0 x1 x2 x3 x4 x5 k1_pay5 := by
  unfold runFirst
  dsimp only
  sl_unfold_run_names
  rw [View.canon_cons_unit_zero (S := S512x1) hz, View.readCov_unit_zero (S := S512x1) _ hz]
  simp only [View.readAt_eq_ld, harg2.read_unread, harg3.read_unread, harg4.read_unread, harg5.read_unread, harg6.read_unread, harg7.read_unread,
    View.ld_unit_zero (S := S512x256) hz, View.ld_unit_zero (S := S512x1) hz]
  rfl

theorem first_min (hc0 : isFirst i) (hc1 : ¬isLast i) :
    View.canon (runFirst c i arg2 harg2 arg3 harg3 arg4 harg4 arg5 harg5 arg6 harg6 arg7 harg7 arg8 harg8 arg9 harg9 arg10 harg10 hc0 hc1 x0 x1 x2 x3 x4 x5).2.1 = newMin i x0 x1 x2 x3 x4 x5 k1_pay6 := by
  unfold runFirst
  dsimp only
  sl_unfold_run_names
  rw [View.canon_cons_unit_zero (S := S512x1) hz, View.readCov_unit_zero (S := S512x1) _ hz]
  simp only [View.readAt_eq_ld, harg2.read_unread, harg3.read_unread, harg4.read_unread, harg5.read_unread, harg6.read_unread, harg7.read_unread,
    View.ld_unit_zero (S := S512x256) hz, View.ld_unit_zero (S := S512x1) hz]
  rfl

/-- Key-block coordinate 1 or 2: the fold of the point's tile into what the point before left. -/
theorem mid_max (hc0 : ¬isFirst i) (hc1 : ¬isLast i) (xs0 xs1 : Vec F S512x1 .f32) :
    View.canon (runMid c i arg2 harg2 arg3 harg3 arg4 harg4 arg5 harg5 arg6 harg6 arg7 harg7 arg8 harg8 arg9 harg9 arg10 harg10 hc0 hc1 x0 x1 x2 x3 x4 x5 xs0 xs1).1 = newMax i x0 x1 x2 x3 x4 x5 xs0 := by
  unfold runMid
  dsimp only
  sl_unfold_run_names
  rw [View.canon_unit_zero (S := S512x1) hz]
  simp only [View.readAt_eq_ld, harg2.read_unread, harg3.read_unread, harg4.read_unread, harg5.read_unread, harg6.read_unread, harg7.read_unread,
    harg9.read_unread, harg10.read_unread, View.ld_unit_zero (S := S512x256) hz, View.ld_unit_zero (S := S512x1) hz]
  rfl

theorem mid_min (hc0 : ¬isFirst i) (hc1 : ¬isLast i) (xs0 xs1 : Vec F S512x1 .f32) :
    View.canon (runMid c i arg2 harg2 arg3 harg3 arg4 harg4 arg5 harg5 arg6 harg6 arg7 harg7 arg8 harg8 arg9 harg9 arg10 harg10 hc0 hc1 x0 x1 x2 x3 x4 x5 xs0 xs1).2.1 = newMin i x0 x1 x2 x3 x4 x5 xs1 := by
  unfold runMid
  dsimp only
  sl_unfold_run_names
  rw [View.canon_unit_zero (S := S512x1) hz]
  simp only [View.readAt_eq_ld, harg2.read_unread, harg3.read_unread, harg4.read_unread, harg5.read_unread, harg6.read_unread, harg7.read_unread,
    harg9.read_unread, harg10.read_unread, View.ld_unit_zero (S := S512x256) hz, View.ld_unit_zero (S := S512x1) hz]
  rfl

/-- Key-block coordinate 3: the same fold, -/
theorem last_max (hc0 : ¬isFirst i) (hc1 : isLast i) (xs0 xs1 : Vec F S512x1 .f32) :
    View.canon (runLast c i arg2 harg2 arg3 harg3 arg4 harg4 arg5 harg5 arg6 harg6 arg7 harg7 arg8 harg8 arg9 harg9 arg10 harg10 hc0 hc1 x0 x1 x2 x3 x4 x5 xs0 xs1).2.1 = newMax i x0 x1 x2 x3 x4 x5 xs0 := by
  unfold runLast
  dsimp only
  sl_unfold_run_names
  rw [View.canon_unit_zero (S := S512x1) hz]
  simp only [View.readAt_eq_ld, harg2.read_unread, harg3.read_unread, harg4.read_unread, harg5.read_unread, harg6.read_unread, harg7.read_unread,
    harg9.read_unread, harg10.read_unread, View.ld_unit_zero (S := S512x256) hz, View.ld_unit_zero (S := S512x1) hz]
  rfl

theorem last_min (hc0 : ¬isFirst i) (hc1 : isLast i) (xs0 xs1 : Vec F S512x1 .f32) :
    View.canon (runLast c i arg2 harg2 arg3 harg3 arg4 harg4 arg5 harg5 arg6 harg6 arg7 harg7 arg8 harg8 arg9 harg9 arg10 harg10 hc0 hc1 x0 x1 x2 x3 x4 x5 xs0 xs1).2.2.1 = newMin i x0 x1 x2 x3 x4 x5 xs1 := by
  unfold runLast
  dsimp only
  sl_unfold_run_names
  rw [View.canon_unit_zero (S := S512x1) hz]
  simp only [View.readAt_eq_ld, harg2.read_unread, harg3.read_unread, harg4.read_unread, harg5.read_unread, harg6.read_unread, harg7.read_unread,
    harg9.read_unread, harg10.read_unread, View.ld_unit_zero (S := S512x256) hz, View.ld_unit_zero (S := S512x1) hz]
  rfl

/-- and the output block holds the margin computed from the two folded extrema. -/
theorem last_out (hc0 : ¬isFirst i) (hc1 : isLast i) (xs0 xs1 : Vec F S512x1 .f32) :
    View.canon (runLast c i arg2 harg2 arg3 harg3 arg4 harg4 arg5 harg5 arg6 harg6 arg7 harg7 arg8 harg8 arg9 harg9 arg10 harg10 hc0 hc1 x0 x1 x2 x3 x4 x5 xs0 xs1).1
      = k1_pay4 (newMax i x0 x1 x2 x3 x4 x5 xs0) (newMin i x0 x1 x2 x3 x4 x5 xs1) := by
  unfold runLast
  dsimp only
  sl_unfold_run_names
  rw [View.canon_unit_zero (S := S512x1) hz, View.readCov_unit_zero (S := S512x1) arg9.view hz, View.readCov_unit_zero (S := S512x1) arg10.view hz]
  simp only [View.readAt_eq_ld, harg2.read_unread, harg3.read_unread, harg4.read_unread, harg5.read_unread, harg6.read_unread, harg7.read_unread,
    harg9.read_unread, harg10.read_unread, View.ld_unit_zero (S := S512x256) hz, View.ld_unit_zero (S := S512x1) hz]
  rfl

end Cases

end Cert.KernelIdeal.DistValue
end
-- ==== Proof.LibVariance.lean ====
/-
  Sums of real numbers inside the extended reals, and the law that joins the two ways of computing a
  variance: for real numbers `h i` over a finite set of `n` elements, with mean `μ = (∑ h) / n`,

      (∑ (h i − μ)²) / n  =  (∑ (h i)²) / n − μ²,

  first over ℝ, then over the extended reals with the division `Ideal.div` by the real `n ≠ 0`. Over the
  extended reals the law needs every `h i` real: with one entry `⊤` the left side is `⊤` and the right side
  `⊤ − ⊤ = ⊥`. Also here: the extended-real operations that occur around it send real arguments to real
  results (sums, products, differences, quotients by a nonzero real, the maximum, the reciprocal square root
  of a positive real), stated through the predicate "is the coercion of a real".
-/
import Mathlib
import Idealize.ShloMosaic.PureOps.Ideal

namespace Cert.LibVariance

open Idealize.ShloMosaic

/-- An extended real that is (the coercion of) a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rwa [max_eq_right h]
  · rwa [max_eq_left h]
theorem IsReal.div_coe {x : EReal} (hx : IsReal x) {n : ℝ} (hn : n ≠ 0) : IsReal (Ideal.div x (n : EReal)) := by
  rw [Ideal.div_coe hn]; exact hx.mul (IsReal.coe _)

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The reciprocal square root of a positive real is real. -/
theorem IsReal.rsqrt_pos {r : ℝ} (hr : 0 < r) : IsReal (Ideal.rsqrt (r : EReal)) := by
  rw [Ideal.rsqrt_coe, if_neg (not_lt.mpr hr.le), if_neg hr.ne']
  exact IsReal.coe _

/-- The variance law over ℝ: the mean of the squared deviations from the mean is the mean of the squares
    minus the square of the mean (`n` the number of terms). -/
theorem variance_real {ι : Type*} (s : Finset ι) (h : ι → ℝ) (n : ℝ) (hcard : (s.card : ℝ) = n) (hn : n ≠ 0) :
    (∑ i ∈ s, (h i - (∑ j ∈ s, h j) / n) * (h i - (∑ j ∈ s, h j) / n)) / n
      = (∑ i ∈ s, h i * h i) / n - (∑ j ∈ s, h j) / n * ((∑ j ∈ s, h j) / n) := by
  set S := ∑ j ∈ s, h j with hS
  have h1 : ∑ i ∈ s, (h i - S / n) * (h i - S / n)
      = ∑ i ∈ s, h i * h i - 2 * (S / n) * S + n * (S / n * (S / n)) := by
    have : ∀ i, (h i - S / n) * (h i - S / n) = h i * h i - 2 * (S / n) * h i + S / n * (S / n) := fun i => by ring
    simp only [this, Finset.sum_add_distrib, Finset.sum_sub_distrib, ← Finset.mul_sum, Finset.sum_const, nsmul_eq_mul,
      hcard, ← hS]
    ring
  rw [h1]
  field_simp
  ring

/-- The variance law over the extended reals, for REAL entries and the extended-real quotient by the real
    `n ≠ 0`, `n` the number of terms. -/
theorem variance_ereal {ι : Type*} (s : Finset ι) (h : ι → ℝ) (n : ℝ) (hcard : (s.card : ℝ) = n) (hn : n ≠ 0) :
    Ideal.div (∑ i ∈ s, ((h i : EReal) - Ideal.div (∑ j ∈ s, (h j : EReal)) (n : EReal))
                       * ((h i : EReal) - Ideal.div (∑ j ∈ s, (h j : EReal)) (n : EReal))) (n : EReal)
      = Ideal.div (∑ i ∈ s, (h i : EReal) * (h i : EReal)) (n : EReal)
          - Ideal.div (∑ j ∈ s, (h j : EReal)) (n : EReal) * Ideal.div (∑ j ∈ s, (h j : EReal)) (n : EReal) := by
  simp only [Ideal.div_coe hn, ← coe_sum, ← EReal.coe_mul, ← EReal.coe_sub]
  rw [EReal.coe_eq_coe_iff]
  simp only [one_div, ← div_eq_mul_inv]
  exact variance_real s h n hcard hn

end Cert.LibVariance
-- ==== Proof.Bridge.lean ====
/-
  The two ways of mining the hardest pair agree on real rows.

  One program takes the square root of every squared distance and then the largest (smallest) distance
  among the rows of the same (of another) label; the other takes the largest (smallest) SQUARED
  distance, with a row's squared distance to itself set to zero, and the square root last. This file
  proves that the two give the same numbers on the extended reals when every entry of the projected
  rows is a real number.

  * "root v = sqrt (max v 0)" is a monotone map of the extended reals: "root ⊥ = root 0 = 0",
    "root ⊤ = ⊤", and "root r = Real.sqrt r" for a real "r" ("Real.sqrt" is already zero on the
    negative reals). A monotone map of a linear order commutes with the supremum and with the infimum
    of a finite NONEMPTY family, so the root of the largest squared distance is the largest root, and
    the same for the smallest.
  * For real rows the squared distance of a row to itself, "(‖h r‖² + ‖h r‖²) − 2 · ‖h r‖²", is "0"; this
    is the one place where the entries must be real (with "‖h r‖² = ⊤" it would be "⊤ − ⊤ = ⊥"). So
    setting the diagonal to zero changes nothing.
  * Largest distance: after the root has been moved inside, the entries of another label are
    "root ⊥ = 0" in one program and "⊥" in the other. Both suprema contain the entry of the row itself,
    which has the row's own label and is "root 0 = 0", and every root is "≥ 0"; hence the suprema agree.
  * Smallest distance: the entries of the same label are "root ⊤ = ⊤" in one program and "⊤" in the other;
    an entry of another label belongs to another row, where the two squared distances are the same
    by definition.

  Also here: a left fold of "max" ("min") from a start value is the start value joined (met) with the
  supremum (infimum) of the family, and the supremum (infimum) over 4096 columns is the join (meet) of the
  suprema (infima) over its four consecutive blocks of 1024 columns, every column "s" being
  "j · 1024 + q" for exactly one block "j < 4" and one "q < 1024".
-/
import proofs.«168887_j43078521979195_2_alg».proof.Proof.Spec
import proofs.«168887_j43078521979195_2_alg».proof.Proof.LibVariance

namespace Cert.Triplet

open Idealize.ShloMosaic
open Cert.LibVariance

namespace Bridge

/-! ### The root is monotone -/

theorem sqrt_zero' : Ideal.sqrt (0 : EReal) = 0 := by
  show Ideal.sqrt ((0 : ℝ) : EReal) = 0
  rw [Ideal.sqrt_coe, if_neg (lt_irrefl 0), Real.sqrt_zero]
  rfl

theorem root_bot : root ⊥ = 0 := by
  unfold root
  rw [max_eq_right bot_le, sqrt_zero']

theorem root_zero : root 0 = 0 := by
  unfold root
  rw [max_self, sqrt_zero']

theorem root_top : root ⊤ = ⊤ := by
  unfold root
  rw [max_eq_left le_top, Ideal.sqrt_top]

theorem root_coe (r : ℝ) : root (r : EReal) = (Real.sqrt r : EReal) := by
  unfold root
  rcases le_total r 0 with h | h
  · rw [max_eq_right (show (r : EReal) ≤ 0 from EReal.coe_nonpos.mpr h), sqrt_zero',
      Real.sqrt_eq_zero_of_nonpos h]
    rfl
  · rw [max_eq_left (show (0 : EReal) ≤ r from EReal.coe_nonneg.mpr h), Ideal.sqrt_coe,
      if_neg (not_lt.mpr h)]

theorem root_nonneg (v : EReal) : 0 ≤ root v := by
  induction v using EReal.rec with
  | bot => rw [root_bot]
  | top => rw [root_top]; exact le_top
  | coe x => rw [root_coe]; exact EReal.coe_nonneg.mpr (Real.sqrt_nonneg x)

theorem root_mono : Monotone root := by
  intro a b hab
  induction a using EReal.rec with
  | bot => rw [root_bot]; exact root_nonneg b
  | top => rw [top_le_iff.mp hab]
  | coe x =>
    induction b using EReal.rec with
    | bot => exact absurd (le_bot_iff.mp hab) (EReal.coe_ne_bot x)
    | top => rw [root_top]; exact le_top
    | coe y =>
      rw [root_coe, root_coe]
      exact EReal.coe_le_coe_iff.mpr (Real.sqrt_le_sqrt (EReal.coe_le_coe_iff.mp hab))

/-- A monotone map of the extended reals commutes with the supremum of a finite nonempty family. -/
theorem root_sup {ι : Type*} (s : Finset ι) (hs : s.Nonempty) (f : ι → EReal) :
    root (s.sup f) = s.sup fun i => root (f i) :=
  Finset.apply_sup_eq_sup_comp_of_nonempty root_mono hs

/-- … and with the infimum. -/
theorem root_inf {ι : Type*} (s : Finset ι) (hs : s.Nonempty) (f : ι → EReal) :
    root (s.inf f) = s.inf fun i => root (f i) :=
  Finset.apply_inf_eq_inf_comp_of_nonempty root_mono hs

/-! ### Real rows: the diagonal -/

/-- The squared distance of a real row to itself is zero. -/
theorem dist2_self {h : Fin 4096 → Fin 256 → EReal} (hh : ∀ r c, IsReal (h r c)) (r : Fin 4096) :
    dist2 h r r = 0 := by
  obtain ⟨t, ht⟩ : IsReal (sqn h r) := IsReal.sum _ _ fun c _ => (hh r c).mul (hh r c)
  have hg : gram h r r = sqn h r := rfl
  have h2 : (2 : EReal) = ((2 : ℝ) : EReal) := rfl
  unfold dist2
  rw [hg, ht, h2, ← EReal.coe_add, ← EReal.coe_mul, ← EReal.coe_sub,
    show t + t - 2 * t = 0 by ring]
  rfl

/-- So setting the diagonal to zero changes nothing on real rows. -/
theorem dist2k_eq {h : Fin 4096 → Fin 256 → EReal} (hh : ∀ r c, IsReal (h r c)) (r s : Fin 4096) :
    dist2k h r s = dist2 h r s := by
  unfold dist2k
  by_cases hrs : r = s
  · rw [if_pos hrs, ← hrs, dist2_self hh]
  · rw [if_neg hrs]

/-! ### A column and its block -/

/-- Column "s" of block "j" is below the supremum over that block. -/
theorem le_block_sup (f : Fin 4096 → EReal) (j : ℕ) (hj : j < 4) (s : Fin 4096)
    (h1 : j * 1024 ≤ s.val) (h2 : s.val < j * 1024 + 1024) :
    f s ≤ Finset.univ.sup fun q : Fin 1024 => f ⟨j * 1024 + q.val, by omega⟩ := by
  refine le_trans (le_of_eq (congrArg f (Fin.ext ?_)))
    (Finset.le_sup (f := fun q : Fin 1024 => f ⟨j * 1024 + q.val, by omega⟩)
      (Finset.mem_univ (⟨s.val - j * 1024, by omega⟩ : Fin 1024)))
  show s.val = j * 1024 + (s.val - j * 1024)
  omega

/-- Column "s" of block "j" is above the infimum over that block. -/
theorem block_inf_le (f : Fin 4096 → EReal) (j : ℕ) (hj : j < 4) (s : Fin 4096)
    (h1 : j * 1024 ≤ s.val) (h2 : s.val < j * 1024 + 1024) :
    (Finset.univ.inf fun q : Fin 1024 => f ⟨j * 1024 + q.val, by omega⟩) ≤ f s := by
  refine le_trans (Finset.inf_le (f := fun q : Fin 1024 => f ⟨j * 1024 + q.val, by omega⟩)
      (Finset.mem_univ (⟨s.val - j * 1024, by omega⟩ : Fin 1024)))
    (le_of_eq (congrArg f (Fin.ext ?_)))
  show j * 1024 + (s.val - j * 1024) = s.val
  omega

end Bridge

open Bridge

/-! ### Real rows -/

theorem proj_isReal {x : Fin 4096 → Fin 1024 → EReal} {w : Fin 1024 → Fin 256 → EReal}
    {b : Fin 256 → EReal} (hx : ∀ r k, IsReal (x r k)) (hw : ∀ k c, IsReal (w k c))
    (hb : ∀ c, IsReal (b c)) (r : Fin 4096) (c : Fin 256) : IsReal (proj x w b r c) :=
  (IsReal.sum _ _ fun k _ => (hx r k).mul (hw k c)).add (hb c)

/-! ### The largest and the smallest distance -/

theorem posKer_eq_posRef {h : Fin 4096 → Fin 256 → EReal} (lab : Fin 4096 → BitVec 32)
    (hh : ∀ r c, IsReal (h r c)) (r : Fin 4096) : posKer h lab r = posRef h lab r := by
  unfold posKer posRef
  rw [root_sup _ ⟨r, Finset.mem_univ r⟩]
  apply le_antisymm
  · refine Finset.sup_le fun s _ => ?_
    by_cases hs : lab r = lab s
    · rw [if_pos hs, dist2k_eq hh]
      refine le_trans (le_of_eq ?_) (Finset.le_sup
        (f := fun s : Fin 4096 => if lab r = lab s then root (dist2 h r s) else ⊥) (Finset.mem_univ s))
      exact (if_pos hs).symm
    · rw [if_neg hs, root_bot]
      refine le_trans (le_of_eq ?_) (Finset.le_sup
        (f := fun s : Fin 4096 => if lab r = lab s then root (dist2 h r s) else ⊥) (Finset.mem_univ r))
      show (0 : EReal) = if lab r = lab r then root (dist2 h r r) else ⊥
      rw [if_pos rfl, dist2_self hh, root_zero]
  · refine Finset.sup_mono_fun fun s _ => ?_
    by_cases hs : lab r = lab s
    · rw [if_pos hs, if_pos hs, dist2k_eq hh]
    · rw [if_neg hs]
      exact bot_le

theorem negKer_eq_negRef {h : Fin 4096 → Fin 256 → EReal} (lab : Fin 4096 → BitVec 32)
    (hh : ∀ r c, IsReal (h r c)) (r : Fin 4096) : negKer h lab r = negRef h lab r := by
  unfold negKer negRef
  rw [root_inf _ ⟨r, Finset.mem_univ r⟩]
  refine Finset.inf_congr rfl fun s _ => ?_
  by_cases hs : lab r = lab s
  · rw [if_pos hs, if_pos hs, root_top]
  · rw [if_neg hs, if_neg hs, dist2k_eq hh]

theorem kerLoss_eq_refLoss (x0 x1 x2 x3) (h0 : ∀ i, IsReal (x0 i)) (h1 : ∀ i, IsReal (x1 i))
    (h2 : ∀ i, IsReal (x2 i)) : kerLoss x0 x1 x2 x3 = refLoss x0 x1 x2 x3 := by
  have hh : ∀ r c, IsReal (proj (rows x0) (rows x1) (entries x2) r c) :=
    fun r c => proj_isReal (fun _ _ => h0 _) (fun _ _ => h1 _) (fun _ => h2 _) r c
  unfold kerLoss refLoss
  refine congrArg loss (funext fun r => ?_)
  rw [posKer_eq_posRef _ hh, negKer_eq_negRef _ hh]

/-! ### Folds and blocks -/

/-- a fold of max from a start value is the start value joined with the supremum -/
theorem fold_max_eq {ι : Type*} (s : Finset ι) (a : EReal) (f : ι → EReal) :
    s.fold max a f = max a (s.sup f) := by
  classical
  induction s using Finset.induction_on with
  | empty => rw [Finset.fold_empty, Finset.sup_empty, max_bot_right]
  | insert i s hi ih =>
    rw [Finset.fold_insert hi, Finset.sup_insert, ih]
    exact max_left_comm _ _ _

theorem fold_min_eq {ι : Type*} (s : Finset ι) (a : EReal) (f : ι → EReal) :
    s.fold min a f = min a (s.inf f) := by
  classical
  induction s using Finset.induction_on with
  | empty => rw [Finset.fold_empty, Finset.inf_empty, min_top_right]
  | insert i s hi ih =>
    rw [Finset.fold_insert hi, Finset.inf_insert, ih]
    exact min_left_comm _ _ _

/-- the supremum over 4096 columns is the join of the suprema over the four blocks of 1024 columns,
    taken in order from ⊥ -/
theorem sup_four_blocks (f : Fin 4096 → EReal) :
    Finset.univ.sup f =
      max (max (max (max ⊥
        (Finset.univ.sup fun q : Fin 1024 => f ⟨0 * 1024 + q.val, by omega⟩))
        (Finset.univ.sup fun q : Fin 1024 => f ⟨1 * 1024 + q.val, by omega⟩))
        (Finset.univ.sup fun q : Fin 1024 => f ⟨2 * 1024 + q.val, by omega⟩))
        (Finset.univ.sup fun q : Fin 1024 => f ⟨3 * 1024 + q.val, by omega⟩) := by
  apply le_antisymm
  · refine Finset.sup_le fun s _ => ?_
    have hlt := s.isLt
    rcases (by omega : s.val < 1024 ∨ (1024 ≤ s.val ∧ s.val < 2048) ∨
        (2048 ≤ s.val ∧ s.val < 3072) ∨ 3072 ≤ s.val) with h | h | h | h
    · exact (le_block_sup f 0 (by omega) s (by omega) (by omega)).trans
        ((le_max_right _ _).trans ((le_max_left _ _).trans ((le_max_left _ _).trans (le_max_left _ _))))
    · exact (le_block_sup f 1 (by omega) s (by omega) (by omega)).trans
        ((le_max_right _ _).trans ((le_max_left _ _).trans (le_max_left _ _)))
    · exact (le_block_sup f 2 (by omega) s (by omega) (by omega)).trans
        ((le_max_right _ _).trans (le_max_left _ _))
    · exact (le_block_sup f 3 (by omega) s (by omega) (by omega)).trans (le_max_right _ _)
  · refine max_le (max_le (max_le (max_le bot_le ?_) ?_) ?_) ?_ <;>
      exact Finset.sup_le fun q _ => Finset.le_sup (Finset.mem_univ _)

/-- the infimum over 4096 columns is the meet of the infima over the four blocks of 1024 columns,
    taken in order from ⊤ -/
theorem inf_four_blocks (f : Fin 4096 → EReal) :
    Finset.univ.inf f =
      min (min (min (min ⊤
        (Finset.univ.inf fun q : Fin 1024 => f ⟨0 * 1024 + q.val, by omega⟩))
        (Finset.univ.inf fun q : Fin 1024 => f ⟨1 * 1024 + q.val, by omega⟩))
        (Finset.univ.inf fun q : Fin 1024 => f ⟨2 * 1024 + q.val, by omega⟩))
        (Finset.univ.inf fun q : Fin 1024 => f ⟨3 * 1024 + q.val, by omega⟩) := by
  apply le_antisymm
  · refine le_min (le_min (le_min (le_min le_top ?_) ?_) ?_) ?_ <;>
      exact Finset.le_inf fun q _ => Finset.inf_le (Finset.mem_univ _)
  · refine Finset.le_inf fun s _ => ?_
    have hlt := s.isLt
    rcases (by omega : s.val < 1024 ∨ (1024 ≤ s.val ∧ s.val < 2048) ∨
        (2048 ≤ s.val ∧ s.val < 3072) ∨ 3072 ≤ s.val) with h | h | h | h
    · exact ((((min_le_left _ _).trans (min_le_left _ _)).trans (min_le_left _ _)).trans
        (min_le_right _ _)).trans (block_inf_le f 0 (by omega) s (by omega) (by omega))
    · exact (((min_le_left _ _).trans (min_le_left _ _)).trans (min_le_right _ _)).trans
        (block_inf_le f 1 (by omega) s (by omega) (by omega))
    · exact ((min_le_left _ _).trans (min_le_right _ _)).trans
        (block_inf_le f 2 (by omega) s (by omega) (by omega))
    · exact (min_le_right _ _).trans (block_inf_le f 3 (by omega) s (by omega) (by omega))

end Cert.Triplet
-- ==== Proof.ValueDistB.lean ====
/-
  The distance kernel's arithmetic at the ideal values, read entry by entry.

  * The tile of a point with row-block coordinate `a` and key-block coordinate `b`: entry `(p, q)` is zero where row
    number `512 a + p` and key number `1024 b + q` — computed in 32-bit words, where nothing wraps below 4096 — are
    the same, and elsewhere the row's squared norm plus the key's less twice the inner product of the row and the
    key (the product contracts the second axis of BOTH operands: rows against keys).
  * The new running maximum at a row is the old one joined with the largest tile entry among the keys whose label
    word equals the row's (the others count as the initial value `⊥`; the lane maximum starts from the word of
    minus infinity, also `⊥`); the new running minimum dually with `⊤`.
  * The margin is the root of the positive part of the maximum less that of the minimum.
  * Folding the four key blocks in order from `⊥` (from `⊤`) gives the largest (smallest) value over all 4096 keys.
-/
import proofs.«168887_j43078521979195_2_alg».proof.Proof.Gen.KernelIdeal.Skeleton
import proofs.«168887_j43078521979195_2_alg».proof.Proof.Bridge
import proofs.«168887_j43078521979195_2_alg».proof.Proof.SpecDist
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

namespace Cert.KernelIdeal.DistValue

open Cert.KernelIdeal Cert.KernelIdeal.Gen
open Idealize.ShloMosaic
open Idealize.ShloMosaic.ValueIdx

/-! ## Small readings -/

/-- A column `[a, 1]` broadcast to `[a, b]` reads, at `(p, q)`, the column at `p`. -/
theorem bcast_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A selection on an equality test of two words is the `if` on their equality. -/
theorem select_eq_words {α : Type} (a b : BitVec 32) (u v : α) :
    Scalar.select (IntOp.cmpi .eq a b) u v = if a = b then u else v := by
  unfold Scalar.select
  by_cases h : a = b
  · rw [if_pos h]; exact if_pos (IntOp.cmpi_eq.2 h)
  · rw [if_neg h]; exact if_neg (fun hc => h (IntOp.cmpi_eq.1 hc))

/-- Row number `512 a + p` and key number `1024 b + q`, computed in 32-bit words, are the same word exactly when
    they are the same number: nothing wraps below 4096. -/
theorem diag_words (a b p q : ℕ) (ha : a < 8) (hb : b < 4) (hp : p < 512) (hq : q < 1024) :
    IntOp.addi (Scalar.muli (BitVec.ofNat 32 a) 512#32) (BitVec.ofNat 32 p)
        = IntOp.addi (Scalar.muli (BitVec.ofNat 32 b) 1024#32) (BitVec.ofNat 32 q)
      ↔ a * 512 + p = b * 1024 + q := by
  unfold IntOp.addi Scalar.muli IntOp.muli
  rw [← BitVec.toNat_inj]
  simp only [BitVec.toNat_add, BitVec.toNat_mul, BitVec.toNat_ofNat]
  omega

theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; rfl

theorem ofBits_negInf : Ideal.ofBits .f32 0xFF800000#32 = (⊥ : EReal) := by
  simp [Ideal.ofBits, Ideal.ieee]

theorem ofBits_posInf : Ideal.ofBits .f32 0x7F800000#32 = (⊤ : EReal) := by
  simp [Ideal.ofBits, Ideal.ieee]

/-- The two initial values at the ideal instance. -/
theorem negBig : Named.named (F := Ideal) κ "neg_big" (φ := .f32) 0xF149F2CA#32 = (⊥ : EReal) :=
  IdealRules.named_const.ideal_named_scalar _ _ _ _ rfl
theorem posBig : Named.named (F := Ideal) κ "pos_big" (φ := .f32) 0x7149F2CA#32 = (⊤ : EReal) :=
  IdealRules.named_const.ideal_named_scalar _ _ _ _ rfl

/-! ## The product of the row block with the key block's transpose -/

/-- The left operand's index of the product: the output's row, the contraction position. -/
theorem dotT_l0 (j : S512x1024.Idx) (k : dot_S512x256_S1024x256_S512x1024_1_1_0_0_n_n.contr.Idx) :
    (dot_S512x256_S1024x256_S512x1024_1_1_0_0_n_n.lhsIdx j k 0).val = (j 0).val := by
  unfold DotDims.lhsIdx
  rw [dif_neg (show ¬(0 : Fin S512x256.rank) ∈ dot_S512x256_S1024x256_S512x1024_1_1_0_0_n_n.lhsBatch by decide),
    dif_pos (show (0 : Fin S512x256.rank) ∈ dot_S512x256_S1024x256_S512x1024_1_1_0_0_n_n.lhsNonContracting by decide)]
  rfl
/-- The right operand's index: the output's COLUMN on its first axis (the key), the contraction position on its second. -/
theorem dotT_r0 (j : S512x1024.Idx) (k : dot_S512x256_S1024x256_S512x1024_1_1_0_0_n_n.contr.Idx) :
    (dot_S512x256_S1024x256_S512x1024_1_1_0_0_n_n.rhsIdx j k 0).val = (j 1).val := by
  unfold DotDims.rhsIdx
  rw [dif_neg (show ¬(0 : Fin S1024x256.rank) ∈ dot_S512x256_S1024x256_S512x1024_1_1_0_0_n_n.rhsBatch by decide),
    dif_pos (show (0 : Fin S1024x256.rank) ∈ dot_S512x256_S1024x256_S512x1024_1_1_0_0_n_n.rhsNonContracting by decide)]
  rfl

/-- The product of a block of rows with the transpose of a block of keys, entry `(p, q)`: the inner product of row
    `p` and key `q`. -/
theorem dotT_sum (lhs : S512x256.Idx → EReal) (rhs : S1024x256.Idx → EReal) (p : Fin 512) (q : Fin 1024) :
    ∑ k : dot_S512x256_S1024x256_S512x1024_1_1_0_0_n_n.contr.Idx,
        lhs (dot_S512x256_S1024x256_S512x1024_1_1_0_0_n_n.lhsIdx (ix2 p q) k) * rhs (dot_S512x256_S1024x256_S512x1024_1_1_0_0_n_n.rhsIdx (ix2 p q) k)
      = ∑ k : Fin 256, lhs (ix2 p k) * rhs (ix2 q k) := by
  rw [← Equiv.sum_comp (contrEquiv1 dot_S512x256_S1024x256_S512x1024_1_1_0_0_n_n 256 rfl rfl).symm]
  refine Finset.sum_congr rfl fun k _ => ?_
  have e := contrEquiv1_symm_val dot_S512x256_S1024x256_S512x1024_1_1_0_0_n_n 256 rfl rfl k
  have el : dot_S512x256_S1024x256_S512x1024_1_1_0_0_n_n.lhsIdx (ix2 p q) ((contrEquiv1 dot_S512x256_S1024x256_S512x1024_1_1_0_0_n_n 256 rfl rfl).symm k) = ix2 p k := by
    funext a; apply Fin.ext
    match a with
    | ⟨0, _⟩ => exact dotT_l0 _ _
    | ⟨1, _⟩ => exact (dot_S512x256_S1024x256_S512x1024_1_1_0_0_n_n.lhsIdx_val_of_single rfl _ _).trans e
  have er : dot_S512x256_S1024x256_S512x1024_1_1_0_0_n_n.rhsIdx (ix2 p q) ((contrEquiv1 dot_S512x256_S1024x256_S512x1024_1_1_0_0_n_n 256 rfl rfl).symm k) = ix2 q k := by
    funext a; apply Fin.ext
    match a with
    | ⟨0, _⟩ => exact dotT_r0 _ _
    | ⟨1, _⟩ => exact (dot_S512x256_S1024x256_S512x1024_1_1_0_0_n_n.rhsIdx_val_of_single rfl _ _).trans e
  rw [el, er]

/-! ## The tile of squared distances at an entry -/

/-- The tile's last steps over abstract parts: row numbers against key numbers pick the forced zero, elsewhere the two
    squared norms added less twice the product. -/
theorem tile_core (rowId : IVec S512x1 32) (colId : IVec S1x1024 32) (sq : FVec Ideal S512x1 .f32) (sk : FVec Ideal S1x1024 .f32)
    (mm : FVec Ideal S512x1024 .f32) (p : Fin 512) (q : Fin 1024) :
    select (cmpi .eq (broadcastTo S512x1024 rowId broadcasts_S512x1_S512x1024) (broadcastTo S512x1024 colId broadcasts_S1x1024_S512x1024))
        (broadcast S512x1024 (Scalar.ofBits (F := Ideal) .f32 0x00000000#32))
        (subf (addf (broadcastTo S512x1024 sq broadcasts_S512x1_S512x1024) (broadcastTo S512x1024 sk broadcasts_S1x1024_S512x1024))
          (mulf (broadcast S512x1024 (Scalar.ofBits (F := Ideal) .f32 0x40000000#32)) mm)) (ix2 p q)
      = if rowId (ix2 p (0 : Fin 1)) = colId (ix2 (0 : Fin 1) q) then 0
        else (sq (ix2 p (0 : Fin 1)) + sk (ix2 (0 : Fin 1) q)) - 2 * mm (ix2 p q) := by
  show Scalar.select (IntOp.cmpi .eq (broadcastTo S512x1024 rowId broadcasts_S512x1_S512x1024 (ix2 p q)) (broadcastTo S512x1024 colId broadcasts_S1x1024_S512x1024 (ix2 p q)))
      (Ideal.ofBits .f32 0x00000000#32)
      ((broadcastTo S512x1024 sq broadcasts_S512x1_S512x1024 (ix2 p q) + broadcastTo S512x1024 sk broadcasts_S1x1024_S512x1024 (ix2 p q))
        - Ideal.ofBits .f32 0x40000000#32 * mm (ix2 p q)) = _
  rw [select_eq_words, bcast_col rowId, bcast_col sq, broadcastTo_1b_ab_apply colId, broadcastTo_1b_ab_apply sk, Ideal.ofBits_zero_f32, ofBits_two]

/-- The tile at entry `(p, q)` of the point with row-block coordinate `i 0` and key-block coordinate `i 1`: zero where
    row `512 (i 0) + p` IS key `1024 (i 1) + q`, elsewhere the row's squared norm plus the key's less twice their
    inner product. -/
theorem tile_at (i : grid1.Coords) (v6 : Vec Ideal S1024x256 .f32) (v9 : Vec Ideal S1x1024 .f32) (v14 : Vec Ideal S512x256 .f32)
    (v16 : Vec Ideal S512x1 .f32) (p : Fin 512) (q : Fin 1024) :
    k1_pay9 i v6 v9 v14 v16 (ix2 p q)
      = if (i 0).val * 512 + p.val = (i 1).val * 1024 + q.val then 0
        else (v16 (ix2 p (0 : Fin 1)) + v9 (ix2 (0 : Fin 1) q)) - 2 * ∑ k : Fin 256, v14 (ix2 p k) * v6 (ix2 q k) := by
  unfold k1_pay9
  dsimp only
  simp only [shapeCast_self]
  refine (tile_core _ _ _ _ _ p q).trans ?_
  refine if_congr ?_ rfl ?_
  · show IntOp.addi (Scalar.muli (BitVec.ofNat 32 (i 0).val) 512#32) (iota .tc S512x1 32 [0] iota_S512x1_d0_w32 (ix2 p (0 : Fin 1)))
        = IntOp.addi (Scalar.muli (BitVec.ofNat 32 (i 1).val) 1024#32) (iota .tc S1x1024 32 [1] iota_S1x1024_d1_w32 (ix2 (0 : Fin 1) q)) ↔ _
    rw [iota_single_apply, iota_single_apply]
    exact diag_words _ _ _ _ (i 0).isLt (i 1).isLt p.isLt q.isLt
  · exact congrArg (fun z => (v16 (ix2 p (0 : Fin 1)) + v9 (ix2 (0 : Fin 1) q)) - 2 * z)
      ((Ideal.matmul_constant_zero_apply _ none _ _ (ix2 p q)).trans (dotT_sum _ _ p q))

/-! ## The two folds and the margin at an entry -/

/-- A minimum over one axis, read at the ideal values: the fold of `min` from the accumulator's value over that
    axis's coordinates. -/
theorem minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A reduced row index with the column put back. -/
theorem lift_row (p : Fin 512) (q : Fin 1024) : reduces_S512x1024_S512.lift (ix1 p) q = ix2 p q := by
  funext a; apply Fin.ext
  match a with
  | ⟨0, _⟩ => rfl
  | ⟨1, _⟩ => rfl

/-- The keepdims column of a vector of 512 read at `(p, u)`. -/
theorem col_of_vec {α : Type} (v : S512.Idx → α) (p : Fin 512) (u : Fin 1) :
    shapeCast S512x1 v shapeCasts_S512_S512x1 (ix2 p u) = v (ix1 p) := by
  refine shapeCast_apply _ _ (ix2 p u) (ix1 p) ?_
  rw [Shape.rowMajor_val_two, Shape.rowMajor_val_one]
  show p.val = p.val * 1 + u.val
  omega

/-- The new running maximum at row `p`: the old one joined with the largest tile entry among the keys of the row's
    label. -/
theorem newMax_at (v13 : IVec S1x1024 32) (v19 : IVec S512x1 32) (v40 : FVec Ideal S512x1024 .f32) (v52 : Vec Ideal S512x1 .f32)
    (p : Fin 512) (u : Fin 1) :
    k1_pay2 v13 v19 v40 v52 (ix2 p u)
      = max (v52 (ix2 p u)) (Finset.univ.sup fun q : Fin 1024 =>
          if v19 (ix2 p (0 : Fin 1)) = v13 (ix2 (0 : Fin 1) q) then v40 (ix2 p q) else ⊥) := by
  unfold k1_pay2
  dsimp only
  simp only [shapeCast_self]
  refine (maximumf_apply _ _ _).trans ?_
  refine congrArg (max (v52 (ix2 p u))) ?_
  refine (col_of_vec _ p u).trans ?_
  refine (Ideal.multiReduction_maximumf_single _ _ reduces_S512x1024_S512 _ _ (ix1 p)).trans ?_
  rw [Cert.Triplet.fold_max_eq]
  show max (Ideal.ofBits .f32 0xFF800000#32) (Finset.univ.sup fun q : Fin 1024 => _) = _
  rw [ofBits_negInf, max_bot_left]
  refine Finset.sup_congr rfl fun q _ => ?_
  show select (k1_pay1 v13 v19) v40 (broadcast S512x1024 (Named.named (F := Ideal) κ "neg_big" (φ := .f32) 0xF149F2CA#32)) (reduces_S512x1024_S512.lift (ix1 p) q) = _
  rw [lift_row]
  show Scalar.select (IntOp.cmpi .eq (broadcastTo S512x1024 v19 broadcasts_S512x1_S512x1024 (ix2 p q)) (broadcastTo S512x1024 v13 broadcasts_S1x1024_S512x1024 (ix2 p q)))
      (v40 (ix2 p q)) (Named.named (F := Ideal) κ "neg_big" (φ := .f32) 0xF149F2CA#32) = _
  rw [select_eq_words, bcast_col v19, broadcastTo_1b_ab_apply v13, negBig]

/-- The new running minimum at row `p`: the old one met with the smallest tile entry among the keys of another label. -/
theorem newMin_at (v13 : IVec S1x1024 32) (v19 : IVec S512x1 32) (v40 : FVec Ideal S512x1024 .f32) (v57 : Vec Ideal S512x1 .f32)
    (p : Fin 512) (u : Fin 1) :
    k1_pay3 v13 v19 v40 v57 (ix2 p u)
      = min (v57 (ix2 p u)) (Finset.univ.inf fun q : Fin 1024 =>
          if v19 (ix2 p (0 : Fin 1)) = v13 (ix2 (0 : Fin 1) q) then ⊤ else v40 (ix2 p q)) := by
  unfold k1_pay3
  dsimp only
  simp only [shapeCast_self]
  refine (minimumf_apply _ _ _).trans ?_
  refine congrArg (min (v57 (ix2 p u))) ?_
  refine (col_of_vec _ p u).trans ?_
  refine (minimumf_single _ _ reduces_S512x1024_S512 _ _ (ix1 p)).trans ?_
  rw [Cert.Triplet.fold_min_eq]
  show min (Ideal.ofBits .f32 0x7F800000#32) (Finset.univ.inf fun q : Fin 1024 => _) = _
  rw [ofBits_posInf, min_top_left]
  refine Finset.inf_congr rfl fun q _ => ?_
  show select (k1_pay1 v13 v19) (broadcast S512x1024 (Named.named (F := Ideal) κ "pos_big" (φ := .f32) 0x7149F2CA#32)) v40 (reduces_S512x1024_S512.lift (ix1 p) q) = _
  rw [lift_row]
  show Scalar.select (IntOp.cmpi .eq (broadcastTo S512x1024 v19 broadcasts_S512x1_S512x1024 (ix2 p q)) (broadcastTo S512x1024 v13 broadcasts_S1x1024_S512x1024 (ix2 p q)))
      (Named.named (F := Ideal) κ "pos_big" (φ := .f32) 0x7149F2CA#32) (v40 (ix2 p q)) = _
  rw [select_eq_words, bcast_col v19, broadcastTo_1b_ab_apply v13, posBig]

/-- The margin at row `p`: the root of the positive part of the maximum less that of the minimum. -/
theorem margin_at (v65 v69 : Vec Ideal S512x1 .f32) (p : Fin 512) (u : Fin 1) :
    k1_pay4 v65 v69 (ix2 p u) = Cert.Triplet.root (v65 (ix2 p u)) - Cert.Triplet.root (v69 (ix2 p u)) := by
  unfold k1_pay4
  show Ideal.sqrt (max (v65 (ix2 p u)) (Ideal.ofBits .f32 0x00000000#32)) - Ideal.sqrt (max (v69 (ix2 p u)) (Ideal.ofBits .f32 0x00000000#32)) = _
  rw [Ideal.ofBits_zero_f32]
  rfl

/-- The fresh running maximum is `⊥` everywhere, the fresh running minimum `⊤`. -/
theorem initMax_at (j : S512x1.Idx) : k1_pay5 (F := Ideal) j = (⊥ : EReal) := by
  unfold k1_pay5
  rw [shapeCast_self]
  exact negBig
theorem initMin_at (j : S512x1.Idx) : k1_pay6 (F := Ideal) j = (⊤ : EReal) := by
  unfold k1_pay6
  rw [shapeCast_self]
  exact posBig

/-- The labels pass through their loads unchanged. -/
theorem labelsRow_eq (v12 : Vec Ideal S1x1024 .i32) : k1_pay7 (F := Ideal) v12 = v12 := by
  unfold k1_pay7; dsimp only; rw [shapeCast_self]
theorem labelsCol_eq (v18 : Vec Ideal S512x1 .i32) : k1_pay8 (F := Ideal) v18 = v18 := by
  unfold k1_pay8; dsimp only; rw [shapeCast_self]

/-! ## The tile as squared distances of numbered rows and keys -/

/-- Row `p` of row block `I`. -/
def rowOf (I : ℕ) (p : Fin 512) : Fin 4096 := ⟨(I % 8) * 512 + p.val, by have := p.isLt; omega⟩
/-- Key `q` of key block `j`. -/
def keyOf (j : ℕ) (q : Fin 1024) : Fin 4096 := ⟨(j % 4) * 1024 + q.val, by have := q.isLt; omega⟩

/-- The tile's entry is the mined squared distance of the row and the key it stands for, when the loaded blocks are
    those rows and keys of `H` with their squared norms. -/
theorem tile_block (i : grid1.Coords) (v6 : Vec Ideal S1024x256 .f32) (v9 : Vec Ideal S1x1024 .f32) (v14 : Vec Ideal S512x256 .f32)
    (v16 : Vec Ideal S512x1 .f32) (H : Fin 4096 → Fin 256 → EReal) (sqc sqr : Fin 4096 → EReal)
    (p : Fin 512) (q : Fin 1024) (R S : Fin 4096)
    (hR : R.val = (i 0).val * 512 + p.val) (hS : S.val = (i 1).val * 1024 + q.val)
    (h14 : ∀ k : Fin 256, v14 (ix2 p k) = H R k) (h6 : ∀ k : Fin 256, v6 (ix2 q k) = H S k)
    (h16 : v16 (ix2 p (0 : Fin 1)) = sqc R) (h9 : v9 (ix2 (0 : Fin 1) q) = sqr S) :
    k1_pay9 i v6 v9 v14 v16 (ix2 p q) = Cert.Triplet.dist2Of H sqc sqr R S := by
  rw [tile_at, h16, h9]
  unfold Cert.Triplet.dist2Of Cert.Triplet.gram
  refine if_congr ?_ rfl ?_
  · rw [← hR, ← hS]; exact Fin.val_inj
  · refine congrArg (fun z => (sqc R + sqr S) - 2 * z) ?_
    exact Finset.sum_congr rfl fun k _ => by rw [h14, h6]

/-! ## Folding the four key blocks in order -/

/-- The largest value of `f` over key block `j`, -/
def blockSup (f : Fin 4096 → EReal) (j : ℕ) : EReal := Finset.univ.sup fun q : Fin 1024 => f (keyOf j q)
/-- the smallest. -/
def blockInf (f : Fin 4096 → EReal) (j : ℕ) : EReal := Finset.univ.inf fun q : Fin 1024 => f (keyOf j q)

/-- The running maximum after key blocks `0 … j`, folded in order from `⊥`, -/
def accMax (f : Fin 4096 → EReal) : ℕ → EReal
  | 0 => max ⊥ (blockSup f 0)
  | j + 1 => max (accMax f j) (blockSup f (j + 1))
/-- the running minimum, from `⊤`. -/
def accMin (f : Fin 4096 → EReal) : ℕ → EReal
  | 0 => min ⊤ (blockInf f 0)
  | j + 1 => min (accMin f j) (blockInf f (j + 1))

/-- After the fourth block the running maximum is the largest value over all keys, -/
theorem accMax_all (f : Fin 4096 → EReal) : accMax f 3 = Finset.univ.sup f :=
  (Cert.Triplet.sup_four_blocks f).symm
/-- the running minimum the smallest. -/
theorem accMin_all (f : Fin 4096 → EReal) : accMin f 3 = Finset.univ.inf f :=
  (Cert.Triplet.inf_four_blocks f).symm

end Cert.KernelIdeal.DistValue
end
-- ==== Proof.ValueDist.lean ====
/-
  The distance kernel's region at the ideal values: what its output array holds after the 32 positions of the grid,
  as a function of the operand arrays `V` at the region's entry.

  Position `t` of the row-major 8 × 4 grid works on row block `t / 4` and key block `t % 4`. Its windows' blocks are
  those rows of the projected rows, of their squared norms and of their labels, and the body reads key block `t % 4`
  out of the whole key arrays (`rows_at` … `labrow_at`); so its tile is the mined squared distance of numbered rows
  and keys (`tile_point`) and it folds the key block's largest entry among the keys of the row's label into the
  running maximum, the smallest among the others into the running minimum (`newMax_point`, `newMin_point`).
  By induction on the position the running extrema after position `n` are the folds of key blocks `0 … n % 4` from
  `⊥` and `⊤` (`scr_acc`); after key block 3 these are the largest and the smallest over all 4096 keys, and the
  position writes back the margin of its 512 rows (`flushed_m`). Row `r` is covered by position `4 (r / 512) + 3`
  (`cover_m`), so the array ends holding the margin of every row (`arr_margin`).
-/
import proofs.«168887_j43078521979195_2_alg».proof.Proof.ValueDistA
import proofs.«168887_j43078521979195_2_alg».proof.Proof.ValueDistB
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.DistValue

open Cert.KernelIdeal Cert.KernelIdeal.Gen Cert.KernelIdeal.Dist
open Idealize.ShloMosaic Idealize.ShloMosaic.TcCoe Idealize.SL.Sem Idealize.ShloMosaic.Tactic
open Idealize.ShloMosaic.Pipeline (Dat)
open Idealize.ShloMosaic.ValueIdx

section Arrays
-- the buffer contents when the region is entered
variable (V : (c : Dev nD) → (b : Ref sig .tc) → Buf (Elt Ideal) ((c : Thread nD τ).loc b))

/-! ## The grid and the windows' block indices, decided over the 32 points -/

/-- Position `t` of the row-major 8 × 4 grid has row-block coordinate `t / 4` and key-block coordinate `t % 4`. -/
theorem coords_facts : ∀ t : Fin cfg1.N, (grid1.coords t 0).val = t.val / 4 ∧ (grid1.coords t 1).val = t.val % 4 :=
  (by decide +kernel : ∀ t : Fin grid1.N, _)

/-- The row-block windows (rows, their squared norms, their labels, the output) sit at the row-block coordinate. -/
theorem idx_rows : ∀ t : Fin cfg1.N,
    win1_0.index t (0 : Fin 2) = t.val / 4 ∧ win1_0.index t (1 : Fin 2) = 0
    ∧ win1_2.index t (0 : Fin 2) = t.val / 4 ∧ win1_2.index t (1 : Fin 2) = 0
    ∧ win1_4.index t (0 : Fin 2) = t.val / 4 ∧ win1_4.index t (1 : Fin 2) = 0
    ∧ win1_6.index t (0 : Fin 2) = t.val / 4 ∧ win1_6.index t (1 : Fin 2) = 0 :=
  (by decide +kernel : ∀ t : Fin grid1.N, _)

/-- The key windows (all keys, their squared norms, their labels) are one block. -/
theorem idx_whole : ∀ t : Fin cfg1.N,
    win1_1.index t (0 : Fin 2) = 0 ∧ win1_1.index t (1 : Fin 2) = 0
    ∧ win1_3.index t (0 : Fin 2) = 0 ∧ win1_3.index t (1 : Fin 2) = 0
    ∧ win1_5.index t (0 : Fin 2) = 0 ∧ win1_5.index t (1 : Fin 2) = 0 :=
  (by decide +kernel : ∀ t : Fin grid1.N, _)

/-- The body reads key block `t % 4` out of the whole key arrays. -/
theorem off_facts : ∀ t : Fin cfg1.N,
    k1_off1 (grid1.coords t) (0 : Fin 2) = (t.val % 4) * 1024 ∧ k1_off1 (grid1.coords t) (1 : Fin 2) = 0
    ∧ k1_off2 (grid1.coords t) (0 : Fin 2) = 0 ∧ k1_off2 (grid1.coords t) (1 : Fin 2) = (t.val % 4) * 1024 :=
  (by decide +kernel : ∀ t : Fin grid1.N, _)

/-! ## The operand arrays as the kernel reads them -/

/-- The projected rows, -/
abbrev Hm (c : Dev nD) : Fin 4096 → Fin 256 → EReal := Cert.Triplet.rows (V c main_v1_0 : S4096x256.Idx → EReal)
/-- their squared norms as a column and as a row, -/
abbrev sqcol (c : Dev nD) : Fin 4096 → EReal := fun r => (V c main_v1_1 : S4096x1.Idx → EReal) (ix2 r (0 : Fin 1))
abbrev sqrow (c : Dev nD) : Fin 4096 → EReal := fun s => (V c main_v4 : S1x4096.Idx → EReal) (ix2 (0 : Fin 1) s)
/-- their labels as a column and as a row. -/
abbrev labcol (c : Dev nD) : Fin 4096 → BitVec 32 := fun r => (V c main_v2 : S4096x1.Idx → BitVec 32) (ix2 r (0 : Fin 1))
abbrev labrow (c : Dev nD) : Fin 4096 → BitVec 32 := fun s => (V c main_v3 : S1x4096.Idx → BitVec 32) (ix2 (0 : Fin 1) s)

/-! ## The windows' blocks read at an entry -/

theorem rows_at (c : Dev nD) (t : Fin cfg1.N) (p : Fin 512) (k : Fin 256) :
    (iblk V c 0 t : Vec Ideal S512x256 .f32) (ix2 p k) = Hm V c (rowOf (t.val / 4) p) k := by
  obtain ⟨e0, e1, -⟩ := idx_rows t
  have hN : cfg1.N = 32 := N_1
  have ht : t.val < 32 := hN ▸ t.isLt
  unfold iblk
  rw [View.read_apply]
  show (V c main_v1_0 : S4096x256.Idx → EReal) _ = (V c main_v1_0 : S4096x256.Idx → EReal) (ix2 (rowOf (t.val / 4) p) k)
  congr 1
  funext a
  apply Fin.ext
  match a with
  | ⟨0, _⟩ => show win1_0.index t 0 * 512 + 1 * p.val = (t.val / 4 % 8) * 512 + p.val; rw [e0]; omega
  | ⟨1, _⟩ => show win1_0.index t 1 * 256 + 1 * k.val = k.val; rw [e1]; omega

theorem sqcol_at (c : Dev nD) (t : Fin cfg1.N) (p : Fin 512) (u : Fin 1) :
    (iblk V c 2 t : Vec Ideal S512x1 .f32) (ix2 p u) = sqcol V c (rowOf (t.val / 4) p) := by
  obtain ⟨-, -, e0, e1, -⟩ := idx_rows t
  have hN : cfg1.N = 32 := N_1
  have ht : t.val < 32 := hN ▸ t.isLt
  unfold iblk
  rw [View.read_apply]
  show (V c main_v1_1 : S4096x1.Idx → EReal) _ = (V c main_v1_1 : S4096x1.Idx → EReal) (ix2 (rowOf (t.val / 4) p) (0 : Fin 1))
  congr 1
  funext a
  apply Fin.ext
  match a with
  | ⟨0, _⟩ => show win1_2.index t 0 * 512 + 1 * p.val = (t.val / 4 % 8) * 512 + p.val; rw [e0]; omega
  | ⟨1, _⟩ => show win1_2.index t 1 * 1 + 1 * u.val = 0; rw [e1]; omega

theorem labcol_at (c : Dev nD) (t : Fin cfg1.N) (p : Fin 512) (u : Fin 1) :
    (iblk V c 4 t : Vec Ideal S512x1 .i32) (ix2 p u) = labcol V c (rowOf (t.val / 4) p) := by
  obtain ⟨-, -, -, -, e0, e1, -⟩ := idx_rows t
  have hN : cfg1.N = 32 := N_1
  have ht : t.val < 32 := hN ▸ t.isLt
  unfold iblk
  rw [View.read_apply]
  show (V c main_v2 : S4096x1.Idx → BitVec 32) _ = (V c main_v2 : S4096x1.Idx → BitVec 32) (ix2 (rowOf (t.val / 4) p) (0 : Fin 1))
  congr 1
  funext a
  apply Fin.ext
  match a with
  | ⟨0, _⟩ => show win1_4.index t 0 * 512 + 1 * p.val = (t.val / 4 % 8) * 512 + p.val; rw [e0]; omega
  | ⟨1, _⟩ => show win1_4.index t 1 * 1 + 1 * u.val = 0; rw [e1]; omega

theorem keys_at (c : Dev nD) (t : Fin cfg1.N) (q : Fin 1024) (k : Fin 256) :
    View.ld (iblk V c 1 t : Vec Ideal S4096x256 .f32) (rKeys (grid1.coords t)) (ix2 q k) = Hm V c (keyOf (t.val % 4) q) k := by
  obtain ⟨e0, e1, -⟩ := idx_whole t
  obtain ⟨o0, o1, -⟩ := off_facts t
  show (iblk V c 1 t : Vec Ideal S4096x256 .f32) ((rKeys (grid1.coords t)).emb (ix2 q k)) = _
  unfold iblk
  rw [View.read_apply]
  show (V c main_v1_0 : S4096x256.Idx → EReal) _ = (V c main_v1_0 : S4096x256.Idx → EReal) (ix2 (keyOf (t.val % 4) q) k)
  congr 1
  funext a
  apply Fin.ext
  match a with
  | ⟨0, _⟩ => show win1_1.index t 0 * 4096 + 1 * (k1_off1 (grid1.coords t) 0 + 1 * q.val) = (t.val % 4 % 4) * 1024 + q.val; rw [e0, o0]; omega
  | ⟨1, _⟩ => show win1_1.index t 1 * 256 + 1 * (k1_off1 (grid1.coords t) 1 + 1 * k.val) = k.val; rw [e1, o1]; omega

theorem sqrow_at (c : Dev nD) (t : Fin cfg1.N) (u : Fin 1) (q : Fin 1024) :
    View.ld (iblk V c 3 t : Vec Ideal S1x4096 .f32) (rLane (grid1.coords t)) (ix2 u q) = sqrow V c (keyOf (t.val % 4) q) := by
  obtain ⟨-, -, e0, e1, -⟩ := idx_whole t
  obtain ⟨-, -, o0, o1⟩ := off_facts t
  show (iblk V c 3 t : Vec Ideal S1x4096 .f32) ((rLane (grid1.coords t)).emb (ix2 u q)) = _
  unfold iblk
  rw [View.read_apply]
  show (V c main_v4 : S1x4096.Idx → EReal) _ = (V c main_v4 : S1x4096.Idx → EReal) (ix2 (0 : Fin 1) (keyOf (t.val % 4) q))
  congr 1
  funext a
  apply Fin.ext
  match a with
  | ⟨0, _⟩ => show win1_3.index t 0 * 1 + 1 * (k1_off2 (grid1.coords t) 0 + 1 * u.val) = 0; rw [e0, o0]; omega
  | ⟨1, _⟩ => show win1_3.index t 1 * 4096 + 1 * (k1_off2 (grid1.coords t) 1 + 1 * q.val) = (t.val % 4 % 4) * 1024 + q.val; rw [e1, o1]; omega

theorem labrow_at (c : Dev nD) (t : Fin cfg1.N) (u : Fin 1) (q : Fin 1024) :
    View.ld (iblk V c 5 t : Vec Ideal S1x4096 .i32) (rLane (grid1.coords t)) (ix2 u q) = labrow V c (keyOf (t.val % 4) q) := by
  obtain ⟨-, -, -, -, e0, e1⟩ := idx_whole t
  obtain ⟨-, -, o0, o1⟩ := off_facts t
  show (iblk V c 5 t : Vec Ideal S1x4096 .i32) ((rLane (grid1.coords t)).emb (ix2 u q)) = _
  unfold iblk
  rw [View.read_apply]
  show (V c main_v3 : S1x4096.Idx → BitVec 32) _ = (V c main_v3 : S1x4096.Idx → BitVec 32) (ix2 (0 : Fin 1) (keyOf (t.val % 4) q))
  congr 1
  funext a
  apply Fin.ext
  match a with
  | ⟨0, _⟩ => show win1_5.index t 0 * 1 + 1 * (k1_off2 (grid1.coords t) 0 + 1 * u.val) = 0; rw [e0, o0]; omega
  | ⟨1, _⟩ => show win1_5.index t 1 * 4096 + 1 * (k1_off2 (grid1.coords t) 1 + 1 * q.val) = (t.val % 4 % 4) * 1024 + q.val; rw [e1, o1]; omega

/-! ## One point's work, in numbered rows and keys -/

/-- What the running maximum of row `R` ranges over: the mined squared distance to the keys of the row's label, -/
def fmax (c : Dev nD) (R : Fin 4096) : Fin 4096 → EReal := fun s =>
  if labcol V c R = labrow V c s then Cert.Triplet.dist2Of (Hm V c) (sqcol V c) (sqrow V c) R s else ⊥
/-- and the running minimum: to the keys of another label. -/
def fmin (c : Dev nD) (R : Fin 4096) : Fin 4096 → EReal := fun s =>
  if labcol V c R = labrow V c s then ⊤ else Cert.Triplet.dist2Of (Hm V c) (sqcol V c) (sqrow V c) R s

/-- The tile of position `t` at `(p, q)` is the mined squared distance of row `p` of row block `t / 4` and key `q` of
    key block `t % 4`. -/
theorem tile_point (c : Dev nD) (t : Fin cfg1.N) (p : Fin 512) (q : Fin 1024) :
    tile (grid1.coords t) (iblk V c 0 t) (iblk V c 1 t) (iblk V c 2 t) (iblk V c 3 t) (ix2 p q)
      = Cert.Triplet.dist2Of (Hm V c) (sqcol V c) (sqrow V c) (rowOf (t.val / 4) p) (keyOf (t.val % 4) q) := by
  obtain ⟨g0, g1⟩ := coords_facts t
  have hN : cfg1.N = 32 := N_1
  have ht : t.val < 32 := hN ▸ t.isLt
  unfold tile
  refine tile_block (grid1.coords t) _ _ _ _ (Hm V c) (sqcol V c) (sqrow V c) p q (rowOf (t.val / 4) p) (keyOf (t.val % 4) q) ?_ ?_
    (fun k => rows_at V c t p k) (fun k => keys_at V c t q k) (sqcol_at V c t p 0) (sqrow_at V c t 0 q)
  · show (t.val / 4 % 8) * 512 + p.val = (grid1.coords t 0).val * 512 + p.val; rw [g0]; omega
  · show (t.val % 4 % 4) * 1024 + q.val = (grid1.coords t 1).val * 1024 + q.val; rw [g1]; omega

/-- The point folds its key block into the running maximum, -/
theorem newMax_point (c : Dev nD) (t : Fin cfg1.N) (old : Vec Ideal S512x1 .f32) (p : Fin 512) (u : Fin 1) :
    newMax (grid1.coords t) (iblk V c 0 t) (iblk V c 1 t) (iblk V c 2 t) (iblk V c 3 t) (iblk V c 4 t) (iblk V c 5 t) old (ix2 p u)
      = max (old (ix2 p u)) (blockSup (fmax V c (rowOf (t.val / 4) p)) (t.val % 4)) := by
  unfold newMax
  refine (newMax_at _ _ _ _ p u).trans ?_
  refine congrArg (max (old (ix2 p u))) ?_
  unfold blockSup
  refine Finset.sup_congr rfl fun q _ => ?_
  rw [labelsCol_eq, labelsRow_eq, tile_point V c t p q, labcol_at V c t p 0, labrow_at V c t 0 q]
  rfl

/-- and into the running minimum. -/
theorem newMin_point (c : Dev nD) (t : Fin cfg1.N) (old : Vec Ideal S512x1 .f32) (p : Fin 512) (u : Fin 1) :
    newMin (grid1.coords t) (iblk V c 0 t) (iblk V c 1 t) (iblk V c 2 t) (iblk V c 3 t) (iblk V c 4 t) (iblk V c 5 t) old (ix2 p u)
      = min (old (ix2 p u)) (blockInf (fmin V c (rowOf (t.val / 4) p)) (t.val % 4)) := by
  unfold newMin
  refine (newMin_at _ _ _ _ p u).trans ?_
  refine congrArg (min (old (ix2 p u))) ?_
  unfold blockInf
  refine Finset.inf_congr rfl fun q _ => ?_
  rw [labelsCol_eq, labelsRow_eq, tile_point V c t p q, labcol_at V c t p 0, labrow_at V c t 0 q]
  rfl

/-! ## The three cases of a point -/

theorem step_first (c : Dev nD) (t : Fin cfg1.N) (pr : Scr Ideal) (h0 : t.val % 4 = 0) :
    scrStep V c t pr
      = (newMax (grid1.coords t) (iblk V c 0 t) (iblk V c 1 t) (iblk V c 2 t) (iblk V c 3 t) (iblk V c 4 t) (iblk V c 5 t) (k1_pay5 (F := Ideal)),
         newMin (grid1.coords t) (iblk V c 0 t) (iblk V c 1 t) (iblk V c 2 t) (iblk V c 3 t) (iblk V c 4 t) (iblk V c 5 t) (k1_pay6 (F := Ideal))) := by
  have h1 : ¬t.val % 4 = 3 := by omega
  unfold scrStep
  rw [dif_pos h0, dif_neg h1]
  exact congrArg₂ Prod.mk (first_max ..) (first_min ..)

theorem step_later (c : Dev nD) (t : Fin cfg1.N) (pr : Scr Ideal) (h0 : ¬t.val % 4 = 0) :
    scrStep V c t pr
      = (newMax (grid1.coords t) (iblk V c 0 t) (iblk V c 1 t) (iblk V c 2 t) (iblk V c 3 t) (iblk V c 4 t) (iblk V c 5 t) pr.1,
         newMin (grid1.coords t) (iblk V c 0 t) (iblk V c 1 t) (iblk V c 2 t) (iblk V c 3 t) (iblk V c 4 t) (iblk V c 5 t) pr.2) := by
  unfold scrStep
  rw [dif_neg h0]
  by_cases h1 : t.val % 4 = 3
  · rw [dif_pos h1]; exact congrArg₂ Prod.mk (last_max ..) (last_min ..)
  · rw [dif_neg h1]; exact congrArg₂ Prod.mk (mid_max ..) (mid_min ..)

theorem out_last (c : Dev nD) (t : Fin cfg1.N) (pr : Scr Ideal) (h1 : t.val % 4 = 3) :
    outStep V c t pr
      = k1_pay4 (newMax (grid1.coords t) (iblk V c 0 t) (iblk V c 1 t) (iblk V c 2 t) (iblk V c 3 t) (iblk V c 4 t) (iblk V c 5 t) pr.1)
          (newMin (grid1.coords t) (iblk V c 0 t) (iblk V c 1 t) (iblk V c 2 t) (iblk V c 3 t) (iblk V c 4 t) (iblk V c 5 t) pr.2) := by
  have h0 : ¬t.val % 4 = 0 := by omega
  unfold outStep
  rw [dif_neg h0, dif_pos h1]
  exact last_out ..

/-! ## The running extrema after each position -/

theorem pt_lt (n : ℕ) (hn : n < 32) : (pt n).val = n := by
  show n % cfg1.N = n
  rw [show cfg1.N = 32 from N_1]
  exact Nat.mod_eq_of_lt hn

/-- At the first position of a row block the extrema are the first key block's, folded into `⊥` and `⊤`. -/
theorem scr_first (c : Dev nD) (n : ℕ) (hn : n < 32) (h0 : n % 4 = 0) (p : Fin 512) (u : Fin 1) :
    (scr V c n).1 (ix2 p u) = max ⊥ (blockSup (fmax V c (rowOf (n / 4) p)) 0)
    ∧ (scr V c n).2 (ix2 p u) = min ⊤ (blockInf (fmin V c (rowOf (n / 4) p)) 0) := by
  have hp := pt_lt n hn
  rw [scr_eq, step_first V c (pt n) _ (by rw [hp]; exact h0)]
  constructor
  · refine (newMax_point V c (pt n) _ p u).trans ?_
    rw [hp, h0, initMax_at]
  · refine (newMin_point V c (pt n) _ p u).trans ?_
    rw [hp, h0, initMin_at]

/-- At a later position they are the position's key block folded into what the position before left. -/
theorem scr_later (c : Dev nD) (m : ℕ) (hn : m + 1 < 32) (h0 : ¬(m + 1) % 4 = 0) (p : Fin 512) (u : Fin 1) :
    (scr V c (m + 1)).1 (ix2 p u) = max ((scr V c m).1 (ix2 p u)) (blockSup (fmax V c (rowOf ((m + 1) / 4) p)) ((m + 1) % 4))
    ∧ (scr V c (m + 1)).2 (ix2 p u) = min ((scr V c m).2 (ix2 p u)) (blockInf (fmin V c (rowOf ((m + 1) / 4) p)) ((m + 1) % 4)) := by
  have hp := pt_lt (m + 1) hn
  rw [scr_eq, step_later V c (pt (m + 1)) _ (by rw [hp]; exact h0)]
  constructor
  · refine (newMax_point V c (pt (m + 1)) _ p u).trans ?_
    rw [hp]; rfl
  · refine (newMin_point V c (pt (m + 1)) _ p u).trans ?_
    rw [hp]; rfl

/-- After position `n` the running extrema of row `p` of row block `n / 4` are the folds of key blocks `0 … n % 4`. -/
theorem scr_acc (c : Dev nD) : ∀ n : ℕ, n < 32 → ∀ (p : Fin 512) (u : Fin 1),
    (scr V c n).1 (ix2 p u) = accMax (fmax V c (rowOf (n / 4) p)) (n % 4)
    ∧ (scr V c n).2 (ix2 p u) = accMin (fmin V c (rowOf (n / 4) p)) (n % 4)
  | 0, hn, p, u => scr_first V c 0 hn rfl p u
  | m + 1, hn, p, u => by
    by_cases h0 : (m + 1) % 4 = 0
    · obtain ⟨a, b⟩ := scr_first V c (m + 1) hn h0 p u
      rw [h0]; exact ⟨a, b⟩
    · obtain ⟨a, b⟩ := scr_later V c m hn h0 p u
      obtain ⟨ia, ib⟩ := scr_acc c m (by omega) p u
      have e1 : (m + 1) % 4 = m % 4 + 1 := by omega
      have e2 : (m + 1) / 4 = m / 4 := by omega
      rw [a, b, ia, ib, e1, e2]
      exact ⟨rfl, rfl⟩

/-! ## From the output blocks to the array of margins -/

/-- The margin of every row, from the operand arrays at the region's entry. -/
abbrev marginArr (c : Dev nD) : Fin 4096 → EReal :=
  Cert.Triplet.marginOf (Hm V c) (sqcol V c) (sqrow V c) (labcol V c) (labrow V c)

/-- What a position with key-block coordinate 3 writes back is its row block of the margins. -/
theorem flushed_m (c : Dev nD) (t : Fin cfg1.N) (hf : (cfg1.win 6).flush t = true) :
    (dat V c).flushed 6 t = ((cfg1.win 6).blk t).view.read (Elt Ideal) (fun i : S4096x1.Idx => marginArr V c (i 0)) := by
  have h3 : t.val % 4 = 3 := (flush1_6 t).mp hf
  have hN : cfg1.N = 32 := N_1
  have ht : t.val < 32 := hN ▸ t.isLt
  obtain ⟨-, -, -, -, -, -, e60, e61⟩ := idx_rows t
  obtain ⟨m, hm⟩ : ∃ m, t.val = m + 1 := ⟨t.val - 1, by omega⟩
  show (cfg1.win 6).cut (grid1.coords t) ((dat V c).after 6 t) = _
  rw [after_6, out_last V c t _ h3]
  funext j
  obtain ⟨p, u, rfl⟩ : ∃ (p : Fin 512) (u : Fin 1), j = ix2 p u := ⟨j 0, j 1, eq_ix2 j⟩
  rw [View.read_apply]
  have hrow : ((((cfg1.win 6).blk t).view.emb (ix2 p u)) 0 : Fin 4096) = rowOf (t.val / 4) p :=
    Fin.ext (by show win1_6.index t 0 * 512 + 1 * p.val = (t.val / 4 % 8) * 512 + p.val; rw [e60]; omega)
  refine Eq.trans ?_ (congrArg (marginArr V c) hrow.symm)
  refine (margin_at _ _ p u).trans ?_
  rw [newMax_point V c t _ p u, newMin_point V c t _ p u]
  obtain ⟨ia, ib⟩ := scr_acc V c m (by omega) p u
  have hb : scrBefore V c t.val = scr V c m := by rw [hm]; rfl
  rw [hb, ia, ib]
  have e1 : m % 4 = 2 := by omega
  have e2 : m / 4 = t.val / 4 := by omega
  rw [e1, e2, h3]
  show Cert.Triplet.root (accMax (fmax V c (rowOf (t.val / 4) p)) 3) - Cert.Triplet.root (accMin (fmin V c (rowOf (t.val / 4) p)) 3) = _
  rw [accMax_all, accMin_all]
  rfl

/-- An index of the array of margins is in position `t`'s block iff each coordinate is in the block's range. -/
theorem mem_blk_m (t : Fin cfg1.N) (i : S4096x1.Idx) :
    i ∈ ((cfg1.win 6).blk t).view.set ↔ ∀ a : Fin 2, win1_6.index t a * S512x1.size a ≤ (i a).val ∧ (i a).val < win1_6.index t a * S512x1.size a + S512x1.size a := by
  show i ∈ ((View.whole main_v5).slice (win1_6.rect t)).set ↔ _
  rw [View.set_slice_whole, Rect.mem_set_unit]
  exact Iff.rfl

/-- Row `r` is written back by position `4 (r / 512) + 3`. -/
theorem cover_m (i : S4096x1.Idx) : ∃ t : Fin cfg1.N, (cfg1.win 6).flush t = true ∧ i ∈ ((cfg1.win 6).blk t).view.set := by
  have hi0 : (i 0).val < 4096 := (i 0).isLt
  have hi1 : (i 1).val < 1 := (i 1).isLt
  have hN : cfg1.N = 32 := N_1
  refine ⟨⟨4 * ((i 0).val / 512) + 3, by rw [hN]; omega⟩, (flush1_6 _).mpr (by show (4 * ((i 0).val / 512) + 3) % 4 = 3; omega), ?_⟩
  obtain ⟨-, -, -, -, -, -, e60, e61⟩ := idx_rows ⟨4 * ((i 0).val / 512) + 3, by rw [hN]; omega⟩
  rw [mem_blk_m]
  intro a
  match a with
  | ⟨0, _⟩ =>
    show win1_6.index _ 0 * 512 ≤ (i 0).val ∧ (i 0).val < win1_6.index _ 0 * 512 + 512
    rw [e60]; show (4 * ((i 0).val / 512) + 3) / 4 * 512 ≤ (i 0).val ∧ (i 0).val < (4 * ((i 0).val / 512) + 3) / 4 * 512 + 512; omega
  | ⟨1, _⟩ =>
    show win1_6.index _ 1 * 1 ≤ (i 1).val ∧ (i 1).val < win1_6.index _ 1 * 1 + 1
    rw [e61]; omega

/-- After the region's 32 positions the output array holds the margin of every row, computed from the operand
    arrays as the region found them. -/
theorem arr_margin (c : Dev nD) :
    (Dist.dat (F := Ideal) V c).arrAt 6 cfg1.N
      = fun i => Cert.Triplet.marginOf (Cert.Triplet.rows (V c main_v1_0)) (fun r => V c main_v1_1 (ValueIdx.ix2 r 0))
          (fun s => V c main_v4 (ValueIdx.ix2 0 s)) (fun r => V c main_v2 (ValueIdx.ix2 r 0)) (fun s => V c main_v3 (ValueIdx.ix2 0 s)) (i 0) :=
  (dat V c).arrAt_eq_of_cover 6 _ (fun t hf => flushed_m V c t hf) cover_m

end Arrays

end Cert.KernelIdeal.DistValue
end
-- ==== Proof.ValueRunB.lean ====
/-
  The idealized program's result as a function of its four argument arrays: the loss of the margins
  `posKer − negKer` of the projected rows `x · W + b` under the labels.

  The projection kernel leaves the projected rows and their squared norms; the distance kernel's five operand
  arrays are those rows (twice), the squared norms as a column and as a row, and the labels as a column and as a
  row; so its margins are the specification's `posKer − negKer`, and the host tail sums `log (1 + exp ·)` of them.
-/
import proofs.«168887_j43078521979195_2_alg».proof.Proof.ValueRunA
import proofs.«168887_j43078521979195_2_alg».proof.Proof.ValueFc
import proofs.«168887_j43078521979195_2_alg».proof.Proof.ValueDist

set_option maxRecDepth 16384

noncomputable section

namespace Cert.KernelIdeal.WholeValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Whole Idealize.ShloMosaic.ValueIdx
open Cert.Triplet

variable (m : (ℓ : Loc nD τ sig) → Buf (Elt Ideal) ℓ)

/-- The projected rows, from the launch contents of the three float arguments. -/
abbrev hrows (c : Dev nD) : Fin 4096 → Fin 256 → EReal :=
  proj (rows (m ((c : Thread nD τ).loc main_arg0))) (rows (m ((c : Thread nD τ).loc main_arg1))) (entries (m ((c : Thread nD τ).loc main_arg2)))

theorem proj_entry (c : Dev nD) :
    proj (rows (V1 m c main_arg0)) (rows (V1 m c main_arg1)) (fun k => V1 m c main_v0 (ix2 0 k)) = hrows m c := by
  rw [V1_arg0, V1_arg1]
  exact congrArg (proj _ _) (funext fun k => V1_v0_at m c k)

theorem keys_eq (c : Dev nD) : rows (V3 m c main_v1_0) = hrows m c := by
  funext r k
  unfold rows
  rw [V3_h, FcValue.arr_h (V1 m) c, proj_entry]
  rfl

theorem sqcol_eq (c : Dev nD) : (fun r : Fin 4096 => V3 m c main_v1_1 (ix2 r 0)) = sqn (hrows m c) := by
  funext r
  rw [V3_sq, FcValue.arr_sq (V1 m) c, proj_entry]
  rfl

theorem sqrow_eq (c : Dev nD) : (fun s : Fin 4096 => V3 m c main_v4 (ix2 0 s)) = sqn (hrows m c) := by
  funext s
  rw [V3_v4_at, FcValue.arr_sq (V1 m) c, proj_entry]
  rfl

theorem tcol_eq (c : Dev nD) : (fun r : Fin 4096 => V3 m c main_v2 (ix2 r 0)) = entries (m ((c : Thread nD τ).loc main_arg3)) :=
  funext fun r => V3_v2_at m c r

theorem trow_eq (c : Dev nD) : (fun s : Fin 4096 => V3 m c main_v3 (ix2 0 s)) = entries (m ((c : Thread nD τ).loc main_arg3)) :=
  funext fun s => V3_v3_at m c s

/-- The program's result buffer after the run. -/
theorem result_eq (c : Dev nD) : (W5 m c (Proc.devRef .tc main_v8) : S_.Idx → EReal)
    = fun _ => kerLoss (m ((c : Thread nD τ).loc main_arg0)) (m ((c : Thread nD τ).loc main_arg1)) (m ((c : Thread nD τ).loc main_arg2)) (m ((c : Thread nD τ).loc main_arg3)) := by
  refine W5_v8_loss m c _ fun r => ?_
  rw [W4_out m c, DistValue.arr_margin (V3 m) c, keys_eq, sqcol_eq, sqrow_eq, tcol_eq, trow_eq]
  exact marginOf_eq _ _ _

end Cert.KernelIdeal.WholeValue

end
-- ==== Proof.RefValue.lean ====
/-
  The value of the first program: the buffer its run ends with holds, at its one index, the triplet
  loss with hardest mining of the four argument arrays, `refLoss` of the specification.

  The program is read one operation at a time, each at an index built from its coordinates:
  the projection `h r c = ∑ k, x r k · W k c + b c`; the squared norms `∑ c, (h r c)²`; the inner
  products `∑ c, h r c · h s c` (the second factor a transpose of `h`); the squared distance
  `(|h r|² + |h s|²) − 2 · ⟨h r, h s⟩`, its positive part and the square root of that; the label
  mask, an equality test of two words, and the two selections it drives (`⊥` off the mask for the
  maximum, `⊤` on the mask for the minimum; `−∞` arrives as the negation of `+∞`); the row maximum
  and the row minimum, each a fold over the 4096 columns from the neutral element of its
  operation, hence the supremum and the infimum over the columns; the difference, `log (1 + exp ·)`
  of it, and the sum over the rows from zero.
-/
import proofs.«168887_j43078521979195_2_alg».proof.Proof.Spec
import proofs.«168887_j43078521979195_2_alg».proof.Proof.LibDot
import proofs.«168887_j43078521979195_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Triplet.Ref

open Cert.ReferenceIdeal Cert.ReferenceIdeal.Gen Cert.ReferenceIdeal.Read Idealize.ShloMosaic Idealize.ShloMosaic.ValueIdx

/-! ## Literals -/

/-- The word of the literal two denotes the extended real two. -/
theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; rfl

/-- The word of minus infinity denotes the bottom element. -/
theorem ofBits_negInf : Ideal.ofBits .f32 0xFF800000#32 = (⊥ : EReal) := by
  simp [Ideal.ofBits, Ideal.ieee]

/-- The word of plus infinity denotes the top element. -/
theorem ofBits_posInf : Ideal.ofBits .f32 0x7F800000#32 = (⊤ : EReal) := by
  simp [Ideal.ofBits, Ideal.ieee]

/-! ## Folds of a maximum and of a minimum over a finite set -/

/-- A fold of `max` from `a` is the larger of `a` and the supremum. -/
theorem fold_max_eq_sup {ι : Type*} (s : Finset ι) (a : EReal) (f : ι → EReal) :
    s.fold max a f = max a (s.sup f) := by
  classical
  induction s using Finset.induction_on with
  | empty => simp
  | insert i s hi ih =>
    rw [Finset.fold_insert hi, ih, Finset.sup_insert]
    exact max_left_comm _ _ _

/-- A fold of `min` from `a` is the smaller of `a` and the infimum. -/
theorem fold_min_eq_inf {ι : Type*} (s : Finset ι) (a : EReal) (f : ι → EReal) :
    s.fold min a f = min a (s.inf f) := by
  classical
  induction s using Finset.induction_on with
  | empty => simp
  | insert i s hi ih =>
    rw [Finset.fold_insert hi, ih, Finset.inf_insert]
    exact min_left_comm _ _ _

/-! ## A rank-one index set is its one coordinate range -/

/-- A rank-one index set is its coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Stages

variable (x0 : (⟨S4096x1024, .f32⟩ : BufTy).Contents (Elt Ideal)) (x1 : (⟨S1024x256, .f32⟩ : BufTy).Contents (Elt Ideal))
  (x2 : (⟨S256, .f32⟩ : BufTy).Contents (Elt Ideal)) (x3 : (⟨S4096, .i32⟩ : BufTy).Contents (Elt Ideal))

/-- The projected rows `x · W + b` of the argument arrays. -/
abbrev hh : Fin 4096 → Fin 256 → EReal := proj (rows x0) (rows x1) (entries x2)

/-! ## The projection, the squared norms and the inner products -/

/-- Operation 3 at entry (r, c) is row `r` of `x · W + b` at `c`. -/
theorem v3_eq (r : Fin 4096) (c : Fin 256) :
    val_main_v3 (F := Ideal) x0 x1 x2 (ix2 r c) = hh x0 x1 x2 r c := by
  have e0 : ∀ k : Fin 1024, lidx_main_v0 (ix2 r c) k = ix2 r k := fun k =>
    funext fun a => Fin.ext (by match a with | ⟨0, _⟩ => rfl | ⟨1, _⟩ => rfl)
  have e1 : ∀ k : Fin 1024, ridx_main_v0 (ix2 r c) k = ix2 k c := fun k =>
    funext fun a => Fin.ext (by match a with | ⟨0, _⟩ => rfl | ⟨1, _⟩ => rfl)
  have e2 : idx_main_v1 (idx_main_v2 (ix2 r c)) = ix1 c :=
    funext fun a => Fin.ext (by match a with | ⟨0, _⟩ => rfl)
  rw [val_main_v3_apply, val_main_v0_apply, val_main_v2_apply, val_main_v1_apply, e2]
  simp only [e0, e1, Ideal.addf_def]
  rfl

/-- Operation 5 at `r` is the squared norm of row `r`. -/
theorem v5_eq (r : Fin 4096) :
    val_main_v5 (F := Ideal) x0 x1 x2 (ix1 r) = sqn (hh x0 x1 x2) r := by
  have e0 : ∀ k : Fin 256, idx_main_v5 (ix1 r) k = ix2 r k := fun k =>
    funext fun a => Fin.ext (by match a with | ⟨0, _⟩ => rfl | ⟨1, _⟩ => rfl)
  rw [val_main_v5_apply, val_main_cst_apply, Ideal.ofBits_def, Ideal.ofBits_zero_f32, zero_add]
  unfold sqn
  refine Finset.sum_congr rfl fun k _ => ?_
  rw [e0 k, val_main_v4_apply, v3_eq, Ideal.mulf_def]

/-- Operation 12 at entry (r, s) is the inner product of rows `r` and `s`. -/
theorem v12_eq (r s : Fin 4096) :
    val_main_v12 (F := Ideal) x0 x1 x2 (ix2 r s) = gram (hh x0 x1 x2) r s := by
  have e0 : ∀ k : Fin 256, lidx_main_v12 (ix2 r s) k = ix2 r k := fun k =>
    funext fun a => Fin.ext (by match a with | ⟨0, _⟩ => rfl | ⟨1, _⟩ => rfl)
  have e1 : ∀ k : Fin 256, idx_main_v11 (ridx_main_v12 (ix2 r s) k) = ix2 s k := fun k =>
    funext fun a => Fin.ext (by match a with | ⟨0, _⟩ => rfl | ⟨1, _⟩ => rfl)
  rw [val_main_v12_apply]
  unfold gram
  refine Finset.sum_congr rfl fun k _ => ?_
  rw [val_main_v11_apply, e0 k, e1 k, v3_eq, v3_eq]

/-! ## The distances -/

/-- Operation 18 at entry (r, s) is the distance of rows `r` and `s`. -/
theorem v18_eq (r s : Fin 4096) :
    val_main_v18 (F := Ideal) x0 x1 x2 (ix2 r s) = root (dist2 (hh x0 x1 x2) r s) := by
  have e8 : idx_main_v6 (idx_main_v8 (ix2 r s)) = ix1 r :=
    funext fun a => Fin.ext (by match a with | ⟨0, _⟩ => rfl)
  have e9 : idx_main_v7 (idx_main_v9 (ix2 r s)) = ix1 s :=
    funext fun a => Fin.ext (by match a with | ⟨0, _⟩ => rfl)
  rw [val_main_v18_apply, val_main_v17_apply, val_main_v15_apply, val_main_v10_apply, val_main_v14_apply,
    val_main_v8_apply, val_main_v6_apply, e8, val_main_v9_apply, val_main_v7_apply, e9, val_main_v13_apply,
    val_main_cst_0_apply, val_main_v16_apply, val_main_cst_1_apply, v5_eq, v5_eq, v12_eq]
  simp only [Ideal.ofBits_def, Ideal.ofBits_zero_f32, ofBits_two, Ideal.hostUnary_sqrt_def, Ideal.maximumf_def,
    Ideal.subf_def, Ideal.addf_def, Ideal.mulf_def]
  rfl

/-! ## The label mask and the two selections -/

/-- Operation 23 at entry (r, s) compares the labels of rows `r` and `s`. -/
theorem v23_eq (r s : Fin 4096) :
    val_main_v23 (F := Ideal) x3 (ix2 r s) = IntOp.cmpi .eq (entries x3 r) (entries x3 s) := by
  have e1 : idx_main_v19 (idx_main_v21 (ix2 r s)) = ix1 r :=
    funext fun a => Fin.ext (by match a with | ⟨0, _⟩ => rfl)
  have e2 : idx_main_v20 (idx_main_v22 (ix2 r s)) = ix1 s :=
    funext fun a => Fin.ext (by match a with | ⟨0, _⟩ => rfl)
  rw [val_main_v23_apply, val_main_v21_apply, val_main_v19_apply, e1, val_main_v22_apply, val_main_v20_apply, e2]
  rfl

/-- A selection on an equality test of two words is the `if` on their equality. -/
theorem select_cmpi_eq (a b : BitVec 32) (u v : EReal) :
    Scalar.select (IntOp.cmpi .eq a b) u v = if a = b then u else v := by
  by_cases h : a = b
  · rw [if_pos h, IntOp.cmpi_eq.2 h]; exact select_one u v
  · rw [if_neg h, eq_zero_of_ne_one (fun hc => h (IntOp.cmpi_eq.1 hc))]; exact select_zero u v

/-- Operation 25 at entry (r, s): the distance where the labels agree, `⊥` elsewhere. -/
theorem v25_eq (r s : Fin 4096) :
    val_main_v25 (F := Ideal) x0 x1 x2 x3 (ix2 r s)
      = if entries x3 r = entries x3 s then root (dist2 (hh x0 x1 x2) r s) else ⊥ := by
  rw [val_main_v25_apply, v23_eq, v18_eq, val_main_call0_v0_apply, val_main_v24_apply, val_main_cst_2_apply,
    select_cmpi_eq]
  simp only [Ideal.ofBits_def, ofBits_posInf, Ideal.hostNegf_def, Ideal.negf_def, EReal.neg_top]

/-- Operation 27 at entry (r, s): `⊤` where the labels agree, the distance elsewhere. -/
theorem v27_eq (r s : Fin 4096) :
    val_main_v27 (F := Ideal) x0 x1 x2 x3 (ix2 r s)
      = if entries x3 r = entries x3 s then ⊤ else root (dist2 (hh x0 x1 x2) r s) := by
  rw [val_main_v27_apply, v23_eq, v18_eq, val_main_call1_v0_apply, val_main_cst_4_apply, select_cmpi_eq]
  simp only [Ideal.ofBits_def, ofBits_posInf]

/-! ## The row maximum and the row minimum -/

/-- The reduced index `r` with column `k` put back is (r, k). -/
theorem lift_row (h : S4096x4096.Reduces [1] S4096) (r : Fin 4096) (k : Fin (S4096x4096.size 1)) :
    h.lift (ix1 r) k = ix2 r (⟨k.val, k.isLt⟩ : Fin 4096) := by
  funext c; apply Fin.ext
  fin_cases c <;> rfl

/-- Operation 26 at `r` is the largest distance from row `r` to a row of its label. -/
theorem v26_eq (r : Fin 4096) :
    val_main_v26 (F := Ideal) x0 x1 x2 x3 (ix1 r) = posRef (hh x0 x1 x2) (entries x3) r := by
  have hR : S4096x4096.Reduces [1] S4096 := by decide
  unfold val_main_v26
  generalize hy : val_main_v25 (F := Ideal) x0 x1 x2 x3 = y
  refine (Host.reduce_eq_fold_single (FloatOps.maximumf (F := Ideal) (φ := .f32)) y (val_main_cst_3 (F := Ideal))
    reducesTo_S4096x4096_S4096_d1 hR h_S_ (ix1 r)).trans ?_
  have hf : (y ∘ hR.lift (ix1 r))
      = fun k : Fin 4096 => if entries x3 r = entries x3 k then root (dist2 (hh x0 x1 x2) r k) else ⊥ :=
    funext fun k => by
      show y (hR.lift (ix1 r) k) = _
      rw [lift_row hR r k, ← hy]
      exact v25_eq x0 x1 x2 x3 r k
  refine (congrArg (fun f => Finset.fold max (Ideal.ofBits .f32 0xFF800000#32) f (Finset.univ : Finset (Fin 4096))) hf).trans ?_
  rw [fold_max_eq_sup, ofBits_negInf, max_bot_left]
  rfl

/-- Operation 28 at `r` is the smallest distance from row `r` to a row of another label. -/
theorem v28_eq (r : Fin 4096) :
    val_main_v28 (F := Ideal) x0 x1 x2 x3 (ix1 r) = negRef (hh x0 x1 x2) (entries x3) r := by
  have hR : S4096x4096.Reduces [1] S4096 := by decide
  unfold val_main_v28
  generalize hy : val_main_v27 (F := Ideal) x0 x1 x2 x3 = y
  refine (Host.reduce_eq_fold_single (FloatOps.minimumf (F := Ideal) (φ := .f32)) y (val_main_cst_5 (F := Ideal))
    reducesTo_S4096x4096_S4096_d1 hR h_S_ (ix1 r)).trans ?_
  have hf : (y ∘ hR.lift (ix1 r))
      = fun k : Fin 4096 => if entries x3 r = entries x3 k then ⊤ else root (dist2 (hh x0 x1 x2) r k) :=
    funext fun k => by
      show y (hR.lift (ix1 r) k) = _
      rw [lift_row hR r k, ← hy]
      exact v27_eq x0 x1 x2 x3 r k
  refine (congrArg (fun f => Finset.fold min (Ideal.ofBits .f32 0x7F800000#32) f (Finset.univ : Finset (Fin 4096))) hf).trans ?_
  rw [fold_min_eq_inf, ofBits_posInf, min_top_left]
  rfl

/-! ## The loss -/

/-- The last operation, at its one index, is the loss of the four argument arrays. -/
theorem v32_eq (i : S_.Idx) :
    val_main_v32 (F := Ideal) x0 x1 x2 x3 i = refLoss x0 x1 x2 x3 := by
  rw [val_main_v32_apply, val_main_cst_6_apply, Ideal.ofBits_def, Ideal.ofBits_zero_f32, zero_add, sum_idx1]
  unfold refLoss loss softplus
  refine Finset.sum_congr rfl fun r _ => ?_
  rw [val_main_v31_apply, val_main_v30_apply, val_main_v29_apply, v26_eq, v28_eq]
  simp only [Ideal.hostUnary_log1p_def, Ideal.hostUnary_exp_def, Ideal.subf_def]

end Stages

/-- The value the first program's run ends with is, at its one index, the loss of the argument arrays. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = fun _ => Cert.Triplet.refLoss (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) := by
  funext i
  exact (congrFun (val_main_v32_eq m c) i).trans (v32_eq _ _ _ _ i)

end Cert.Triplet.Ref

end
-- ==== Proof.Finite.lean ====
/-
  The precondition read entry by entry.

  The precondition of the programs is a predicate of the argument arrays: for each of the three arrays of
  extended reals `x` (4096 × 1024), `W` (1024 × 256) and `b` (256) it takes the absolute value `max v (-v)`
  of every entry, compares it (strictly below) with the constant whose bit pattern is that of `+∞`, which
  at the extended reals IS `⊤`, takes the conjunction of all these comparisons, and then the conjunction
  of the three results; the precondition says that the outcome is 1 (true).

  A conjunction that is 1 has every conjunct 1, so for every entry `v` of every one of the three arrays
  `max v (-v) < ⊤`. On the extended reals this excludes `v = ⊤` (then `max v (-v) = ⊤`) and `v = ⊥`
  (then `-v = ⊤`), and what is left is the coercion of a real number. Hence: under the precondition every
  entry of the three arrays is a real number.
-/
import proofs.«168887_j43078521979195_2_alg».proof.Defs
import proofs.«168887_j43078521979195_2_alg».proof.Proof.Gen.Pre_finite_inputs
import proofs.«168887_j43078521979195_2_alg».proof.Proof.LibVariance
import Idealize.ShloMosaic.Lib.ReduceAll
import Idealize.ShloMosaic.PureOps.Ideal.Laws

namespace Cert.Triplet.Finite

open Idealize.ShloMosaic Idealize.SL.Sem Cert.LibVariance

/-- The shape of rank zero has one index. -/
instance : Subsingleton Cert.Pre_finite_inputs.S_.Idx := ⟨fun a b => funext fun d => d.elim0⟩

/-- The bit pattern `0x7F800000` of the 32-bit format denotes `⊤`. -/
theorem ofBits_inf : Ideal.ofBits .f32 0x7F800000#32 = (⊤ : EReal) := by
  simp [Ideal.ofBits, Ideal.ieee]

/-- An extended real whose absolute value `max v (-v)` is below `⊤` is a real number. -/
theorem isReal_of_abs_lt_top (v : EReal) (h : max v (-v) < ⊤) : IsReal v := by
  induction v using EReal.rec with
  | bot => simp at h
  | coe r => exact ⟨r, rfl⟩
  | top => simp at h

/-- The comparison "strictly below" of extended reals that came out 1 is the order's. -/
theorem lt_of_cmp_olt {a b : EReal} (h : Ideal.cmp .olt a b = 1#1) : a < b := by
  unfold Ideal.cmp at h
  by_contra hn
  simp [hn] at h

/-- One entry of the printed comparison of an array's absolute values with the broadcast constant `+∞`:
    if it is 1, the entry of the array is a real number. -/
theorem isReal_of_entry {s : Shape} (hb : Cert.Pre_finite_inputs.S_.BroadcastsInDim s (![] : Fin 0 → Fin s.rank))
    (x : FVec Ideal s .f32) (i : s.Idx)
    (h : cmpf .olt (Host.absf x)
      (broadcastInDim s ![] hb (constant (F := Ideal) Cert.Pre_finite_inputs.S_ .f32 0x7F800000#32)) i = 1#1) :
    IsReal (x i) := by
  have h' : Ideal.cmp .olt (max (x i) (-(x i))) (Ideal.ofBits .f32 0x7F800000#32) = 1#1 := h
  rw [ofBits_inf] at h'
  exact isReal_of_abs_lt_top _ (lt_of_cmp_olt h')

/-- Under the precondition every entry of the three float argument arrays is a real number. -/
theorem isReal_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread _ _).loc Cert.KernelIdeal.main_arg0) i))
    ∧ (∀ i, IsReal (m ((c.tc : Thread _ _).loc Cert.KernelIdeal.main_arg1) i))
    ∧ (∀ i, IsReal (m ((c.tc : Thread _ _).loc Cert.KernelIdeal.main_arg2) i)) := by
  have h0 := congrFun (h c) (fun d => d.elim0)
  dsimp only [Cert.Pre_finite_inputs.fn] at h0
  obtain ⟨h01, h2⟩ := IntOp.andi_eq_one.1 h0
  obtain ⟨h0', h1⟩ := IntOp.andi_eq_one.1 h01
  exact ⟨fun i => isReal_of_entry _ _ i (Host.reduce_andi_all _ _ _ _ _ h0' i),
    fun i => isReal_of_entry _ _ i (Host.reduce_andi_all _ _ _ _ _ h1 i),
    fun i => isReal_of_entry _ _ i (Host.reduce_andi_all _ _ _ _ _ h2 i)⟩

end Cert.Triplet.Finite
-- ==== Proof.lean ====
/-
  The certificate's five claims.

  Both kernel programs (the printed one and its idealization) are run as five segments — a host reshape, the
  projection kernel's region, three host reshapes, the distance kernel's region, the host tail — and every
  weakly fair execution ends with every unscoped buffer at the contents the segments compose; the argument arrays
  among them at their launch contents: the two frames. The reference is a host program; its run gives its frame.

  The idealization reads the kernel's two finite sentinels as `⊥` and `⊤` (the ledger's four entries).

  At the ideal instance the kernel program's result is `kerLoss` of the arguments: the projection `h = x · W + b`
  with its row squared norms, then per row the root of the largest squared distance to a row of its label minus the
  root of the smallest to a row of another label — the self-distance set to zero, the maxima and minima folded over
  four blocks of keys — and the sum of `log (1 + exp ·)` of these margins. The reference's result is `refLoss`:
  the same with the root taken entry by entry before the maximum and the minimum. The two agree when every float
  argument entry is a real number, which the precondition says: the root is monotone, so it commutes with the
  maximum and the minimum; a real row's computed self-distance `2‖h‖² − 2‖h‖²` is zero; and the row itself is
  always among the rows of its label, so the fill values never decide the maximum.
-/
import proofs.«168887_j43078521979195_2_alg».proof.Defs
import proofs.«168887_j43078521979195_2_alg».proof.Proof.Gen.Kernel
import proofs.«168887_j43078521979195_2_alg».proof.Proof.Gen.KernelIdeal
import proofs.«168887_j43078521979195_2_alg».proof.Proof.Gen.ReferenceIdeal
import proofs.«168887_j43078521979195_2_alg».proof.Proof.Gen.ReferenceIdeal.Run
import proofs.«168887_j43078521979195_2_alg».proof.Proof.Gen.ReferenceIdeal.Read
import proofs.«168887_j43078521979195_2_alg».proof.Proof.Gen.Pre_finite_inputs
import proofs.«168887_j43078521979195_2_alg».proof.Proof.KFrameClaims
import proofs.«168887_j43078521979195_2_alg».proof.Proof.ValueRunB
import proofs.«168887_j43078521979195_2_alg».proof.Proof.Bridge
import proofs.«168887_j43078521979195_2_alg».proof.Proof.RefValue
import proofs.«168887_j43078521979195_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Whole.frame m ρ

theorem frame_ki : Cert.frame_KernelIdeal :=
  fun m ρ _ => Cert.KernelIdeal.Whole.frame m ρ

theorem frame_ri : Cert.frame_ReferenceIdeal :=
  fun m ρ _ => (θ_run Cert.ReferenceIdeal.defs _ _).mono (fun _ h c => (h c).2) (Cert.ReferenceIdeal.Value.run (F := Ideal) m ρ)

/-- The ledger's four entries: the table gives `"neg_big"` the value `⊥` and `"pos_big"` the value `⊤`. -/
theorem preserves : Cert.preserves_Kernel_KernelIdeal :=
  ⟨IdealRules.named_const.statement Cert.KernelIdeal.κ "neg_big" .f32 0xF149F2CA#32 ⊥ rfl,
   IdealRules.named_const.statement Cert.KernelIdeal.κ "pos_big" .f32 0x7149F2CA#32 ⊤ rfl,
   IdealRules.named_const.statement Cert.KernelIdeal.κ "neg_big" .f32 0xF149F2CA#32 ⊥ rfl,
   IdealRules.named_const.statement Cert.KernelIdeal.κ "pos_big" .f32 0x7149F2CA#32 ⊤ rfl⟩

/-- Both idealized programs end with the loss of the same margins. -/
theorem algebraic : Cert.algebraic_KernelIdeal_ReferenceIdeal := by
  intro m ρ m' ρ' hpre hagree
  refine ⟨fun c => fun _ => Cert.Triplet.kerLoss (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · refine (θ_run Cert.KernelIdeal.defs _ _).mono (fun _ h c => ?_) (Cert.KernelIdeal.Whole.run_all (F := Ideal) m ρ)
    exact ⟨(h c _ (Cert.KernelIdeal.Whole.mem_uc Cert.KernelIdeal.main_v8 (by decide))).trans (Cert.KernelIdeal.WholeValue.result_eq m c),
      (h c _ (Cert.KernelIdeal.Whole.mem_uc Cert.KernelIdeal.main_arg0 (by decide))).trans (Cert.KernelIdeal.Whole.W5_arg0 m c),
      (h c _ (Cert.KernelIdeal.Whole.mem_uc Cert.KernelIdeal.main_arg1 (by decide))).trans (Cert.KernelIdeal.Whole.W5_arg1 m c),
      (h c _ (Cert.KernelIdeal.Whole.mem_uc Cert.KernelIdeal.main_arg2 (by decide))).trans (Cert.KernelIdeal.Whole.W5_arg2 m c),
      (h c _ (Cert.KernelIdeal.Whole.mem_uc Cert.KernelIdeal.main_arg3 (by decide))).trans (Cert.KernelIdeal.Whole.W5_arg3 m c)⟩
  · refine (θ_run Cert.ReferenceIdeal.defs _ _).mono (fun _ h c => ⟨(h c).1.trans ?_, (h c).2⟩)
      (Cert.ReferenceIdeal.Value.run (F := Ideal) m' ρ')
    obtain ⟨h0, h1, h2⟩ := Cert.Triplet.Finite.isReal_of_pre m hpre c
    rw [show Cert.ReferenceIdeal.Value.res_main_v32 m' c = Cert.ReferenceIdeal.Value.res_out0 (F := Ideal) m' c from rfl,
      Cert.Triplet.Ref.res_eq, (hagree c).1, (hagree c).2.1, (hagree c).2.2.1, (hagree c).2.2.2]
    funext _
    exact (Cert.Triplet.kerLoss_eq_refLoss _ _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
